-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S_ : Shape := ⟨0, ![]⟩

class Facts : Prop where
  bcast_S_S4x128x65536 : S_.BroadcastsInDim S4x128x65536 (![] : Fin 0 → Fin S4x128x65536.rank)
  reducesTo_S4x128x65536_S_d0_1_2 : S4x128x65536.ReducesTo [0, 1, 2] S_
  h_S_ : 0 < S_.numel
  bcast_S_S128x128x16 : S_.BroadcastsInDim S128x128x16 (![] : Fin 0 → Fin S128x128x16.rank)
  reducesTo_S128x128x16_S_d0_1_2 : S128x128x16.ReducesTo [0, 1, 2] S_
  bcast_S_S128 : S_.BroadcastsInDim S128 (![] : Fin 0 → Fin S128.rank)
  reducesTo_S128_S_d0 : S128.ReducesTo [0] S_
  bcast_S_S4x65536x3 : S_.BroadcastsInDim S4x65536x3 (![] : Fin 0 → Fin S4x65536x3.rank)
  reducesTo_S4x65536x3_S_d0_1_2 : S4x65536x3.ReducesTo [0, 1, 2] S_

variable [Facts]

def fn_part1 {F : FTy → Type} [FloatOps F] (main_arg1 : IVec S4x65536x3 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S4x65536x3 32 := broadcastInDim S4x65536x3 ![] bcast_S_S4x65536x3 main_c_6
  let main_v20 : IVec S4x65536x3 1 := cmpi .sge main_arg1 main_v19
  let main_c_7 : IVec S_ 32 := constantI S_ 32 65536#32
  let main_v21 : IVec S4x65536x3 32 := broadcastInDim S4x65536x3 ![] bcast_S_S4x65536x3 main_c_7
  let main_v22 : IVec S4x65536x3 1 := cmpi .slt main_arg1 main_v21
  let main_v23 : IVec S4x65536x3 1 := andi main_v20 main_v22
  let main_c_8 : IVec S_ 1 := constantI S_ 1 1#1
  let main_v24 : IVec S_ 1 := (fun x v => Host.reduce IntOp.andi x v reducesTo_S4x65536x3_S_d0_1_2 h_S_) main_v23 main_c_8
  let main_v25 : IVec S_ 1 := andi main_v18 main_v24
  main_v25

def fn {F : FTy → Type} [FloatOps F] (main_arg0 : FVec F S4x128x65536 .f32) (main_arg1 : IVec S4x65536x3 32) (main_arg2 : FVec F S128x128x16 .f32) (main_arg3 : FVec F S128 .f32) (main_arg4 : FVec F S128 .f32) : IVec S_ 1 :=
  let main_v0 : FVec F S4x128x65536 .f32 := Host.absf main_arg0
  let main_cst : FVec F S_ .f32 := constant S_ .f32 0x7F800000#32
  let main_v1 : FVec F S4x128x65536 .f32 := broadcastInDim S4x128x65536 ![] bcast_S_S4x128x65536 main_cst
  let main_v2 : IVec S4x128x65536 1 := cmpf .olt main_v0 main_v1
  let main_c : IVec S_ 1 := constantI S_ 1 1#1
  let main_v3 : IVec S_ 1 := (fun x v => Host.reduce IntOp.andi x v reducesTo_S4x128x65536_S_d0_1_2 h_S_) main_v2 main_c
  let main_v4 : FVec F S128x128x16 .f32 := Host.absf main_arg2
  let main_cst_0 : FVec F S_ .f32 := constant S_ .f32 0x7F800000#32
  let main_v5 : FVec F S128x128x16 .f32 := broadcastInDim S128x128x16 ![] bcast_S_S128x128x16 main_cst_0
  let main_v6 : IVec S128x128x16 1 := cmpf .olt main_v4 main_v5
  let main_c_1 : IVec S_ 1 := constantI S_ 1 1#1
  let main_v7 : IVec S_ 1 := (fun x v => Host.reduce IntOp.andi x v reducesTo_S128x128x16_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S4x65536x128 : Shape := ⟨3, ![4, 65536, 128]⟩
abbrev S4x65536x1 : Shape := ⟨3, ![4, 65536, 1]⟩
abbrev S_ : Shape := ⟨0, ![]⟩
abbrev S1 : Shape := ⟨1, ![1]⟩
abbrev S1x1x1 : Shape := ⟨3, ![1, 1, 1]⟩
abbrev S4x65536 : Shape := ⟨2, ![4, 65536]⟩
abbrev S128x128 : Shape := ⟨2, ![128, 128]⟩
abbrev S4x8x1x128 : Shape := ⟨4, ![4, 8, 1, 128]⟩
abbrev S1x8192x128 : Shape := ⟨3, ![1, 8192, 128]⟩
abbrev S1x1x1x128 : Shape := ⟨4, ![1, 1, 1, 128]⟩
abbrev S8192x128 : Shape := ⟨2, ![8192, 128]⟩
abbrev S1x128x8192 : Shape := ⟨3, ![1, 128, 8192]⟩
abbrev S1x128 : Shape := ⟨2, ![1, 128]⟩
abbrev S128x8192 : Shape := ⟨2, ![128, 8192]⟩

abbrev nBuf : Space → Nat
  | .hbm => 104
  | .vmem => 17
  | .smem => 0
  | _ => 0

abbrev bufTy : (tb : Table) → Fin (tcTables nBuf tb) → BufTy
  | .hbm, ⟨0, _⟩ => ⟨S4x128x65536, .f32⟩
  | .hbm, ⟨1, _⟩ => ⟨S4x65536x3, .i32⟩
  | .hbm, ⟨2, _⟩ => ⟨S128x128x16, .f32⟩
  | .hbm, ⟨3, _⟩ => ⟨S128, .f32⟩
  | .hbm, ⟨4, _⟩ => ⟨S128, .f32⟩
  | .hbm, ⟨5, _⟩ => ⟨S4x65536x128, .f32⟩
  | .hbm, ⟨6, _⟩ => ⟨S4x65536x1, .i32⟩
  | .hbm, ⟨7, _⟩ => ⟨S4x65536x1, .i32⟩
  | .hbm, ⟨8, _⟩ => ⟨S4x65536x1, .i32⟩
  | .hbm, ⟨9, _⟩ => ⟨S_, .i32⟩
  | .hbm, ⟨10, _⟩ => ⟨S4x65536x1, .i32⟩
  | .hbm, ⟨11, _⟩ => ⟨S4x65536x1, .i1⟩
  | .hbm, ⟨12, _⟩ => ⟨S_, .i32⟩
  | .hbm, ⟨13, _⟩ => ⟨S4x65536x1, .i32⟩
  | .hbm, ⟨14, _⟩ => ⟨S4x65536x1, .i32⟩
  | .hbm, ⟨15, _⟩ => ⟨S4x65536x1, .i32⟩
  | .hbm, ⟨16, _⟩ => ⟨S1, .i32⟩
  | .hbm, ⟨17, _⟩ => ⟨S_, .i32⟩
  | .hbm, ⟨18, _⟩ => ⟨S4x65536x1, .i32⟩
  | .hbm, ⟨19, _⟩ => ⟨S4x65536x1, .i1⟩
  | .hbm, ⟨20, _⟩ => ⟨S1x1x1, .i32⟩
  | .hbm, ⟨21, _⟩ => ⟨S4x65536x1, .i32⟩
  | .hbm, ⟨22, _⟩ => ⟨S4x65536x1, .i1⟩
  | .hbm, ⟨23, _⟩ => ⟨S4x65536x1, .i1⟩
  | .hbm, ⟨24, _⟩ => ⟨S_, .i1⟩
  | .hbm, ⟨25, _⟩ => ⟨S4x65536, .i1⟩
  | .hbm, ⟨26, _⟩ => ⟨S4x65536x128, .f32⟩
  | .hbm, ⟨27, _⟩ => ⟨S4x65536x128, .i1⟩
  | .hbm, ⟨28, _⟩ => ⟨S_, .f32⟩
  | .hbm, ⟨29, _⟩ => ⟨S4x65536x128, .f32⟩
  | .hbm, ⟨30, _⟩ => ⟨S4x65536x128, .f32⟩
  | .hbm, ⟨31, _⟩ => ⟨S_, .i32⟩
  | .hbm, ⟨32, _⟩ => ⟨S4x65536x1, .i32⟩
  | .hbm, ⟨33, _⟩ => ⟨S4x65536x1, .i1⟩
  | .hbm, ⟨34, _⟩ => ⟨S_, .i32⟩
  | .hbm, ⟨35, _⟩ => ⟨S4x65536x1, .i32⟩
  | .hbm, ⟨36, _⟩ => ⟨S4x65536x1, .i32⟩
  | .hbm, ⟨37, _⟩ => ⟨S4x65536x1, .i32⟩
  | .hbm, ⟨38, _⟩ => ⟨S1, .i32⟩
  | .hbm, ⟨39, _⟩ => ⟨S_, .i32⟩
  | .hbm, ⟨40, _⟩ => ⟨S4x65536x1, .i32⟩
  | .hbm, ⟨41, _⟩ => ⟨S4x65536x1, .i1⟩
  | .hbm, ⟨42, _⟩ => ⟨S1x1x1, .i32⟩
  | .hbm, ⟨43, _⟩ => ⟨S4x65536x1, .i32⟩
  | .hbm, ⟨44, _⟩ => ⟨S4x65536x1, .i1⟩
  | .hbm, ⟨45, _⟩ => ⟨S4x65536x1, .i1⟩
  | .hbm, ⟨46, _⟩ => ⟨S_, .i1⟩
  | .hbm, ⟨47, _⟩ => ⟨S4x65536, .i1⟩
  | .hbm, ⟨48, _⟩ => ⟨S4x65536x128, .f32⟩
  | .hbm, ⟨49, _⟩ => ⟨S4x65536x128, .i1⟩
  | .hbm, ⟨50, _⟩ => ⟨S_, .f32⟩
  | .hbm, ⟨51, _⟩ => ⟨S4x65536x128, .f32⟩
  | .hbm, ⟨52, _⟩ => ⟨S4x65536x128, .f32⟩
  | .hbm, ⟨53, _⟩ => ⟨S_, .i32⟩
  | .hbm, ⟨54, _⟩ => ⟨S4x65536x1, .i32⟩
  | .hbm, ⟨55, _⟩ => ⟨S4x65536x1, .i1⟩
  | .hbm, ⟨56, _⟩ => ⟨S_, .i32⟩
  | .hbm, ⟨57, _⟩ => ⟨S4x65536x1, .i32⟩
  | .hbm, ⟨58, _⟩ => ⟨S4x65536x1, .i32⟩
  | .hbm, ⟨59, _⟩ => ⟨S4x65536x1, .i32⟩
  | .hbm, ⟨60, _⟩ => ⟨S1, .i32⟩
  | .hbm, ⟨61, _⟩ => ⟨S_, .i32⟩
  | .hbm, ⟨62, _⟩ => ⟨S4x65536x1, .i32⟩
  | .hbm, ⟨63, _⟩ => ⟨S4x65536x1, .i1⟩
  | .hbm, ⟨64, _⟩ => ⟨S1x1x1, .i32⟩
  | .hbm, ⟨65, _⟩ => ⟨S4x65536x1, .i32⟩
  | .hbm, ⟨66, _⟩ => ⟨S4x65536x1, .i1⟩
  | .hbm, ⟨67, _⟩ => ⟨S4x65536x1, .i1⟩
  | .hbm, ⟨68, _⟩ => ⟨S_, .i1⟩
  | .hbm, ⟨69, _⟩ => ⟨S4x65536, .i1⟩
  | .hbm, ⟨70, _⟩ => ⟨S4x65536x128, .f32⟩
  | .hbm, ⟨71, _⟩ => ⟨S4x65536x128, .i1⟩
  | .hbm, ⟨72, _⟩ => ⟨S_, .f32⟩
  | .hbm, ⟨73, _⟩ => ⟨S4x65536x128, .f32⟩
  | .hbm, ⟨74, _⟩ => ⟨S4x65536x128, .f32⟩
  | .hbm, ⟨75, _⟩ => ⟨S4x65536x128, .f32⟩
  | .hbm, ⟨76, _⟩ => ⟨S4x65536x128, .f32⟩
  | .hbm, ⟨77, _⟩ => ⟨S4x65536x128, .f32⟩
  | .hbm, ⟨78, _⟩ => ⟨S_, .f32⟩
  | .hbm, ⟨79, _⟩ => ⟨S4x65536x128, .f32⟩
  | .hbm, ⟨80, _⟩ => ⟨S4x65536x128, .f32⟩
  | .hbm, ⟨81, _⟩ => ⟨S4x65536x128, .bf16⟩
  | .hbm, ⟨82, _⟩ => ⟨S_, .f32⟩
  | .hbm, ⟨83, _⟩ => ⟨S128x128, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S128x128, .bf16⟩
  | .hbm, ⟨88, _⟩ => ⟨S4x65536x128, .f32⟩
  | .hbm, ⟨89, _⟩ => ⟨S4x8x1x128, .f32⟩
  | .hbm, ⟨90, _⟩ => ⟨S4x8x1x128, .f32⟩
  | .hbm, ⟨91, _⟩ => ⟨S_, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S4x128x65536, .f32⟩
  | .local _ .vmem, ⟨0, _⟩ => ⟨S1x8192x128, .bf16⟩
  | .local _ .vmem, ⟨1, _⟩ => ⟨S1x8192x128, .bf16⟩
  | .local _ .vmem, ⟨2, _⟩ => ⟨S128x128, .bf16⟩
  | .local _ .vmem, ⟨3, _⟩ => ⟨S1x8192x128, .f32⟩
  | .local _ .vmem, ⟨4, _⟩ => ⟨S1x8192x128, .f32⟩
  | .local _ .vmem, ⟨5, _⟩ => ⟨S1x1x1x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x1x128, .f32⟩
  | .local _ .vmem, ⟨9, _⟩ => ⟨S1x8192x128, .f32⟩
  | .local _ .vmem, ⟨10, _⟩ => ⟨S1x8192x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S1x128x8192, .f32⟩
  | .local _ .vmem, ⟨16, _⟩ => ⟨S1x128x8192, .f32⟩
  | _, _ => ⟨S4x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v5 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_cst : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_cst_0 : Ref sig .tc := ⟨.hbm, 82, rfl⟩
abbrev main_v13 : Ref sig .tc := ⟨.hbm, 83, rfl⟩
abbrev main_cst_1 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17_0 : Ref sig .tc := ⟨.hbm, 88, rfl⟩
abbrev main_v17_1 : Ref sig .tc := ⟨.hbm, 89, rfl⟩
abbrev main_v17_2 : Ref sig .tc := ⟨.hbm, 90, rfl⟩
abbrev main_cst_2 : Ref sig .tc := ⟨.hbm, 91, rfl⟩
abbrev main_v18 : Ref sig .tc := ⟨.hbm, 92, rfl⟩
abbrev main_cst_3 : Ref sig .tc := ⟨.hbm, 93, rfl⟩
abbrev main_v19 : Ref sig .tc := ⟨.hbm, 94, rfl⟩
abbrev main_v20 : Ref sig .tc := ⟨.hbm, 95, rfl⟩
abbrev main_cst_4 : Ref sig .tc := ⟨.hbm, 96, rfl⟩
abbrev main_v21 : Ref sig .tc := ⟨.hbm, 97, rfl⟩
abbrev main_cst_5 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S4x128x65536_S4x65536x128_0_2_1 : S4x128x65536.Transposes [0, 2, 1] S4x65536x128
  slices_S4x65536x3_S4x65536x1_0_0_0 : S4x65536x3.Slices ![0, 0, 0] S4x65536x1
  slices_S4x65536x3_S4x65536x1_0_0_1 : S4x65536x3.Slices ![0, 0, 1] S4x65536x1
  slices_S4x65536x3_S4x65536x1_0_0_2 : S4x65536x3.Slices ![0, 0, 2] S4x65536x1
  bcast_S_S4x65536x1 : S_.BroadcastsInDim S4x65536x1 (![] : Fin 0 → Fin S4x65536x1.rank)
  bcast_S1_S1x1x1_2 : S1.BroadcastsInDim S1x1x1 (![2] : Fin 1 → Fin S1x1x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  h_S_ : 0 < S_.numel
  bcast_S4x65536_S4x65536x128_0_1 : S4x65536.BroadcastsInDim S4x65536x128 (![0, 1] : Fin 2 → Fin S4x65536x128.rank)
  bcast_S_S4x65536x128 : S_.BroadcastsInDim S4x65536x128 (![] : Fin 0 → Fin S4x65536x128.rank)
  bitsLt_bf16_f32 : FTy.bits .bf16 < FTy.bits .f32
  reducesTo_S128x128x16_S128x128_d2 : S128x128x16.ReducesTo [2] S128x128
  bcast_S_S128x128 : S_.BroadcastsInDim S128x128 (![] : Fin 0 → Fin S128x128.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S1x8192x128 : S8192x128.ShapeCasts S1x8192x128
  reduces_S8192x128_S128 : S8192x128.Reduces [0] S128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S128 : S1x1x1x128.ShapeCasts S128
  shapeCasts_S128_S1x1x1x128 : S128.ShapeCasts S1x1x1x128
  reducesTo_S4x8x1x128_S128_d0_1_2 : S4x8x1x128.ReducesTo [0, 1, 2] S128
  bcast_S_S128 : S_.BroadcastsInDim S128 (![] : Fin 0 → Fin S128.rank)
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8192x128 : S1x128.Broadcasts S8192x128
  transposes_S8192x128_p1_0_S128x8192 : S8192x128.Transposes [1, 0] S128x8192
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  gather_S4x65536x128_S4x65536x1_S4x65536x128_2_1_0_0_1_2_11128_wf : GatherDims.WF S4x65536x128 S4x65536x1 S4x65536x128 [2] [1] [0] [1] [0] 2 ![1, 1, 128]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S4x65536x128.size a
  hwx0_0 : ∀ i : grid0.Coords, EltTy.bits .bf16 = 32 ∨ (Rect.block (s := S4x65536x128) S1x8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S4x65536x128.size a
  hwx0_2 : ∀ i : grid0.Coords, EltTy.bits .f32 = 32 ∨ (Rect.block (s := S4x65536x128) S1x8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x128.size a ≤ S4x8x1x128.size a
  hwx0_3 : ∀ i : grid0.Coords, EltTy.bits .f32 = 32 ∨ (Rect.block (s := S4x8x1x128) S1x1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x128.size a ≤ S4x8x1x128.size a
  hwx0_4 : ∀ i : grid0.Coords, EltTy.bits .f32 = 32 ∨ (Rect.block (s := S4x8x1x128) S1x1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S4x65536x128.size a
  hwx1_0 : ∀ i : grid1.Coords, EltTy.bits .f32 = 32 ∨ (Rect.block (s := S4x65536x128) S1x8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x8192.size a ≤ S4x128x65536.size a
  hwx1_5 : ∀ i : grid1.Coords, EltTy.bits .f32 = 32 ∨ (Rect.block (s := S4x128x65536) S1x128x8192.size (cc1_transform_5 i) (hinb1_5 i)).WholeWords (EltTy.packing .f32)

variable [Facts₀]

def gather_S4x65536x128_S4x65536x1_S4x65536x128_2_1_0_0_1_2_11128 : GatherDims S4x65536x128 S4x65536x1 S4x65536x128 where
  offsetDims := [2]
  collapsedSliceDims := [1]
  operandBatchingDims := [0]
  startIndicesBatchingDims := [0]
  startIndexMap := [1]
  indexVectorDim := 2
  sliceSizes := ![1, 1, 128]
  wf := gather_S4x65536x128_S4x65536x1_S4x65536x128_2_1_0_0_1_2_11128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v12) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17_0) S1x8192x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_1) S1x1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_2) S1x1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17_0) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x128x65536 : Shape := ⟨3, ![4, 128, 65536]⟩
abbrev S4x65536x3 : Shape := ⟨3, ![4, 65536, 3]⟩
abbrev S128x128x16 : Shape := ⟨3, ![128, 128, 16]⟩
abbrev S128 : Shape := ⟨1, ![128]⟩
abbrev S4x65536x128 : Shape := ⟨3, ![4, 65536, 128]⟩
abbrev S4x196608x1 : Shape := ⟨3, ![4, 196608, 1]⟩
abbrev S_ : Shape := ⟨0, ![]⟩
abbrev S1 : Shape := ⟨1, ![1]⟩
abbrev S1x1x1 : Shape := ⟨3, ![1, 1, 1]⟩
abbrev S4x196608 : Shape := ⟨2, ![4, 196608]⟩
abbrev S4x196608x128 : Shape := ⟨3, ![4, 196608, 128]⟩
abbrev S4x65536x3x128 : Shape := ⟨4, ![4, 65536, 3, 128]⟩
abbrev S128x128 : Shape := ⟨2, ![128, 128]⟩
abbrev S1x1x128 : Shape := ⟨3, ![1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x128x65536, .f32⟩
  | .hbm, ⟨1, _⟩ => ⟨S4x65536x3, .i32⟩
  | .hbm, ⟨2, _⟩ => ⟨S128x128x16, .f32⟩
  | .hbm, ⟨3, _⟩ => ⟨S128, .f32⟩
  | .hbm, ⟨4, _⟩ => ⟨S128, .f32⟩
  | .hbm, ⟨5, _⟩ => ⟨S4x65536x128, .f32⟩
  | .hbm, ⟨6, _⟩ => ⟨S4x196608x1, .i32⟩
  | .hbm, ⟨7, _⟩ => ⟨S_, .i32⟩
  | .hbm, ⟨8, _⟩ => ⟨S4x196608x1, .i32⟩
  | .hbm, ⟨9, _⟩ => ⟨S4x196608x1, .i1⟩
  | .hbm, ⟨10, _⟩ => ⟨S_, .i32⟩
  | .hbm, ⟨11, _⟩ => ⟨S4x196608x1, .i32⟩
  | .hbm, ⟨12, _⟩ => ⟨S4x196608x1, .i32⟩
  | .hbm, ⟨13, _⟩ => ⟨S4x196608x1, .i32⟩
  | .hbm, ⟨14, _⟩ => ⟨S1, .i32⟩
  | .hbm, ⟨15, _⟩ => ⟨S_, .i32⟩
  | .hbm, ⟨16, _⟩ => ⟨S4x196608x1, .i32⟩
  | .hbm, ⟨17, _⟩ => ⟨S4x196608x1, .i1⟩
  | .hbm, ⟨18, _⟩ => ⟨S1x1x1, .i32⟩
  | .hbm, ⟨19, _⟩ => ⟨S4x196608x1, .i32⟩
  | .hbm, ⟨20, _⟩ => ⟨S4x196608x1, .i1⟩
  | .hbm, ⟨21, _⟩ => ⟨S4x196608x1, .i1⟩
  | .hbm, ⟨22, _⟩ => ⟨S_, .i1⟩
  | .hbm, ⟨23, _⟩ => ⟨S4x196608, .i1⟩
  | .hbm, ⟨24, _⟩ => ⟨S4x196608x128, .f32⟩
  | .hbm, ⟨25, _⟩ => ⟨S4x196608x128, .i1⟩
  | .hbm, ⟨26, _⟩ => ⟨S_, .f32⟩
  | .hbm, ⟨27, _⟩ => ⟨S4x196608x128, .f32⟩
  | .hbm, ⟨28, _⟩ => ⟨S4x196608x128, .f32⟩
  | .hbm, ⟨29, _⟩ => ⟨S4x65536x3x128, .f32⟩
  | .hbm, ⟨30, _⟩ => ⟨S_, .f32⟩
  | .hbm, ⟨31, _⟩ => ⟨S4x65536x128, .f32⟩
  | .hbm, ⟨32, _⟩ => ⟨S4x65536x128, .f32⟩
  | .hbm, ⟨33, _⟩ => ⟨S_, .f32⟩
  | .hbm, ⟨34, _⟩ => ⟨S4x65536x128, .f32⟩
  | .hbm, ⟨35, _⟩ => ⟨S4x65536x128, .f32⟩
  | .hbm, ⟨36, _⟩ => ⟨S_, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S4x65536x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x1x128, .f32⟩
  | .hbm, ⟨51, _⟩ => ⟨S_, .f32⟩
  | .hbm, ⟨52, _⟩ => ⟨S1x1x128, .f32⟩
  | .hbm, ⟨53, _⟩ => ⟨S1x1x128, .f32⟩
  | .hbm, ⟨54, _⟩ => ⟨S4x65536x128, .f32⟩
  | .hbm, ⟨55, _⟩ => ⟨S4x65536x128, .f32⟩
  | .hbm, ⟨56, _⟩ => ⟨S4x65536x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x1x128, .f32⟩
  | .hbm, ⟨71, _⟩ => ⟨S4x65536x128, .f32⟩
  | .hbm, ⟨72, _⟩ => ⟨S4x65536x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x1x128, .f32⟩
  | .hbm, ⟨78, _⟩ => ⟨S4x65536x128, .f32⟩
  | .hbm, ⟨79, _⟩ => ⟨S4x65536x128, .f32⟩
  | .hbm, ⟨80, _⟩ => ⟨S1x1x128, .f32⟩
  | .hbm, ⟨81, _⟩ => ⟨S4x65536x128, .f32⟩
  | .hbm, ⟨82, _⟩ => ⟨S4x65536x128, .f32⟩
  | .hbm, ⟨83, _⟩ => ⟨S1x1x128, .f32⟩
  | .hbm, ⟨84, _⟩ => ⟨S4x65536x128, .f32⟩
  | .hbm, ⟨85, _⟩ => ⟨S4x65536x128, .f32⟩
  | .hbm, ⟨86, _⟩ => ⟨S_, .f32⟩
  | .hbm, ⟨87, _⟩ => ⟨S4x65536x128, .f32⟩
  | .hbm, ⟨88, _⟩ => ⟨S4x65536x128, .f32⟩
  | .hbm, ⟨89, _⟩ => ⟨S4x128x65536, .f32⟩
  | _, _ => ⟨S4x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_cst_4 : Ref sig .tc := ⟨.hbm, 44, rfl⟩
abbrev main_v13 : Ref sig .tc := ⟨.hbm, 45, rfl⟩
abbrev main_v14 : Ref sig .tc := ⟨.hbm, 46, rfl⟩
abbrev main_c : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_cst_1 : Ref sig .tc := ⟨.hbm, 58, rfl⟩
abbrev main_call1_v8 : Ref sig .tc := ⟨.hbm, 59, rfl⟩
abbrev main_call1_cst_2 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_cst_3 : Ref sig .tc := ⟨.hbm, 64, rfl⟩
abbrev main_call1_v12 : Ref sig .tc := ⟨.hbm, 65, rfl⟩
abbrev main_call1_cst_4 : Ref sig .tc := ⟨.hbm, 66, rfl⟩
abbrev main_call1_call0_v0 : Ref sig .tc := ⟨.hbm, 67, rfl⟩
abbrev main_call1_call0_v1 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_5 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_call2_cst : Ref sig .tc := ⟨.hbm, 86, rfl⟩
abbrev main_call2_v0 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]

class Facts₀ : Prop where
  transposes_S4x128x65536_S4x65536x128_0_2_1 : S4x128x65536.Transposes [0, 2, 1] S4x65536x128
  shapeCasts_S4x65536x3_S4x196608x1 : S4x65536x3.ShapeCasts S4x196608x1
  bcast_S_S4x196608x1 : S_.BroadcastsInDim S4x196608x1 (![] : Fin 0 → Fin S4x196608x1.rank)
  bcast_S1_S1x1x1_2 : S1.BroadcastsInDim S1x1x1 (![2] : Fin 1 → Fin S1x1x1.rank)
  bcast_S1x1x1_S4x196608x1_0_1_2 : S1x1x1.BroadcastsInDim S4x196608x1 (![0, 1, 2] : Fin 3 → Fin S4x196608x1.rank)
  reducesTo_S4x196608x1_S4x196608_d2 : S4x196608x1.ReducesTo [2] S4x196608
  h_S_ : 0 < S_.numel
  bcast_S4x196608_S4x196608x128_0_1 : S4x196608.BroadcastsInDim S4x196608x128 (![0, 1] : Fin 2 → Fin S4x196608x128.rank)
  bcast_S_S4x196608x128 : S_.BroadcastsInDim S4x196608x128 (![] : Fin 0 → Fin S4x196608x128.rank)
  shapeCasts_S4x196608x128_S4x65536x3x128 : S4x196608x128.ShapeCasts S4x65536x3x128
  reducesTo_S4x65536x3x128_S4x65536x128_d2 : S4x65536x3x128.ReducesTo [2] S4x65536x128
  bcast_S_S4x65536x128 : S_.BroadcastsInDim S4x65536x128 (![] : Fin 0 → Fin S4x65536x128.rank)
  reducesTo_S128x128x16_S128x128_d2 : S128x128x16.ReducesTo [2] S128x128
  bcast_S_S128x128 : S_.BroadcastsInDim S128x128 (![] : Fin 0 → Fin S128x128.rank)
  reducesTo_S4x65536x128_S128_d0_1 : S4x65536x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S4x65536x128_0_1_2 : S1x1x128.BroadcastsInDim S4x65536x128 (![0, 1, 2] : Fin 3 → Fin S4x65536x128.rank)
  transposes_S4x65536x128_S4x128x65536_0_2_1 : S4x65536x128.Transposes [0, 2, 1] S4x128x65536
  gather_S4x65536x128_S4x196608x1_S4x196608x128_2_1_0_0_1_2_11128_wf : GatherDims.WF S4x65536x128 S4x196608x1 S4x196608x128 [2] [1] [0] [1] [0] 2 ![1, 1, 128]
  dot_S4x65536x128_S128x128_S4x65536x128_2_0_01_1_n_n_wf : DotDims.WF S4x65536x128 S128x128 S4x65536x128 [2] [0] [0, 1] [1] [] []

variable [Facts₀]

def gather_S4x65536x128_S4x196608x1_S4x196608x128_2_1_0_0_1_2_11128 : GatherDims S4x65536x128 S4x196608x1 S4x196608x128 where
  offsetDims := [2]
  collapsedSliceDims := [1]
  operandBatchingDims := [0]
  startIndicesBatchingDims := [0]
  startIndexMap := [1]
  indexVectorDim := 2
  sliceSizes := ![1, 1, 128]
  wf := gather_S4x65536x128_S4x196608x1_S4x196608x128_2_1_0_0_1_2_11128_wf
def dot_S4x65536x128_S128x128_S4x65536x128_2_0_01_1_n_n : DotDims S4x65536x128 S128x128 S4x65536x128 where
  lhsContracting := [2]
  rhsContracting := [0]
  lhsNonContracting := [0, 1]
  rhsNonContracting := [1]
  lhsBatch := []
  rhsBatch := []
  wf := dot_S4x65536x128_S128x128_S4x65536x128_2_0_01_1_n_n_wf

class Facts : Prop extends Facts₀ where

variable [Facts]
-- ==== Proof.KRun.lean ====
/-
  The idealized kernel program's run with its result named.

  Every weakly fair execution of the program terminates without a fault, leaves the five argument arrays as
  launched, and leaves the result buffer at the contents the second region's write-backs give it: the fold of the
  host lines and of the two regions' blocks from the launch memory. The launch is the one the frame of the same
  program uses; only the final read-off also names the result buffer.
-/
import proofs.«102829_j74062416053231_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at what the second region leaves in it, the arguments as launched. -/
theorem run_result : θ_run defs (onTc (τ := τ) (main (F := F))) ⟨m, fun _ => 0, ρ⟩ (fun r => ∀ c : Dev nD,
      r.2.mem ((c.tc : Thread nD τ).loc main_v26) = W8 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v26 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.KRun

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.Region0.lean ====
import proofs.«102829_j74062416053231_2_alg».proof.Proof.Gen.KernelIdeal.Frame
import proofs.«102829_j74062416053231_2_alg».proof.Proof.LibDense
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-
  What the first region leaves in its three output arrays.

  At grid point (b, s) the body multiplies rows 8192·s … 8192·s + 8191 of batch b of the first operand A (a [4, 65536, 128]
  array) by the second operand B (a [128, 128] matrix), stores the product as the same rows of the first output, and
  stores the column sums of the product and of its squares as row (b, s) of the second and third outputs. The 32 blocks
  tile each output array, so after the region
      first  (b, n, k)    = ∑ c, A (b, n, c) · B (c, k),
      second (b, s, 0, k) = ∑ r < 8192, first (b, 8192·s + r, k),
      third  (b, s, 0, k) = ∑ r < 8192, first (b, 8192·s + r, k)²,
  whatever extended reals A and B hold.
-/
namespace Cert.KernelIdeal.Region0
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The three functions -/

/-- Entry (b, n, k) of the product of A's batch b with B. -/
def prod (A : S4x65536x128.Idx → EReal) (B : S128x128.Idx → EReal) (b : Fin 4) (n : Fin 65536) (k : Fin 128) : EReal :=
  ∑ cc : Fin 128, A (ix3 b n cc) * B (ix2 cc k)

/-- Row 8192·s + r. -/
abbrev row (s : Fin 8) (r : Fin 8192) : Fin 65536 := ⟨s.val * 8192 + r.val, by have := s.isLt; have := r.isLt; omega⟩

/-- The column sum of strip s of batch b. -/
def colSum (A : S4x65536x128.Idx → EReal) (B : S128x128.Idx → EReal) (b : Fin 4) (s : Fin 8) (k : Fin 128) : EReal :=
  ∑ r : Fin 8192, prod A B b (row s r) k

/-- The column sum of squares of strip s of batch b. -/
def colSq (A : S4x65536x128.Idx → EReal) (B : S128x128.Idx → EReal) (b : Fin 4) (s : Fin 8) (k : Fin 128) : EReal :=
  ∑ r : Fin 8192, prod A B b (row s r) k * prod A B b (row s r) k

def G2 (A : S4x65536x128.Idx → EReal) (B : S128x128.Idx → EReal) : S4x65536x128.Idx → EReal :=
  fun i => prod A B (i 0) (i 1) (i 2)
def G3 (A : S4x65536x128.Idx → EReal) (B : S128x128.Idx → EReal) : S4x8x1x128.Idx → EReal :=
  fun i => colSum A B (i 0) (i 1) (i 3)
def G4 (A : S4x65536x128.Idx → EReal) (B : S128x128.Idx → EReal) : S4x8x1x128.Idx → EReal :=
  fun i => colSq A B (i 0) (i 1) (i 3)

/-! ## The body's values at an index -/

/-- The matrix unit's product of the two loaded blocks, entry (r, k). -/
theorem pay1_apply (x0 : Vec Ideal S1x8192x128 .bf16) (x1 : Vec Ideal S128x128 .bf16) (r : Fin 8192) (k : Fin 128) :
    k0_pay1 x0 x1 (ix2 r k) = ∑ cc : Fin 128, x0 (ix3 (0 : Fin 1) r cc) * x1 (ix2 cc k) := by
  unfold k0_pay1
  refine (Cert.LibDense.matmul_zero_plain dot_S8192x128_S128x128_S8192x128_1_0_0_1_n_n none rfl rfl
    (fun j q => ?_) (fun j q => ?_) (fun j q => ?_) (fun j q => ?_) _ _ r k).trans ?_
  · rfl
  · exact DotDims.lhsIdx_val_of_single _ rfl j q
  · exact DotDims.rhsIdx_val_of_single _ rfl j q
  · rfl
  · unfold Cert.LibDense.dense
    refine Finset.sum_congr rfl fun cc _ => ?_
    dsimp only
    rw [shapeCast_1ab_ab_apply, shapeCast_self]

/-- The stored product block, entry (u, r, k). -/
theorem pay2_apply (x0 : Vec Ideal S1x8192x128 .bf16) (x1 : Vec Ideal S128x128 .bf16) (u : Fin 1) (r : Fin 8192) (k : Fin 128) :
    k0_pay2 x0 x1 (ix3 u r k) = ∑ cc : Fin 128, x0 (ix3 (0 : Fin 1) r cc) * x1 (ix2 cc k) := by
  unfold k0_pay2
  exact (shapeCast_ab_1ab_apply _ _ u r k).trans (pay1_apply x0 x1 r k)

/-- An [128] array cast to [1, 1, 1, 128], read at (u, v, w, k). -/
theorem cast_a_111a (x : S128.Idx → EReal) (h : S128.ShapeCasts S1x1x1x128) (u v w : Fin 1) (k : Fin 128) :
    shapeCast S1x1x1x128 x h (ix4 u v w k) = x (ix1 k) :=
  shapeCast_apply x h _ _ (by
    have hu : u.val = 0 := by omega
    have hv : v.val = 0 := by omega
    have hw : w.val = 0 := by omega
    rw [Shape.rowMajor_val_four, Shape.rowMajor_val_one]
    show k.val = ((u.val * 1 + v.val) * 1 + w.val) * 128 + k.val
    omega)

/-- A sum down the 8192 rows of an [8192, 128] array, read at column k. -/
theorem colred_apply (v : FVec Ideal S8192x128 .f32) (k : Fin 128) :
    multiReduction (F := Ideal) .add [0] S128 v 0x00000000#32 reduces_S8192x128_S128 (.inl rfl) rfl (ix1 k)
      = ∑ r : Fin 8192, v (ix2 r k) := by
  refine (Ideal.multiReduction_add_single v 0x00000000#32 reduces_S8192x128_S128 (.inl rfl) rfl (ix1 k)).trans ?_
  refine Finset.sum_congr rfl fun r _ => congrArg v ?_
  funext a
  match a with
  | ⟨0, _⟩ => rfl
  | ⟨1, _⟩ => rfl

/-- The stored column sums, entry (u, v, w, k). -/
theorem pay3_apply (x0 : Vec Ideal S1x8192x128 .bf16) (x1 : Vec Ideal S128x128 .bf16) (u v w : Fin 1) (k : Fin 128) :
    k0_pay3 x0 x1 (ix4 u v w k) = ∑ r : Fin 8192, ∑ cc : Fin 128, x0 (ix3 (0 : Fin 1) r cc) * x1 (ix2 cc k) := by
  unfold k0_pay3
  refine (cast_a_111a _ _ u v w k).trans ?_
  refine (colred_apply _ k).trans ?_
  exact Finset.sum_congr rfl fun r _ => pay1_apply x0 x1 r k

/-- The stored column sums of squares, entry (u, v, w, k). -/
theorem pay4_apply (x0 : Vec Ideal S1x8192x128 .bf16) (x1 : Vec Ideal S128x128 .bf16) (u v w : Fin 1) (k : Fin 128) :
    k0_pay4 x0 x1 (ix4 u v w k)
      = ∑ r : Fin 8192, (∑ cc : Fin 128, x0 (ix3 (0 : Fin 1) r cc) * x1 (ix2 cc k)) * (∑ cc : Fin 128, x0 (ix3 (0 : Fin 1) r cc) * x1 (ix2 cc k)) := by
  unfold k0_pay4
  refine (cast_a_111a _ _ u v w k).trans ?_
  refine (colred_apply _ k).trans ?_
  refine Finset.sum_congr rfl fun r _ => ?_
  rw [mulf_apply, pay1_apply]

/-- A row of one block against a column of the other, when the blocks' entries are the arrays' entries. -/
theorem rowdot_eq (x0 : Vec Ideal S1x8192x128 .bf16) (x1 : Vec Ideal S128x128 .bf16)
    (A : S4x65536x128.Idx → EReal) (B : S128x128.Idx → EReal) (b : Fin 4) (n : Fin 65536) (k : Fin 128) (r : Fin 8192)
    (h0 : ∀ cc, x0 (ix3 (0 : Fin 1) r cc) = A (ix3 b n cc)) (h1 : ∀ cc, x1 (ix2 cc k) = B (ix2 cc k)) :
    ∑ cc : Fin 128, x0 (ix3 (0 : Fin 1) r cc) * x1 (ix2 cc k) = prod A B b n k := by
  unfold prod
  exact Finset.sum_congr rfl fun cc _ => by rw [h0, h1]

/-! ## From blocks to arrays -/

/-- The printed index maps over the grid: the first operand's block and the three outputs' blocks sit at the same
    (batch, strip); the second operand's block is the whole matrix. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0
    ∧ win0_2.index t (0 : Fin 3) ≤ 3 ∧ win0_2.index t (1 : Fin 3) ≤ 7
    ∧ win0_3.index t (0 : Fin 4) = win0_2.index t (0 : Fin 3) ∧ win0_3.index t (1 : Fin 4) = win0_2.index t (1 : Fin 3)
    ∧ win0_3.index t (2 : Fin 4) = 0 ∧ win0_3.index t (3 : Fin 4) = 0
    ∧ win0_4.index t (0 : Fin 4) = win0_2.index t (0 : Fin 3) ∧ win0_4.index t (1 : Fin 4) = win0_2.index t (1 : Fin 3)
    ∧ win0_4.index t (2 : Fin 4) = 0 ∧ win0_4.index t (3 : Fin 4) = 0 :=
  (by decide +kernel : ∀ t : Fin grid0.N, _)

/-- Every (batch, strip) is some point's. -/
theorem idx_onto : ∀ (q0 : Fin 4) (q1 : Fin 8), ∃ t : Fin cfg0.N, win0_2.index t (0 : Fin 3) = q0.val ∧ win0_2.index t (1 : Fin 3) = q1.val :=
  (by decide +kernel : ∀ (q0 : Fin 4) (q1 : Fin 8), ∃ t : Fin grid0.N, win0_2.index t (0 : Fin 3) = q0.val ∧ win0_2.index t (1 : Fin 3) = q1.val)

/-- The first operand's block at a point, read at (0, r, cc): the array at the block's batch and row. -/
theorem blk0_apply (c : Dev nD) (t : Fin cfg0.N) (r : Fin 8192) (cc : Fin 128) (b : Fin 4) (n : Fin 65536)
    (hb : b.val = win0_2.index t (0 : Fin 3)) (hn : n.val = win0_2.index t (1 : Fin 3) * 8192 + r.val) :
    (iblk0 V c 0 t : Vec Ideal S1x8192x128 .bf16) (ix3 (0 : Fin 1) r cc) = (V c main_v12 : S4x65536x128.Idx → EReal) (ix3 b n cc) := by
  obtain ⟨e0, e1, e2, -⟩ := idx_facts t
  unfold iblk0
  rw [View.read_apply]
  show V c main_v12 _ = V c main_v12 _
  congr 1
  funext a
  apply Fin.ext
  match a with
  | ⟨0, _⟩ => show win0_0.index t (0 : Fin 3) * 1 + 1 * 0 = b.val; omega
  | ⟨1, _⟩ => show win0_0.index t (1 : Fin 3) * 8192 + 1 * r.val = n.val; omega
  | ⟨2, _⟩ => show win0_0.index t (2 : Fin 3) * 128 + 1 * cc.val = cc.val; omega

/-- The second operand's block at a point is the matrix. -/
theorem blk1_apply (c : Dev nD) (t : Fin cfg0.N) (cc k : Fin 128) :
    (iblk0 V c 1 t : Vec Ideal S128x128 .bf16) (ix2 cc k) = (V c main_v16 : S128x128.Idx → EReal) (ix2 cc k) := by
  obtain ⟨-, -, -, -, e4, e5, -⟩ := idx_facts t
  unfold iblk0
  rw [View.read_apply]
  show V c main_v16 _ = V c main_v16 _
  congr 1
  funext a
  apply Fin.ext
  match a with
  | ⟨0, _⟩ => show win0_1.index t (0 : Fin 2) * 128 + 1 * cc.val = cc.val; omega
  | ⟨1, _⟩ => show win0_1.index t (1 : Fin 2) * 128 + 1 * k.val = k.val; omega

/-- Where an element of a point's block of the first output sits in the array. -/
theorem emb2_eq (t : Fin cfg0.N) (u : Fin 1) (r : Fin 8192) (k : Fin 128) (b : Fin 4) (n : Fin 65536)
    (hb : b.val = win0_2.index t (0 : Fin 3)) (hn : n.val = win0_2.index t (1 : Fin 3) * 8192 + r.val) :
    ((cfg0.win 2).blk t).view.emb (ix3 u r k) = (ix3 b n k : S4x65536x128.Idx) := by
  obtain ⟨-, -, -, e3, -⟩ := idx_facts t
  have hu : u.val = 0 := by omega
  funext a
  apply Fin.ext
  match a with
  | ⟨0, _⟩ => show win0_2.index t (0 : Fin 3) * 1 + 1 * u.val = b.val; omega
  | ⟨1, _⟩ => show win0_2.index t (1 : Fin 3) * 8192 + 1 * r.val = n.val; omega
  | ⟨2, _⟩ => show win0_2.index t (2 : Fin 3) * 128 + 1 * k.val = k.val; omega

/-- What a point writes back to the first output is its block of the product. -/
theorem flushed2_eq (c : Dev nD) (t : Fin cfg0.N) :
    (dat0 V c).flushed 2 t = ((cfg0.win 2).blk t).view.read (Elt Ideal) (G2 (V c main_v12) (V c main_v16)) := by
  show (cfg0.win 2).cut (grid0.coords t) ((dat0 V c).after 2 t) = _
  rw [after0_2]
  unfold out0_2
  rw [View.canon_unit_zero hz3]
  simp only [View.ld_unit_zero (S := S1x8192x128) hz3, View.ld_unit_zero (S := S128x128) hz2]
  obtain ⟨e0, e1, e2, e3, e4, e5, e6, e7, -⟩ := idx_facts t
  funext j
  obtain ⟨u, r, k, rfl⟩ : ∃ (u : Fin 1) (r : Fin 8192) (k : Fin 128), j = ix3 u r k := ⟨j 0, j 1, j 2, eq_ix3 j⟩
  rw [View.read_apply]
  refine (pay2_apply (iblk0 V c 0 t) (iblk0 V c 1 t) u r k).trans ?_
  have hr := r.isLt
  rw [emb2_eq t u r k ⟨win0_2.index t (0 : Fin 3), by omega⟩ ⟨win0_2.index t (1 : Fin 3) * 8192 + r.val, by omega⟩ rfl rfl]
  show _ = prod (V c main_v12) (V c main_v16) _ _ _
  unfold prod
  refine Finset.sum_congr rfl fun cc _ => ?_
  rw [blk0_apply V c t r cc ⟨win0_2.index t (0 : Fin 3), by omega⟩ ⟨win0_2.index t (1 : Fin 3) * 8192 + r.val, by omega⟩ rfl rfl,
    blk1_apply V c t cc k]

/-- An index of the first output is in a point's block iff each coordinate is in the block's range. -/
theorem mem_blk2 (t : Fin cfg0.N) (i : S4x65536x128.Idx) :
    i ∈ ((cfg0.win 2).blk t).view.set ↔ ∀ a : Fin 3, win0_2.index t a * S1x8192x128.size a ≤ (i a).val ∧ (i a).val < win0_2.index t a * S1x8192x128.size a + S1x8192x128.size a := by
  show i ∈ ((View.whole main_v17_0).slice (win0_2.rect t)).set ↔ _
  rw [View.set_slice_whole, Rect.mem_set_unit]
  exact Iff.rfl

/-- The blocks cover the first output. -/
theorem cover2 (i : S4x65536x128.Idx) : ∃ t : Fin cfg0.N, (cfg0.win 2).flush t = true ∧ i ∈ ((cfg0.win 2).blk t).view.set := by
  have hi0 : (i 0).val < 4 := (i 0).isLt
  have hi1 : (i 1).val < 65536 := (i 1).isLt
  have hi2 : (i 2).val < 128 := (i 2).isLt
  obtain ⟨t, q0, q1⟩ := idx_onto ⟨(i 0).val, hi0⟩ ⟨(i 1).val / 8192, by omega⟩
  obtain ⟨-, -, -, e3, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; simp only at q0; omega
  | ⟨1, _⟩ => show win0_2.index t (1 : Fin 3) * 8192 ≤ (i 1).val ∧ (i 1).val < win0_2.index t (1 : Fin 3) * 8192 + 8192; simp only at q1; omega
  | ⟨2, _⟩ => show win0_2.index t (2 : Fin 3) * 128 ≤ (i 2).val ∧ (i 2).val < win0_2.index t (2 : Fin 3) * 128 + 128; omega

/-- The first output after the region: the product. -/
theorem final2 (c : Dev nD) : (dat0 V c).arrAt 2 cfg0.N = G2 (V c main_v12) (V c main_v16) :=
  (dat0 V c).arrAt_eq_of_cover 2 (G2 (V c main_v12) (V c main_v16)) (fun t _ => flushed2_eq V c t) cover2

/-- Where an element of a point's block of output 2 sits in the array. -/
theorem emb3_eq (t : Fin cfg0.N) (u v w : Fin 1) (k : Fin 128) (b : Fin 4) (s : Fin 8)
    (hb : b.val = win0_2.index t (0 : Fin 3)) (hs : s.val = win0_2.index t (1 : Fin 3)) :
    ((cfg0.win 3).blk t).view.emb (ix4 u v w k) = (ix4 b s (0 : Fin 1) k : S4x8x1x128.Idx) := by
  obtain ⟨-, -, -, -, -, -, -, -, f0, f1, f2, f3, g0, g1, g2, g3⟩ := idx_facts t
  have hu : u.val = 0 := by omega
  have hv : v.val = 0 := by omega
  have hw : w.val = 0 := by omega
  funext a
  apply Fin.ext
  match a with
  | ⟨0, _⟩ => show win0_3.index t (0 : Fin 4) * 1 + 1 * u.val = b.val; omega
  | ⟨1, _⟩ => show win0_3.index t (1 : Fin 4) * 1 + 1 * v.val = s.val; omega
  | ⟨2, _⟩ => show win0_3.index t (2 : Fin 4) * 1 + 1 * w.val = 0; omega
  | ⟨3, _⟩ => show win0_3.index t (3 : Fin 4) * 128 + 1 * k.val = k.val; omega

/-- What a point writes back to output 2 is its row of the strip sums. -/
theorem flushed3_eq (c : Dev nD) (t : Fin cfg0.N) :
    (dat0 V c).flushed 3 t = ((cfg0.win 3).blk t).view.read (Elt Ideal) (G3 (V c main_v12) (V c main_v16)) := by
  show (cfg0.win 3).cut (grid0.coords t) ((dat0 V c).after 3 t) = _
  rw [after0_3]
  unfold out0_3
  rw [View.canon_unit_zero hz4]
  simp only [View.ld_unit_zero (S := S1x8192x128) hz3, View.ld_unit_zero (S := S128x128) hz2]
  obtain ⟨e0, e1, e2, e3, e4, e5, e6, e7, -⟩ := idx_facts t
  funext j
  obtain ⟨u, v, w, k, rfl⟩ : ∃ (u v w : Fin 1) (k : Fin 128), j = ix4 u v w k := ⟨j 0, j 1, j 2, j 3, eq_ix4 j⟩
  rw [View.read_apply]
  refine (pay3_apply (iblk0 V c 0 t) (iblk0 V c 1 t) u v w k).trans ?_
  rw [emb3_eq t u v w k ⟨win0_2.index t (0 : Fin 3), by omega⟩ ⟨win0_2.index t (1 : Fin 3), by omega⟩ rfl rfl]
  show _ = colSum (V c main_v12) (V c main_v16) _ _ _
  unfold colSum prod
  refine Finset.sum_congr rfl fun r _ => ?_
  refine Finset.sum_congr rfl fun cc _ => ?_
  rw [blk0_apply V c t r cc ⟨win0_2.index t (0 : Fin 3), by omega⟩ (row ⟨win0_2.index t (1 : Fin 3), by omega⟩ r) rfl rfl,
    blk1_apply V c t cc k]

/-- An index of output 2 is in a point's block iff each coordinate is in the block's range. -/
theorem mem_blk3 (t : Fin cfg0.N) (i : S4x8x1x128.Idx) :
    i ∈ ((cfg0.win 3).blk t).view.set ↔ ∀ a : Fin 4, win0_3.index t a * S1x1x1x128.size a ≤ (i a).val ∧ (i a).val < win0_3.index t a * S1x1x1x128.size a + S1x1x1x128.size a := by
  show i ∈ ((View.whole main_v17_1).slice (win0_3.rect t)).set ↔ _
  rw [View.set_slice_whole, Rect.mem_set_unit]
  exact Iff.rfl

/-- The blocks cover output 2. -/
theorem cover3 (i : S4x8x1x128.Idx) : ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 1 := (i 2).isLt
  have hi3 : (i 3).val < 128 := (i 3).isLt
  obtain ⟨t, q0, q1⟩ := idx_onto ⟨(i 0).val, hi0⟩ ⟨(i 1).val, hi1⟩
  obtain ⟨-, -, -, -, -, -, -, -, f0, f1, f2, f3, g0, g1, g2, g3⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; simp only at q0; omega
  | ⟨1, _⟩ => show win0_3.index t (1 : Fin 4) * 1 ≤ (i 1).val ∧ (i 1).val < win0_3.index t (1 : Fin 4) * 1 + 1; simp only at q1; omega
  | ⟨2, _⟩ => show win0_3.index t (2 : Fin 4) * 1 ≤ (i 2).val ∧ (i 2).val < win0_3.index t (2 : Fin 4) * 1 + 1; omega
  | ⟨3, _⟩ => show win0_3.index t (3 : Fin 4) * 128 ≤ (i 3).val ∧ (i 3).val < win0_3.index t (3 : Fin 4) * 128 + 128; omega

/-- Output 2 after the region. -/
theorem final3 (c : Dev nD) : (dat0 V c).arrAt 3 cfg0.N = G3 (V c main_v12) (V c main_v16) :=
  (dat0 V c).arrAt_eq_of_cover 3 (G3 (V c main_v12) (V c main_v16)) (fun t _ => flushed3_eq V c t) cover3

/-- Where an element of a point's block of output 3 sits in the array. -/
theorem emb4_eq (t : Fin cfg0.N) (u v w : Fin 1) (k : Fin 128) (b : Fin 4) (s : Fin 8)
    (hb : b.val = win0_2.index t (0 : Fin 3)) (hs : s.val = win0_2.index t (1 : Fin 3)) :
    ((cfg0.win 4).blk t).view.emb (ix4 u v w k) = (ix4 b s (0 : Fin 1) k : S4x8x1x128.Idx) := by
  obtain ⟨-, -, -, -, -, -, -, -, f0, f1, f2, f3, g0, g1, g2, g3⟩ := idx_facts t
  have hu : u.val = 0 := by omega
  have hv : v.val = 0 := by omega
  have hw : w.val = 0 := by omega
  funext a
  apply Fin.ext
  match a with
  | ⟨0, _⟩ => show win0_4.index t (0 : Fin 4) * 1 + 1 * u.val = b.val; omega
  | ⟨1, _⟩ => show win0_4.index t (1 : Fin 4) * 1 + 1 * v.val = s.val; omega
  | ⟨2, _⟩ => show win0_4.index t (2 : Fin 4) * 1 + 1 * w.val = 0; omega
  | ⟨3, _⟩ => show win0_4.index t (3 : Fin 4) * 128 + 1 * k.val = k.val; omega

/-- What a point writes back to output 3 is its row of the strip sums. -/
theorem flushed4_eq (c : Dev nD) (t : Fin cfg0.N) :
    (dat0 V c).flushed 4 t = ((cfg0.win 4).blk t).view.read (Elt Ideal) (G4 (V c main_v12) (V c main_v16)) := by
  show (cfg0.win 4).cut (grid0.coords t) ((dat0 V c).after 4 t) = _
  rw [after0_4]
  unfold out0_4
  rw [View.canon_unit_zero hz4]
  simp only [View.ld_unit_zero (S := S1x8192x128) hz3, View.ld_unit_zero (S := S128x128) hz2]
  obtain ⟨e0, e1, e2, e3, e4, e5, e6, e7, -⟩ := idx_facts t
  funext j
  obtain ⟨u, v, w, k, rfl⟩ : ∃ (u v w : Fin 1) (k : Fin 128), j = ix4 u v w k := ⟨j 0, j 1, j 2, j 3, eq_ix4 j⟩
  rw [View.read_apply]
  refine (pay4_apply (iblk0 V c 0 t) (iblk0 V c 1 t) u v w k).trans ?_
  rw [emb4_eq t u v w k ⟨win0_2.index t (0 : Fin 3), by omega⟩ ⟨win0_2.index t (1 : Fin 3), by omega⟩ rfl rfl]
  show _ = colSq (V c main_v12) (V c main_v16) _ _ _
  unfold colSq
  refine Finset.sum_congr rfl fun r _ => ?_
  rw [rowdot_eq (iblk0 V c 0 t) (iblk0 V c 1 t) (V c main_v12) (V c main_v16)
    ⟨win0_2.index t (0 : Fin 3), by omega⟩ (row ⟨win0_2.index t (1 : Fin 3), by omega⟩ r) k r
    (fun cc => blk0_apply V c t r cc ⟨win0_2.index t (0 : Fin 3), by omega⟩ (row ⟨win0_2.index t (1 : Fin 3), by omega⟩ r) rfl rfl)
    (fun cc => blk1_apply V c t cc k)]

/-- An index of output 3 is in a point's block iff each coordinate is in the block's range. -/
theorem mem_blk4 (t : Fin cfg0.N) (i : S4x8x1x128.Idx) :
    i ∈ ((cfg0.win 4).blk t).view.set ↔ ∀ a : Fin 4, win0_4.index t a * S1x1x1x128.size a ≤ (i a).val ∧ (i a).val < win0_4.index t a * S1x1x1x128.size a + S1x1x1x128.size a := by
  show i ∈ ((View.whole main_v17_2).slice (win0_4.rect t)).set ↔ _
  rw [View.set_slice_whole, Rect.mem_set_unit]
  exact Iff.rfl

/-- The blocks cover output 3. -/
theorem cover4 (i : S4x8x1x128.Idx) : ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 1 := (i 2).isLt
  have hi3 : (i 3).val < 128 := (i 3).isLt
  obtain ⟨t, q0, q1⟩ := idx_onto ⟨(i 0).val, hi0⟩ ⟨(i 1).val, hi1⟩
  obtain ⟨-, -, -, -, -, -, -, -, f0, f1, f2, f3, g0, g1, g2, g3⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; simp only at q0; omega
  | ⟨1, _⟩ => show win0_4.index t (1 : Fin 4) * 1 ≤ (i 1).val ∧ (i 1).val < win0_4.index t (1 : Fin 4) * 1 + 1; simp only at q1; omega
  | ⟨2, _⟩ => show win0_4.index t (2 : Fin 4) * 1 ≤ (i 2).val ∧ (i 2).val < win0_4.index t (2 : Fin 4) * 1 + 1; omega
  | ⟨3, _⟩ => show win0_4.index t (3 : Fin 4) * 128 ≤ (i 3).val ∧ (i 3).val < win0_4.index t (3 : Fin 4) * 128 + 128; omega

/-- Output 3 after the region. -/
theorem final4 (c : Dev nD) : (dat0 V c).arrAt 4 cfg0.N = G4 (V c main_v12) (V c main_v16) :=
  (dat0 V c).arrAt_eq_of_cover 4 (G4 (V c main_v12) (V c main_v16)) (fun t _ => flushed4_eq V c t) cover4

end Cert.KernelIdeal.Region0

end
-- ==== Proof.Region1.lean ====
import proofs.«102829_j74062416053231_2_alg».proof.Proof.Gen.KernelIdeal.Frame
import proofs.«102829_j74062416053231_2_alg».proof.Proof.LibDense
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-
  What the second region leaves in its output array.

  At grid point (b, s) the body takes rows 8192·s … 8192·s + 8191 of batch b of X (a [4, 65536, 128] array) and four
  per-channel vectors γ, β, μ, v, and stores, transposed, as columns 8192·s … of batch b of the [4, 128, 65536] output
      max (((X (b, n, k) − μ k) · rsqrt (v k + ε)) · γ k + β k) 0.
  The 32 blocks tile the output, so after the region the output holds that expression at every (b, k, n), whatever
  extended reals the five arrays hold.
-/
namespace Cert.KernelIdeal.Region1
open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a <;> rfl
theorem hz3 : (![0, 0, 0] : Fin 3 → Nat) = fun _ => 0 := funext fun a => by fin_cases a <;> rfl

/-- The normalised, scaled, shifted and rectified value at (b, k, n). -/
def normed (X : S4x65536x128.Idx → EReal) (g be mu var : S128.Idx → EReal) (b : Fin 4) (k : Fin 128) (n : Fin 65536) : EReal :=
  max (((X (ix3 b n k) - mu (ix1 k)) * Ideal.rsqrt (var (ix1 k) + Ideal.ofBits .f32 0x3727C5AC#32)) * g (ix1 k) + be (ix1 k)) 0

def G5 (X : S4x65536x128.Idx → EReal) (g be mu var : S128.Idx → EReal) : S4x128x65536.Idx → EReal :=
  fun i => normed X g be mu var (i 0) (i 1) (i 2)

/-- The stored block, entry (u, k, r). -/
theorem pay5_apply (v0 : Vec Ideal S1x8192x128 .f32) (v2 v3 v4 v6 : Vec Ideal S128 .f32) (u : Fin 1) (k : Fin 128) (r : Fin 8192) :
    k1_pay1 v0 v2 v3 v4 v6 (ix3 u k r)
      = max (((v0 (ix3 (0 : Fin 1) r k) - v4 (ix1 k)) * Ideal.rsqrt (v6 (ix1 k) + Ideal.ofBits .f32 0x3727C5AC#32)) * v2 (ix1 k) + v3 (ix1 k)) 0 := by
  unfold k1_pay1
  rw [shapeCast_ab_1ab_apply, transpose_ix2_apply, maximumf_apply, addf_apply, mulf_apply, mulf_apply, subf_apply]
  simp only [broadcastTo_1b_ab_apply, shapeCast_a_1a_apply, shapeCast_1ab_ab_apply, shapeCast_self, broadcast_apply]
  rw [← Ideal.ofBits_zero_f32]
  rfl

/-! ## From blocks to the array -/

/-- The printed index maps over the grid: X's block and the output's block sit at the same (batch, strip); each of the
    four vectors is taken whole. -/
theorem idx_facts : ∀ t : Fin cfg1.N,
    win1_0.index t (0 : Fin 3) = win1_5.index t (0 : Fin 3) ∧ win1_0.index t (1 : Fin 3) = win1_5.index t (2 : Fin 3)
    ∧ win1_0.index t (2 : Fin 3) = 0 ∧ win1_5.index t (1 : Fin 3) = 0
    ∧ win1_1.index t (0 : Fin 1) = 0 ∧ win1_2.index t (0 : Fin 1) = 0 ∧ win1_3.index t (0 : Fin 1) = 0 ∧ win1_4.index t (0 : Fin 1) = 0
    ∧ win1_5.index t (0 : Fin 3) ≤ 3 ∧ win1_5.index t (2 : Fin 3) ≤ 7 :=
  (by decide +kernel : ∀ t : Fin grid1.N, _)

/-- Every (batch, strip) is some point's. -/
theorem idx_onto : ∀ (q0 : Fin 4) (q1 : Fin 8), ∃ t : Fin cfg1.N, win1_5.index t (0 : Fin 3) = q0.val ∧ win1_5.index t (2 : Fin 3) = q1.val :=
  (by decide +kernel : ∀ (q0 : Fin 4) (q1 : Fin 8), ∃ t : Fin grid1.N, win1_5.index t (0 : Fin 3) = q0.val ∧ win1_5.index t (2 : Fin 3) = q1.val)

/-- X's block at a point, read at (0, r, k): the array at the block's batch and row. -/
theorem blk0_apply (c : Dev nD) (t : Fin cfg1.N) (r : Fin 8192) (k : Fin 128) (b : Fin 4) (n : Fin 65536)
    (hb : b.val = win1_5.index t (0 : Fin 3)) (hn : n.val = win1_5.index t (2 : Fin 3) * 8192 + r.val) :
    (iblk1 V c 0 t : Vec Ideal S1x8192x128 .f32) (ix3 (0 : Fin 1) r k) = (V c main_v17_0 : S4x65536x128.Idx → EReal) (ix3 b n k) := by
  obtain ⟨e0, e1, e2, -⟩ := idx_facts t
  unfold iblk1
  rw [View.read_apply]
  show V c main_v17_0 _ = V c main_v17_0 _
  congr 1
  funext a
  apply Fin.ext
  match a with
  | ⟨0, _⟩ => show win1_0.index t (0 : Fin 3) * 1 + 1 * 0 = b.val; omega
  | ⟨1, _⟩ => show win1_0.index t (1 : Fin 3) * 8192 + 1 * r.val = n.val; omega
  | ⟨2, _⟩ => show win1_0.index t (2 : Fin 3) * 128 + 1 * k.val = k.val; omega

/-- The scale vector's block at a point is the vector. -/
theorem blk1_apply (c : Dev nD) (t : Fin cfg1.N) (k : Fin 128) :
    (iblk1 V c 1 t : Vec Ideal S128 .f32) (ix1 k) = (V c main_arg3 : S128.Idx → EReal) (ix1 k) := by
  obtain ⟨-, -, -, -, e, -⟩ := idx_facts t
  unfold iblk1
  rw [View.read_apply]
  show V c main_arg3 _ = V c main_arg3 _
  congr 1
  funext a
  apply Fin.ext
  match a with
  | ⟨0, _⟩ => show win1_1.index t (0 : Fin 1) * 128 + 1 * k.val = k.val; omega

/-- The shift vector's block at a point is the vector. -/
theorem blk2_apply (c : Dev nD) (t : Fin cfg1.N) (k : Fin 128) :
    (iblk1 V c 2 t : Vec Ideal S128 .f32) (ix1 k) = (V c main_arg4 : S128.Idx → EReal) (ix1 k) := by
  obtain ⟨-, -, -, -, -, e, -⟩ := idx_facts t
  unfold iblk1
  rw [View.read_apply]
  show V c main_arg4 _ = V c main_arg4 _
  congr 1
  funext a
  apply Fin.ext
  match a with
  | ⟨0, _⟩ => show win1_2.index t (0 : Fin 1) * 128 + 1 * k.val = k.val; omega

/-- The mean vector's block at a point is the vector. -/
theorem blk3_apply (c : Dev nD) (t : Fin cfg1.N) (k : Fin 128) :
    (iblk1 V c 3 t : Vec Ideal S128 .f32) (ix1 k) = (V c main_v20 : S128.Idx → EReal) (ix1 k) := by
  obtain ⟨-, -, -, -, -, -, e, -⟩ := idx_facts t
  unfold iblk1
  rw [View.read_apply]
  show V c main_v20 _ = V c main_v20 _
  congr 1
  funext a
  apply Fin.ext
  match a with
  | ⟨0, _⟩ => show win1_3.index t (0 : Fin 1) * 128 + 1 * k.val = k.val; omega

/-- The variance vector's block at a point is the vector. -/
theorem blk4_apply (c : Dev nD) (t : Fin cfg1.N) (k : Fin 128) :
    (iblk1 V c 4 t : Vec Ideal S128 .f32) (ix1 k) = (V c main_v25 : S128.Idx → EReal) (ix1 k) := by
  obtain ⟨-, -, -, -, -, -, -, e, -⟩ := idx_facts t
  unfold iblk1
  rw [View.read_apply]
  show V c main_v25 _ = V c main_v25 _
  congr 1
  funext a
  apply Fin.ext
  match a with
  | ⟨0, _⟩ => show win1_4.index t (0 : Fin 1) * 128 + 1 * k.val = k.val; omega

/-- Where an element of a point's block of the output sits in the array. -/
theorem emb5_eq (t : Fin cfg1.N) (u : Fin 1) (k : Fin 128) (r : Fin 8192) (b : Fin 4) (n : Fin 65536)
    (hb : b.val = win1_5.index t (0 : Fin 3)) (hn : n.val = win1_5.index t (2 : Fin 3) * 8192 + r.val) :
    ((cfg1.win 5).blk t).view.emb (ix3 u k r) = (ix3 b k n : S4x128x65536.Idx) := by
  obtain ⟨-, -, -, e3, -⟩ := idx_facts t
  have hu : u.val = 0 := by omega
  funext a
  apply Fin.ext
  match a with
  | ⟨0, _⟩ => show win1_5.index t (0 : Fin 3) * 1 + 1 * u.val = b.val; omega
  | ⟨1, _⟩ => show win1_5.index t (1 : Fin 3) * 128 + 1 * k.val = k.val; omega
  | ⟨2, _⟩ => show win1_5.index t (2 : Fin 3) * 8192 + 1 * r.val = n.val; omega

/-- What a point writes back is its block of the normalised array. -/
theorem flushed5_eq (c : Dev nD) (t : Fin cfg1.N) :
    (dat1 V c).flushed 5 t = ((cfg1.win 5).blk t).view.read (Elt Ideal)
      (G5 (V c main_v17_0) (V c main_arg3) (V c main_arg4) (V c main_v20) (V c main_v25)) := by
  show (cfg1.win 5).cut (grid1.coords t) ((dat1 V c).after 5 t) = _
  rw [after1_5]
  unfold out1_5
  rw [View.canon_unit_zero hz3]
  simp only [View.ld_unit_zero (S := S1x8192x128) hz3, View.ld_unit_zero (S := S128) hz1]
  obtain ⟨e0, e1, e2, e3, e4, e5, e6, e7, e8, e9⟩ := idx_facts t
  funext j
  obtain ⟨u, k, r, rfl⟩ : ∃ (u : Fin 1) (k : Fin 128) (r : Fin 8192), j = ix3 u k r := ⟨j 0, j 1, j 2, eq_ix3 j⟩
  rw [View.read_apply]
  refine (pay5_apply (iblk1 V c 0 t) (iblk1 V c 1 t) (iblk1 V c 2 t) (iblk1 V c 3 t) (iblk1 V c 4 t) u k r).trans ?_
  have hr := r.isLt
  rw [emb5_eq t u k r ⟨win1_5.index t (0 : Fin 3), by omega⟩ ⟨win1_5.index t (2 : Fin 3) * 8192 + r.val, by omega⟩ rfl rfl]
  show _ = normed (V c main_v17_0) (V c main_arg3) (V c main_arg4) (V c main_v20) (V c main_v25) _ _ _
  unfold normed
  rw [blk0_apply V c t r k ⟨win1_5.index t (0 : Fin 3), by omega⟩ ⟨win1_5.index t (2 : Fin 3) * 8192 + r.val, by omega⟩ rfl rfl,
    blk1_apply V c t k, blk2_apply V c t k, blk3_apply V c t k, blk4_apply V c t k]

/-- An index of the output is in a point's block iff each coordinate is in the block's range. -/
theorem mem_blk5 (t : Fin cfg1.N) (i : S4x128x65536.Idx) :
    i ∈ ((cfg1.win 5).blk t).view.set ↔ ∀ a : Fin 3, win1_5.index t a * S1x128x8192.size a ≤ (i a).val ∧ (i a).val < win1_5.index t a * S1x128x8192.size a + S1x128x8192.size a := by
  show i ∈ ((View.whole main_v26).slice (win1_5.rect t)).set ↔ _
  rw [View.set_slice_whole, Rect.mem_set_unit]
  exact Iff.rfl

/-- The blocks cover the output. -/
theorem cover5 (i : S4x128x65536.Idx) : ∃ t : Fin cfg1.N, (cfg1.win 5).flush t = true ∧ i ∈ ((cfg1.win 5).blk t).view.set := by
  have hi0 : (i 0).val < 4 := (i 0).isLt
  have hi1 : (i 1).val < 128 := (i 1).isLt
  have hi2 : (i 2).val < 65536 := (i 2).isLt
  obtain ⟨t, q0, q1⟩ := idx_onto ⟨(i 0).val, hi0⟩ ⟨(i 2).val / 8192, by omega⟩
  obtain ⟨-, -, -, e3, -⟩ := idx_facts t
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; simp only at q0; omega
  | ⟨1, _⟩ => show win1_5.index t (1 : Fin 3) * 128 ≤ (i 1).val ∧ (i 1).val < win1_5.index t (1 : Fin 3) * 128 + 128; omega
  | ⟨2, _⟩ => show win1_5.index t (2 : Fin 3) * 8192 ≤ (i 2).val ∧ (i 2).val < win1_5.index t (2 : Fin 3) * 8192 + 8192; simp only at q1; omega

/-- The output after the region: the normalised array. -/
theorem final5 (c : Dev nD) : (dat1 V c).arrAt 5 cfg1.N
    = G5 (V c main_v17_0) (V c main_arg3) (V c main_arg4) (V c main_v20) (V c main_v25) :=
  (dat1 V c).arrAt_eq_of_cover 5 _ (fun t _ => flushed5_eq V c t) cover5

end Cert.KernelIdeal.Region1

end
-- ==== Proof.Spec.lean ====
/-
  The function both programs compute, stated once over plain index types.

  A graph convolution followed by a batch normalisation and a rectifier: for batch `b`, node `n` and
  input channel `c` the node's feature is averaged with those of its three neighbours,
      fm b n c = (x b c n + x b c (nbr b n 0) + x b c (nbr b n 1) + x b c (nbr b n 2)) / 4,
  the sixteen weight matrices are averaged, `wm c k = (∑ j, w c k j) / 16`, and the two are contracted,
      feat b n k = ∑ c, fm b n c * wm c k.
  Per output channel `k` the mean and the variance are taken over all 4 · 65536 = 262144 pairs (b, n),
      mu k = (∑ b n, feat b n k) / 262144,      var k = (∑ b n, (feat b n k - mu k)²) / 262144,
  and the result at (b, k, n) is  max ((feat b n k - mu k) · rsqrt (var k + ε) · γ k + β k) 0.
  Everything up to the variance is a real number once the inputs are finite; the last line is read on the
  extended reals, where `rsqrt`, `γ`, `β` and `ε` are taken as they come.
-/
import Idealize.ShloMosaic.PureOps.Ideal
import Idealize.ShloMosaic.Lib.ValueIdx
import Mathlib.Algebra.BigOperators.Ring.Finset
import Mathlib.Tactic

noncomputable section

namespace Cert.Spec

open Idealize.ShloMosaic Idealize.ShloMosaic.ValueIdx

/-- The number of (batch, node) pairs a channel's statistics run over. -/
abbrev cnt : ℝ := 262144

section Real
variable (x : Fin 4 → Fin 128 → Fin 65536 → ℝ) (nbr : Fin 4 → Fin 65536 → Fin 3 → Fin 65536)
  (w : Fin 128 → Fin 128 → Fin 16 → ℝ)

/-- A node's feature averaged with its three neighbours'. -/
def fm (b : Fin 4) (n : Fin 65536) (c : Fin 128) : ℝ :=
  (x b c n + x b c (nbr b n 0) + x b c (nbr b n 1) + x b c (nbr b n 2)) / 4

/-- The mean of the sixteen weight matrices. -/
def wm (c k : Fin 128) : ℝ := (∑ j, w c k j) / 16

/-- The convolved feature. -/
def feat (b : Fin 4) (n : Fin 65536) (k : Fin 128) : ℝ := ∑ c, fm x nbr b n c * wm w c k

/-- A channel's mean over every batch and node. -/
def mu (k : Fin 128) : ℝ := (∑ b, ∑ n, feat x nbr w b n k) / cnt

/-- A channel's variance as the mean squared deviation. -/
def var (k : Fin 128) : ℝ := (∑ b, ∑ n, (feat x nbr w b n k - mu x nbr w k) ^ 2) / cnt

/-- The variance is also the mean of the squares less the square of the mean. -/
theorem var_eq (k : Fin 128) :
    var x nbr w k = (∑ b, ∑ n, feat x nbr w b n k * feat x nbr w b n k) / cnt - mu x nbr w k * mu x nbr w k := by
  have hc : (∑ _b : Fin 4, ∑ _n : Fin 65536, (1 : ℝ)) = cnt := by
    simp only [Finset.sum_const, Finset.card_univ, Fintype.card_fin, nsmul_eq_mul, mul_one]; norm_num
  have hs : (∑ b, ∑ n, feat x nbr w b n k) = cnt * mu x nbr w k := by
    unfold mu; field_simp
  unfold var
  have : (∑ b : Fin 4, ∑ n : Fin 65536, (feat x nbr w b n k - mu x nbr w k) ^ 2)
      = (∑ b, ∑ n, feat x nbr w b n k * feat x nbr w b n k) - 2 * mu x nbr w k * (∑ b, ∑ n, feat x nbr w b n k)
        + mu x nbr w k * mu x nbr w k * (∑ _b : Fin 4, ∑ _n : Fin 65536, (1 : ℝ)) := by
    simp only [Finset.mul_sum, ← Finset.sum_add_distrib, ← Finset.sum_sub_distrib]
    refine Finset.sum_congr rfl fun b _ => Finset.sum_congr rfl fun n _ => ?_
    ring
  rw [this, hc, hs]
  field_simp
  ring

end Real

/-- The result at (batch, channel, node), on the extended reals. -/
def out (x : Fin 4 → Fin 128 → Fin 65536 → ℝ) (nbr : Fin 4 → Fin 65536 → Fin 3 → Fin 65536)
    (w : Fin 128 → Fin 128 → Fin 16 → ℝ) (g be : Fin 128 → EReal) (eps : EReal)
    (b : Fin 4) (k : Fin 128) (n : Fin 65536) : EReal :=
  max ((((feat x nbr w b n k - mu x nbr w k : ℝ) : EReal) * Ideal.rsqrt (((var x nbr w k : ℝ) : EReal) + eps)) * g k + be k) 0

/-! ## The same over the programs' arrays -/

abbrev SFea : Shape := ⟨3, ![4, 128, 65536]⟩
abbrev SRing : Shape := ⟨3, ![4, 65536, 3]⟩
abbrev SW : Shape := ⟨3, ![128, 128, 16]⟩
abbrev SCh : Shape := ⟨1, ![128]⟩

/-- The feature array as real numbers. -/
def xR (fea : SFea.Idx → EReal) (b : Fin 4) (c : Fin 128) (n : Fin 65536) : ℝ := (fea (ix3 b c n)).toReal
/-- The weights as real numbers. -/
def wR (W : SW.Idx → EReal) (c k : Fin 128) (j : Fin 16) : ℝ := (W (ix3 c k j)).toReal
/-- The neighbour table as node numbers. -/
def nbrOf (ring : SRing.Idx → BitVec 32) (b : Fin 4) (n : Fin 65536) (k : Fin 3) : Fin 65536 :=
  ⟨(ring (ix3 b n k)).toNat % 65536, Nat.mod_lt _ (by norm_num)⟩

/-- The noise floor under the square root: the single-precision word of 1e-5, as it denotes. -/
abbrev epsE : EReal := Ideal.ofBits .f32 0x3727C5AC#32

/-- The whole result array as a function of the five argument arrays. -/
def G (fea : SFea.Idx → EReal) (ring : SRing.Idx → BitVec 32) (W : SW.Idx → EReal) (gamma beta : SCh.Idx → EReal) :
    SFea.Idx → EReal :=
  fun i => out (xR fea) (nbrOf ring) (wR W) (fun k => gamma (ix1 k)) (fun k => beta (ix1 k)) epsE (i 0) (i 1) (i 2)

end Cert.Spec

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.KBridge.lean ====
import proofs.«102829_j74062416053231_2_alg».proof.Proof.Gen.KernelIdeal.Frame
import proofs.«102829_j74062416053231_2_alg».proof.Proof.Region0
import proofs.«102829_j74062416053231_2_alg».proof.Proof.Region1
import proofs.«102829_j74062416053231_2_alg».proof.Proof.Spec
import proofs.«102829_j74062416053231_2_alg».proof.Proof.LibExtReal

/-
  The kernel program's result buffer, given what its host lines compute.

  The program runs host lines, the first region, host lines, the second region. Suppose the host lines before the
  first region leave the averaged features and the averaged weights as real numbers fm and wm. Then the first region's
  three outputs are the real numbers feat (b, n, k) = ∑ c, fm (b, n, c) · wm (c, k), their sums over each strip of 8192
  rows, and the sums of their squares over each strip. Suppose further the host lines between the regions turn the
  strip sums into the channel means and variances and leave the features, the scale and the shift alone. Then the second
  region's output, the program's result, is the specification's `out` at every (b, k, n).
-/

noncomputable section

open Idealize.ShloMosaic Idealize.ShloMosaic.TcCoe Idealize.SL.Sem Idealize.ShloMosaic.ValueIdx

namespace Cert.KernelIdeal.KBridge
open Cert.KernelIdeal Cert.KernelIdeal.Gen

variable (m : (ℓ : Loc nD τ sig) → Buf (Elt Ideal) ℓ) (ρ : Dev nD → PrngReg) (c : Dev nD)
variable (x : Fin 4 → Fin 128 → Fin 65536 → ℝ) (nbr : Fin 4 → Fin 65536 → Fin 3 → Fin 65536)
  (w : Fin 128 → Fin 128 → Fin 16 → ℝ)

/-- An entry of the product of the averaged features with the averaged weights is the real number feat. -/
theorem prod_eq
    (hfm : ∀ b n cc, (V5 m ρ c main_v12 : S4x65536x128.Idx → EReal) (ix3 b n cc) = ((Cert.Spec.fm x nbr b n cc : ℝ) : EReal))
    (hwm : ∀ cc k, (V5 m ρ c main_v16 : S128x128.Idx → EReal) (ix2 cc k) = ((Cert.Spec.wm w cc k : ℝ) : EReal))
    (b : Fin 4) (n : Fin 65536) (k : Fin 128) :
    Region0.prod (V5 m ρ c main_v12) (V5 m ρ c main_v16) b n k = ((Cert.Spec.feat x nbr w b n k : ℝ) : EReal) := by
  unfold Region0.prod Cert.Spec.feat
  rw [Cert.LibExtReal.coe_sum]
  refine Finset.sum_congr rfl fun cc _ => ?_
  rw [hfm, hwm, EReal.coe_mul]

/-- The first region's first output holds feat. -/
theorem feat_eq
    (hfm : ∀ b n cc, (V5 m ρ c main_v12 : S4x65536x128.Idx → EReal) (ix3 b n cc) = ((Cert.Spec.fm x nbr b n cc : ℝ) : EReal))
    (hwm : ∀ cc k, (V5 m ρ c main_v16 : S128x128.Idx → EReal) (ix2 cc k) = ((Cert.Spec.wm w cc k : ℝ) : EReal))
    (b : Fin 4) (n : Fin 65536) (k : Fin 128) :
    (W6 m ρ c (Proc.devRef .tc main_v17_0) : S4x65536x128.Idx → EReal) (ix3 b n k) = ((Cert.Spec.feat x nbr w b n k : ℝ) : EReal) := by
  rw [show W6 m ρ c (Proc.devRef .tc main_v17_0) = (dat0 (V5 m ρ) c).arrAt 2 cfg0.N from W6_arr m ρ c 2, Region0.final2]
  exact prod_eq m ρ c x nbr w hfm hwm b n k

/-- The first region's second output holds the strip sums of feat. -/
theorem sum1_eq
    (hfm : ∀ b n cc, (V5 m ρ c main_v12 : S4x65536x128.Idx → EReal) (ix3 b n cc) = ((Cert.Spec.fm x nbr b n cc : ℝ) : EReal))
    (hwm : ∀ cc k, (V5 m ρ c main_v16 : S128x128.Idx → EReal) (ix2 cc k) = ((Cert.Spec.wm w cc k : ℝ) : EReal))
    (b : Fin 4) (s : Fin 8) (k : Fin 128) :
    (W6 m ρ c (Proc.devRef .tc main_v17_1) : S4x8x1x128.Idx → EReal) (ix4 b s (0 : Fin 1) k)
      = ((∑ r : Fin 8192, Cert.Spec.feat x nbr w b (Region0.row s r) k : ℝ) : EReal) := by
  rw [show W6 m ρ c (Proc.devRef .tc main_v17_1) = (dat0 (V5 m ρ) c).arrAt 3 cfg0.N from W6_arr m ρ c 3, Region0.final3]
  show Region0.colSum _ _ b s k = _
  unfold Region0.colSum
  rw [Cert.LibExtReal.coe_sum]
  exact Finset.sum_congr rfl fun r _ => prod_eq m ρ c x nbr w hfm hwm b (Region0.row s r) k

/-- The first region's third output holds the strip sums of feat squared. -/
theorem sum2_eq
    (hfm : ∀ b n cc, (V5 m ρ c main_v12 : S4x65536x128.Idx → EReal) (ix3 b n cc) = ((Cert.Spec.fm x nbr b n cc : ℝ) : EReal))
    (hwm : ∀ cc k, (V5 m ρ c main_v16 : S128x128.Idx → EReal) (ix2 cc k) = ((Cert.Spec.wm w cc k : ℝ) : EReal))
    (b : Fin 4) (s : Fin 8) (k : Fin 128) :
    (W6 m ρ c (Proc.devRef .tc main_v17_2) : S4x8x1x128.Idx → EReal) (ix4 b s (0 : Fin 1) k)
      = ((∑ r : Fin 8192, Cert.Spec.feat x nbr w b (Region0.row s r) k * Cert.Spec.feat x nbr w b (Region0.row s r) k : ℝ) : EReal) := by
  rw [show W6 m ρ c (Proc.devRef .tc main_v17_2) = (dat0 (V5 m ρ) c).arrAt 4 cfg0.N from W6_arr m ρ c 4, Region0.final4]
  show Region0.colSq _ _ b s k = _
  unfold Region0.colSq
  rw [Cert.LibExtReal.coe_sum]
  refine Finset.sum_congr rfl fun r _ => ?_
  rw [prod_eq m ρ c x nbr w hfm hwm b (Region0.row s r) k, EReal.coe_mul]

/-- The program's result buffer holds the specification's value. -/
theorem result_eq (g be : S128.Idx → EReal)
    (hfm : ∀ b n cc, (V5 m ρ c main_v12 : S4x65536x128.Idx → EReal) (ix3 b n cc) = ((Cert.Spec.fm x nbr b n cc : ℝ) : EReal))
    (hwm : ∀ cc k, (V5 m ρ c main_v16 : S128x128.Idx → EReal) (ix2 cc k) = ((Cert.Spec.wm w cc k : ℝ) : EReal))
    (hX : V7 m ρ c main_v17_0 = W6 m ρ c (Proc.devRef .tc main_v17_0))
    (hg : (V7 m ρ c main_arg3 : S128.Idx → EReal) = g) (hbe : (V7 m ρ c main_arg4 : S128.Idx → EReal) = be)
    (hmu : ∀ k, (V7 m ρ c main_v20 : S128.Idx → EReal) (ix1 k) = ((Cert.Spec.mu x nbr w k : ℝ) : EReal))
    (hvar : ∀ k, (V7 m ρ c main_v25 : S128.Idx → EReal) (ix1 k) = ((Cert.Spec.var x nbr w k : ℝ) : EReal)) :
    (W8 m ρ c (Proc.devRef .tc main_v26) : S4x128x65536.Idx → EReal)
      = fun i => Cert.Spec.out x nbr w (fun k => g (ix1 k)) (fun k => be (ix1 k)) Cert.Spec.epsE (i 0) (i 1) (i 2) := by
  rw [show W8 m ρ c (Proc.devRef .tc main_v26) = (dat1 (V7 m ρ) c).arrAt 5 cfg1.N from W8_arr m ρ c 5, Region1.final5]
  funext i
  obtain ⟨b, k, n, rfl⟩ : ∃ (b : Fin 4) (k : Fin 128) (n : Fin 65536), i = ix3 b k n := ⟨i 0, i 1, i 2, eq_ix3 i⟩
  show Region1.normed _ _ _ _ _ b k n = Cert.Spec.out x nbr w _ _ _ b k n
  unfold Region1.normed Cert.Spec.out
  rw [hX, feat_eq m ρ c x nbr w hfm hwm b n k, hmu k, hvar k, hg, hbe, ← EReal.coe_sub]

end Cert.KernelIdeal.KBridge

end
-- ==== Proof.KHostArgs.lean ====
/-
  The five argument arrays of the kernel program as the launch memory holds them, at their literal types, and the
  float words the host operations use: a quarter, sixteen and 262144 = 4 · 65536.
-/
import proofs.«102829_j74062416053231_2_alg».proof.Proof.Gen.KernelIdeal.Frame
import proofs.«102829_j74062416053231_2_alg».proof.Proof.Spec
import proofs.«102829_j74062416053231_2_alg».proof.Proof.LibExtReal

noncomputable section

namespace Cert.KernelIdeal.HostValue

open Idealize.ShloMosaic Idealize.ShloMosaic.ValueIdx Idealize.ShloMosaic.TcCoe
open Cert.KernelIdeal Cert.KernelIdeal.Gen

/-- The word of the float quarter denotes the real quarter. -/
theorem ofBits_quarter : Ideal.ofBits .f32 0x3E800000#32 = ((1 / 4 : ℝ) : EReal) := by
  simp [Ideal.ofBits, Ideal.ieee, -EReal.coe_mul]; norm_num

/-- The word of the float sixteen denotes the real sixteen. -/
theorem ofBits_sixteen : Ideal.ofBits .f32 0x41800000#32 = ((16 : ℝ) : EReal) := by
  simp [Ideal.ofBits, Ideal.ieee, -EReal.coe_mul]; norm_num

/-- The word of the float 262144 denotes that real. -/
theorem ofBits_cnt : Ideal.ofBits .f32 0x48800000#32 = ((262144 : ℝ) : EReal) := by
  simp [Ideal.ofBits, Ideal.ieee, -EReal.coe_mul]; norm_num

variable (m : (ℓ : Loc nD τ sig) → Buf (Elt Ideal) ℓ) (c : Dev nD)

/-- The features, [4, 128, 65536], as launched. -/
abbrev A0 : S4x128x65536.Idx → EReal := m ((c : Thread nD τ).loc main_arg0)
/-- The neighbour table, [4, 65536, 3], as launched. -/
abbrev A1 : S4x65536x3.Idx → BitVec 32 := m ((c : Thread nD τ).loc main_arg1)
/-- The weights, [128, 128, 16], as launched. -/
abbrev A2 : S128x128x16.Idx → EReal := m ((c : Thread nD τ).loc main_arg2)
/-- The scale, [128], as launched. -/
abbrev A3 : S128.Idx → EReal := m ((c : Thread nD τ).loc main_arg3)
/-- The shift, [128], as launched. -/
abbrev A4 : S128.Idx → EReal := m ((c : Thread nD τ).loc main_arg4)

/-- The convolved feature of the specification over the launched arrays. -/
abbrev X : Fin 4 → Fin 65536 → Fin 128 → ℝ :=
  Cert.Spec.feat (Cert.Spec.xR (A0 m c)) (Cert.Spec.nbrOf (A1 m c)) (Cert.Spec.wR (A2 m c))

end Cert.KernelIdeal.HostValue

end
-- ==== Proof.KHostMid.lean ====
/-
  The host operations between the two regions of the kernel program, read at an index.

  Region 0 leaves, besides the convolved features, two [4, 8, 1, 128] arrays of partial sums: for batch b, strip t of
  8192 consecutive nodes and channel k, the sum of the feature over the strip and the sum of its square. The host adds
  each array up over its first three axes from zero and divides by 262144 = 4 · 65536: the channel's mean, and the mean
  of the squares. The variance it passes on is the second less the square of the first, which is the mean squared
  deviation.

  The index bookkeeping: an index of a rank-four array is its four coordinates; dropping the first three axes of a
  [4, 8, 1, 128] index leaves the last coordinate, so the entries that reduce to channel k are the (b, t, 0, k); and eight
  consecutive strips of 8192 make up the 65536 nodes.
-/
import proofs.«102829_j74062416053231_2_alg».proof.Proof.KHostArgs

set_option maxRecDepth 16384

noncomputable section

namespace Cert.KernelIdeal.HostValue

open Idealize.ShloMosaic Idealize.ShloMosaic.ValueIdx Idealize.ShloMosaic.TcCoe
open Cert.KernelIdeal Cert.KernelIdeal.Gen

/-! ## Index bookkeeping -/

/-- A rank-four index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping the first three axes of a [4, 8, 1, 128] index leaves its last coordinate. -/
theorem drop_d012_iff (b : Fin 4) (t : Fin 8) (u : Fin 1) (d k : Fin 128) :
    reducesTo_S4x8x1x128_S128_d0_1_2.drop (ix4 b t u d) = ix1 k ↔ d = k := by
  constructor
  · intro h
    have e := Shape.ReducesTo.drop_apply_val_of_eq reducesTo_S4x8x1x128_S128_d0_1_2 (ix4 b t u d) ⟨0, by decide⟩ ⟨3, by decide⟩
    rw [h] at e
    exact Fin.ext e.symm
  · intro h
    subst h
    funext a
    match a with
    | ⟨0, _⟩ =>
      exact Fin.ext (Shape.ReducesTo.drop_apply_val_of_eq reducesTo_S4x8x1x128_S128_d0_1_2 (ix4 b t u d) ⟨0, by decide⟩ ⟨3, by decide⟩)

/-- The sum of the entries of a [4, 8, 1, 128] array that reduce to channel `k` when the first three axes are dropped. -/
theorem sum_filter_d012 (x : S4x8x1x128.Idx → EReal) (k : Fin 128) :
    ∑ i ∈ Finset.univ.filter (fun i => reducesTo_S4x8x1x128_S128_d0_1_2.drop i = ix1 k), x i
      = ∑ b : Fin 4, ∑ t : Fin 8, x (ix4 b t 0 k) := by
  rw [Finset.sum_filter, sum_idx4]
  refine Finset.sum_congr rfl fun b _ => Finset.sum_congr rfl fun t _ => ?_
  rw [Fin.sum_univ_one, Finset.sum_eq_single k]
  · rw [if_pos ((drop_d012_iff b t 0 k k).2 rfl)]
  · intro d _ hd
    rw [if_neg (fun h => hd ((drop_d012_iff b t 0 d k).1 h))]
  · intro h
    exact absurd (Finset.mem_univ k) h

/-- Eight consecutive strips of 8192 make up the 65536 nodes. -/
theorem sum_strips (f : Fin 65536 → ℝ) :
    ∑ t : Fin 8, ∑ r : Fin 8192, f ⟨t.val * 8192 + r.val, by have := t.isLt; have := r.isLt; omega⟩ = ∑ n : Fin 65536, f n := by
  rw [← Fintype.sum_prod_type', ← (finProdFinEquiv (m := 8) (n := 8192)).sum_comp f]
  refine Finset.sum_congr rfl fun p _ => congrArg f (Fin.ext ?_)
  show p.1.val * 8192 + p.2.val = p.2.val + 8192 * p.1.val
  omega

/-! ## The mean over every batch and node -/

/-- The host's mean of a [4, 8, 1, 128] array of strip sums: the sum over the first three axes from zero, divided by 262144. -/
def meanOver (y : FVec Ideal S4x8x1x128 .f32) : FVec Ideal S128 .f32 :=
  Host.divf (F := Ideal)
    (Host.reduceAdd (F := Ideal) (φ := .f32) y (constant (F := Ideal) S_ .f32 0x00000000#32) reducesTo_S4x8x1x128_S128_d0_1_2 h_S_)
    (broadcastInDim S128 ![] bcast_S_S128 (constant (F := Ideal) S_ .f32 0x48800000#32))

/-- At channel `k`, over strip sums of a real function `f` of batch and node, it is the mean of `f`. -/
theorem meanOver_apply (y : S4x8x1x128.Idx → EReal) (f : Fin 4 → Fin 65536 → ℝ) (k : Fin 128)
    (hy : ∀ (b : Fin 4) (t : Fin 8), y (ix4 b t 0 k)
      = ((∑ r : Fin 8192, f b ⟨t.val * 8192 + r.val, by have := t.isLt; have := r.isLt; omega⟩ : ℝ) : EReal)) :
    meanOver y (ix1 k) = (((∑ b, ∑ n, f b n) / Cert.Spec.cnt : ℝ) : EReal) := by
  show Ideal.div (Ideal.hostReduceAdd reducesTo_S4x8x1x128_S128_d0_1_2 y (Ideal.ofBits .f32 0x00000000#32) (ix1 k))
      (Ideal.ofBits .f32 0x48800000#32) = _
  unfold Ideal.hostReduceAdd
  rw [sum_filter_d012, Ideal.ofBits_zero_f32, zero_add, ofBits_cnt, Ideal.div_coe (by norm_num : (262144 : ℝ) ≠ 0)]
  have hs : (∑ b : Fin 4, ∑ t : Fin 8, y (ix4 b t 0 k)) = ((∑ b, ∑ n, f b n : ℝ) : EReal) := by
    rw [Cert.LibExtReal.coe_sum]
    refine Finset.sum_congr rfl fun b _ => ?_
    rw [← sum_strips (f b), Cert.LibExtReal.coe_sum]
    exact Finset.sum_congr rfl fun t _ => hy b t
  rw [hs, ← EReal.coe_mul]
  congr 1
  unfold Cert.Spec.cnt
  ring

/-! ## The stretch between the two regions -/

variable (m : (ℓ : Loc nD τ sig) → Buf (Elt Ideal) ℓ) (ρ : Dev nD → PrngReg) (c : Dev nD)

/-- The mean the host passes on: the mean of the first array of strip sums. -/
theorem V7_v20_eq :
    (Gen.V7 m ρ c main_v20 : S128.Idx → EReal) = meanOver (Gen.W6 m ρ c (Proc.devRef .tc main_v17_1)) := by
  unfold meanOver
  dsimp only [Gen.V7, Gen.W7, Gen.hostOps1]
  after_results

/-- The variance the host passes on: the mean of the second array less the square of the mean of the first. -/
theorem V7_v25_eq :
    (Gen.V7 m ρ c main_v25 : S128.Idx → EReal)
      = subf (meanOver (Gen.W6 m ρ c (Proc.devRef .tc main_v17_2)))
          (mulf (meanOver (Gen.W6 m ρ c (Proc.devRef .tc main_v17_1))) (meanOver (Gen.W6 m ρ c (Proc.devRef .tc main_v17_1)))) := by
  unfold meanOver
  dsimp only [Gen.V7, Gen.W7, Gen.hostOps1]
  after_results

/-- With region 0's first array of strip sums that of the convolved feature, the mean passed on is the channel's mean. -/
theorem V7_mu
    (hS1 : ∀ (b : Fin 4) (t : Fin 8) (k : Fin 128),
      (Gen.W6 m ρ c (Proc.devRef .tc main_v17_1) : S4x8x1x128.Idx → EReal) (ix4 b t 0 k)
        = ((∑ r : Fin 8192, X m c b ⟨t.val * 8192 + r.val, by have := t.isLt; have := r.isLt; omega⟩ k : ℝ) : EReal))
    (k : Fin 128) :
    (Gen.V7 m ρ c main_v20 : S128.Idx → EReal) (ix1 k)
      = ((Cert.Spec.mu (Cert.Spec.xR (A0 m c)) (Cert.Spec.nbrOf (A1 m c)) (Cert.Spec.wR (A2 m c)) k : ℝ) : EReal) := by
  rw [V7_v20_eq]
  exact meanOver_apply _ (fun b n => X m c b n k) k (fun b t => hS1 b t k)

/-- With the second array that of the feature's square too, the variance passed on is the channel's variance. -/
theorem V7_var
    (hS1 : ∀ (b : Fin 4) (t : Fin 8) (k : Fin 128),
      (Gen.W6 m ρ c (Proc.devRef .tc main_v17_1) : S4x8x1x128.Idx → EReal) (ix4 b t 0 k)
        = ((∑ r : Fin 8192, X m c b ⟨t.val * 8192 + r.val, by have := t.isLt; have := r.isLt; omega⟩ k : ℝ) : EReal))
    (hS2 : ∀ (b : Fin 4) (t : Fin 8) (k : Fin 128),
      (Gen.W6 m ρ c (Proc.devRef .tc main_v17_2) : S4x8x1x128.Idx → EReal) (ix4 b t 0 k)
        = ((∑ r : Fin 8192, X m c b ⟨t.val * 8192 + r.val, by have := t.isLt; have := r.isLt; omega⟩ k
              * X m c b ⟨t.val * 8192 + r.val, by have := t.isLt; have := r.isLt; omega⟩ k : ℝ) : EReal))
    (k : Fin 128) :
    (Gen.V7 m ρ c main_v25 : S128.Idx → EReal) (ix1 k)
      = ((Cert.Spec.var (Cert.Spec.xR (A0 m c)) (Cert.Spec.nbrOf (A1 m c)) (Cert.Spec.wR (A2 m c)) k : ℝ) : EReal) := by
  rw [V7_v25_eq]
  show meanOver (Gen.W6 m ρ c (Proc.devRef .tc main_v17_2)) (ix1 k)
      - meanOver (Gen.W6 m ρ c (Proc.devRef .tc main_v17_1)) (ix1 k) * meanOver (Gen.W6 m ρ c (Proc.devRef .tc main_v17_1)) (ix1 k) = _
  rw [meanOver_apply _ (fun b n => X m c b n k * X m c b n k) k (fun b t => hS2 b t k),
    meanOver_apply _ (fun b n => X m c b n k) k (fun b t => hS1 b t k),
    ← EReal.coe_mul, ← EReal.coe_sub]
  exact congrArg _ (Cert.Spec.var_eq _ _ _ k).symm

/-- What the stretch leaves alone: region 0's feature array, and the scale and the shift as launched. -/
theorem V7_keep :
    Gen.V7 m ρ c main_v17_0 = Gen.W6 m ρ c (Proc.devRef .tc main_v17_0)
      ∧ Gen.V7 m ρ c main_arg3 = m ((c : Thread nD τ).loc main_arg3)
      ∧ Gen.V7 m ρ c main_arg4 = m ((c : Thread nD τ).loc main_arg4) := by
  refine ⟨?_, ?_, ?_⟩
  · exact StableHlo.after_of_forall_not_mem (b := Proc.devRef .tc main_v17_0) _ _ (List.forall_iff_forall_mem.mp (by
      simp only [hostOps1, List.Forall, StableHlo.nullary_writes, StableHlo.unary_writes, StableHlo.binary_writes,
        Finset.mem_singleton]
      repeat' apply And.intro
      all_goals exact StableHlo.devRef_ne_of_ne (by decide)))
  · exact (((Gen.W8_arr m ρ c 1).trans (((dat1 (Gen.V7 m ρ) c).arrAt_in 1 rfl _).trans (A_eq1 (Gen.V7 m ρ) c 1))).symm).trans
      (Gen.W8_main_arg3 m ρ c)
  · exact (((Gen.W8_arr m ρ c 2).trans (((dat1 (Gen.V7 m ρ) c).arrAt_in 2 rfl _).trans (A_eq1 (Gen.V7 m ρ) c 2))).symm).trans
      (Gen.W8_main_arg4 m ρ c)

end Cert.KernelIdeal.HostValue

end
-- ==== Proof.KHostPre.lean ====
/-
  The averaged weights of the kernel program, read at an entry.

  Before the first region the host adds the [128, 128, 16] weights up over the last axis, from zero, divides by
  sixteen and converts the quotient for the matrix unit, which at the exact instance changes nothing. With every weight
  finite the entry at (c, k) is therefore the mean of the sixteen weights there.
-/
import proofs.«102829_j74062416053231_2_alg».proof.Proof.KHostArgs

set_option maxRecDepth 16384

noncomputable section

namespace Cert.KernelIdeal.HostValue

open Idealize.ShloMosaic Idealize.ShloMosaic.ValueIdx Idealize.ShloMosaic.TcCoe
open Cert.KernelIdeal Cert.KernelIdeal.Gen

/-- The host's mean over the last axis of a [128, 128, 16] array: the sum from zero, divided by sixteen, converted. -/
def wmeanOf (a2 : FVec Ideal S128x128x16 .f32) : FVec Ideal S128x128 .bf16 :=
  truncf .bf16 (Host.divf (F := Ideal)
    (Host.reduceAdd (F := Ideal) (φ := .f32) a2 (constant (F := Ideal) S_ .f32 0x00000000#32)
      reducesTo_S128x128x16_S128x128_d2 h_S_)
    (broadcastInDim S128x128 ![] bcast_S_S128x128 (constant (F := Ideal) S_ .f32 0x41800000#32))) bitsLt_bf16_f32

/-- At (c, k), over finite weights, it is the mean of the sixteen weights there. -/
theorem wmeanOf_apply (a2 : S128x128x16.Idx → EReal) (h2 : ∀ i, a2 i = ((a2 i).toReal : EReal)) (cc k : Fin 128) :
    wmeanOf a2 (ix2 cc k) = ((Cert.Spec.wm (Cert.Spec.wR a2) cc k : ℝ) : EReal) := by
  have hred : S128x128x16.Reduces [2] S128x128 := by decide
  show Ideal.div (Ideal.hostReduceAdd reducesTo_S128x128x16_S128x128_d2 a2 (Ideal.ofBits .f32 0x00000000#32) (ix2 cc k))
      (Ideal.ofBits .f32 0x41800000#32) = _
  rw [Ideal.hostReduceAdd_single _ hred, Ideal.ofBits_zero_f32, zero_add, ofBits_sixteen,
    Ideal.div_coe (by norm_num : (16 : ℝ) ≠ 0)]
  have hs : (∑ j : Fin 16, a2 (hred.lift (ix2 cc k) j))
      = ((∑ j : Fin 16, Cert.Spec.wR a2 cc k j : ℝ) : EReal) := by
    rw [Cert.LibExtReal.coe_sum]
    refine Finset.sum_congr rfl fun j _ => ?_
    have e : hred.lift (ix2 cc k) j = ix3 cc k j := by
      funext a; match a with | ⟨0, _⟩ => rfl | ⟨1, _⟩ => rfl | ⟨2, _⟩ => rfl
    rw [e, h2]; rfl
  refine (congrArg (fun z : EReal => z * ((1 / 16 : ℝ) : EReal)) hs).trans ?_
  rw [← EReal.coe_mul]
  unfold Cert.Spec.wm
  congr 1
  ring

variable (m : (ℓ : Loc nD τ sig) → Buf (Elt Ideal) ℓ) (ρ : Dev nD → PrngReg) (c : Dev nD)

/-- What the first region finds in its weight operand: the host's mean of the launched weights. -/
theorem V5_v16_eq :
    (Gen.V5 m ρ c main_v16 : S128x128.Idx → EReal) = wmeanOf (Gen.W0 m ρ c (Proc.devRef .tc main_arg2)) := by
  unfold wmeanOf
  dsimp only [Gen.V5, Gen.W5, Gen.hostOps0_4]
  after_results

/-- With every launched weight finite, the first region's weight operand at (c, k) is the specification's mean weight. -/
theorem V5_wm (h2 : ∀ i, A2 m c i = ((A2 m c i).toReal : EReal)) (cc k : Fin 128) :
    (Gen.V5 m ρ c main_v16 : S128x128.Idx → EReal) (ix2 cc k)
      = ((Cert.Spec.wm (Cert.Spec.wR (A2 m c)) cc k : ℝ) : EReal) := by
  rw [V5_v16_eq]
  exact wmeanOf_apply (A2 m c) h2 cc k

end Cert.KernelIdeal.HostValue

end
-- ==== Proof.LibGatherRows.lean ====
/-
  A gather of whole rows, read at an index.

  The operand is an array of shape [B, N, C], the start indices an array of shape [B, J, 1], and the result has
  shape [B, J, C]: axis 0 is a batching axis on both sides, the one component of a start index addresses axis 1 (which
  is collapsed), and axis 2 is copied whole. So the result at (b, j, c) is the operand at (b, r, c), where r is the
  start index at (b, j, 0) read as a signed integer and clamped into [0, N - 1].

  Below that: the facts about one 32-bit index word that lies in [0, 65536), in the form the elementwise integer
  operations take at an index, and a reduction by bitwise "and" along an axis of extent one.
-/
import Idealize.ShloMosaic.Lib.ValueIdx
import Idealize.ShloMosaic.PureOps
import Idealize.ShloMosaic.PureOps.Reduce

namespace Cert.LibGatherRows

open Idealize.ShloMosaic Idealize.ShloMosaic.ValueIdx

/-- The dimension numbers of a gather of rows: operand [B, N, C], start indices [B, J, 1], result [B, J, C]. The
    conditions are in the order the record's field asks them: offset axes, collapsed axes, operand batching axes,
    start index map, start-indices batching axes, index vector axis, slice sizes. -/
abbrev rowsDims (B N J C : Nat)
    (wf : GatherDims.WF ⟨3, ![B, N, C]⟩ ⟨3, ![B, J, 1]⟩ ⟨3, ![B, J, C]⟩ [2] [1] [0] [1] [0] 2 ![1, 1, C]) :
    GatherDims ⟨3, ![B, N, C]⟩ ⟨3, ![B, J, 1]⟩ ⟨3, ![B, J, C]⟩ where
  offsetDims := [2]
  collapsedSliceDims := [1]
  operandBatchingDims := [0]
  startIndicesBatchingDims := [0]
  startIndexMap := [1]
  indexVectorDim := 2
  sliceSizes := ![1, 1, C]
  wf := wf

/-- The gather read at (b, j, c): the operand's row at the start index of (b, j), read signed and clamped into
    [0, N - 1], at column c of batch b. -/
theorem gather_rows_apply {α : Type} {B N J C w : Nat} (hN : 0 < N)
    (wf : GatherDims.WF ⟨3, ![B, N, C]⟩ ⟨3, ![B, J, 1]⟩ ⟨3, ![B, J, C]⟩ [2] [1] [0] [1] [0] 2 ![1, 1, C])
    (x : (⟨3, ![B, N, C]⟩ : Shape).Idx → α) (idx : IVec ⟨3, ![B, J, 1]⟩ w) (b : Fin B) (j : Fin J) (c : Fin C) :
    Host.gather (rowsDims B N J C wf) x idx (ix3 b j c)
      = x (ix3 b ⟨min (idx (ix3 b j ⟨0, Nat.one_pos⟩)).toInt.toNat (N - 1), by omega⟩ c) := by
  unfold Host.gather
  congr 1
  have h0 : (rowsDims B N J C wf).start (ix3 b j c) idx 0 + (rowsDims B N J C wf).batchCoord (ix3 b j c) 0
      + (rowsDims B N J C wf).offCoord (ix3 b j c) 0 = b.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  have h1 : (rowsDims B N J C wf).start (ix3 b j c) idx 1 + (rowsDims B N J C wf).batchCoord (ix3 b j c) 1
      + (rowsDims B N J C wf).offCoord (ix3 b j c) 1 = min (idx (ix3 b j ⟨0, Nat.one_pos⟩)).toInt.toNat (N - 1) := by
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims B N J C wf).startIndexMap from List.mem_singleton.mpr rfl)]
    have hsi : (rowsDims B N J C wf).siIdx (ix3 b j c) ⟨List.idxOf (1 : Fin 3) (rowsDims B N J C wf).startIndexMap,
        List.idxOf_lt_length_iff.2 (List.mem_singleton.mpr rfl)⟩ = ix3 b j ⟨0, Nat.one_pos⟩ := by
      funext d; refine Fin.ext ?_
      match d with
      | ⟨0, _⟩ => rfl
      | ⟨1, _⟩ => rfl
      | ⟨2, _⟩ => rfl
    rw [hsi]
    rfl
  have h2 : (rowsDims B N J C wf).start (ix3 b j c) idx 2 + (rowsDims B N J C wf).batchCoord (ix3 b j c) 2
      + (rowsDims B N J C wf).offCoord (ix3 b j c) 2 = c.val := by
    rw [GatherDims.batchCoord_eq_zero _ _ _ (show (2 : Fin 3) ∉ ([0] : List (Fin 3)) by decide)]
    unfold GatherDims.start
    rw [dif_neg (show (2 : Fin 3) ∉ ([1] : List (Fin 3)) by decide)]
    simp only [Nat.zero_add, Nat.add_zero]
    rfl
  funext a
  refine Fin.ext ?_
  match a with
  | ⟨0, _⟩ => exact h0
  | ⟨1, _⟩ => exact h1
  | ⟨2, _⟩ => exact h2

/-! ## One index word in range

For a 32-bit word `v` whose signed value lies in [0, 65536): the comparisons of the wrap-and-mask chain around a
`take_along_axis` are decided, the wrap leaves `v` alone, the mask bit is one, and the clamped row number is `v`'s
unsigned value. Stated over the scalar functions the elementwise vector operations apply at each index. -/

section Word
variable {v : BitVec 32}

/-- The signed value of an in-range word is its unsigned value. -/
theorem toInt_eq_toNat (h : 0 ≤ v.toInt ∧ v.toInt < 65536) : v.toInt = (v.toNat : Int) := by
  have hlt := v.isLt
  have e := BitVec.toInt_eq_toNat_cond v
  split at e <;> omega

/-- An in-range word is below 65536 as an unsigned number. -/
theorem toNat_lt (h : 0 ≤ v.toInt ∧ v.toInt < 65536) : v.toNat < 65536 := by
  have := toInt_eq_toNat h; omega

/-- "v < 0" (signed) is false. -/
theorem cmpi_slt_zero (h : 0 ≤ v.toInt ∧ v.toInt < 65536) : IntOp.cmpi .slt v 0#32 = 0#1 := by
  show BitVec.ofBool (v.slt 0#32) = 0#1
  rw [BitVec.slt_eq_decide, BitVec.toInt_zero, decide_eq_false (by omega)]
  rfl

/-- "v ≥ 0" (signed) is true. -/
theorem cmpi_sge_zero (h : 0 ≤ v.toInt ∧ v.toInt < 65536) : IntOp.cmpi .sge v 0#32 = 1#1 := by
  show BitVec.ofBool ((0#32).sle v) = 1#1
  rw [BitVec.sle_eq_decide, BitVec.toInt_zero, decide_eq_true h.1]
  rfl

/-- "v ≤ 65535" (signed) is true. -/
theorem cmpi_sle_max (h : 0 ≤ v.toInt ∧ v.toInt < 65536) : IntOp.cmpi .sle v 65535#32 = 1#1 := by
  show BitVec.ofBool (v.sle 65535#32) = 1#1
  have e : (65535#32 : BitVec 32).toInt = 65535 := by decide
  rw [BitVec.sle_eq_decide, e, decide_eq_true (by omega)]
  rfl

/-- The conjunction of two true bits is true. -/
theorem andi_one_one : IntOp.andi 1#1 1#1 = 1#1 := by decide

/-- The wrap "if v < 0 then v + 65536 else v" returns `v`. -/
theorem wrap_eq (h : 0 ≤ v.toInt ∧ v.toInt < 65536) :
    Scalar.select (IntOp.cmpi .slt v 0#32) (IntOp.addi v 65536#32) v = v := by
  rw [cmpi_slt_zero h]; exact select_zero _ _

/-- The bounds mask "0 ≤ v and v ≤ 65535" is one. -/
theorem mask_eq (h : 0 ≤ v.toInt ∧ v.toInt < 65536) :
    IntOp.andi (IntOp.cmpi .sge v 0#32) (IntOp.cmpi .sle v 65535#32) = 1#1 := by
  rw [cmpi_sge_zero h, cmpi_sle_max h]; exact andi_one_one

/-- The clamped row number is the word's unsigned value … -/
theorem clamp_eq (h : 0 ≤ v.toInt ∧ v.toInt < 65536) : min v.toInt.toNat 65535 = v.toNat := by
  have := toInt_eq_toNat h; have := toNat_lt h; omega

/-- … which is its own residue modulo 65536. -/
theorem toNat_mod (h : 0 ≤ v.toInt ∧ v.toInt < 65536) : v.toNat = v.toNat % 65536 :=
  (Nat.mod_eq_of_lt (toNat_lt h)).symm

/-- Both together, in the form a gather over 65536 rows leaves: min … (65536 − 1). -/
theorem clamp_mod (h : 0 ≤ v.toInt ∧ v.toInt < 65536) : min v.toInt.toNat (65536 - 1) = v.toNat % 65536 := by
  have := toInt_eq_toNat h; have := toNat_lt h; omega

end Word

/-! ## A reduction by "and" along an axis of extent one -/

/-- A bit and-ed with one is itself. -/
theorem andi_one (x : BitVec 1) : IntOp.andi x 1#1 = x := by revert x; decide

/-- A fold over the one-element index set is one application of the operation. -/
theorem fold_fin_one {α : Type} (op : α → α → α) [Std.Commutative op] [Std.Associative op] (init : α) (f : Fin 1 → α) :
    (Finset.univ : Finset (Fin 1)).fold op init f = op (f ⟨0, Nat.one_pos⟩) init := by
  rw [Finset.univ_unique, Finset.fold_singleton]; rfl

/-- Reducing [B, J, 1] along its last axis by "and" from an initial one returns the one element of each row. -/
theorem reduce_andi_unit {B J : Nat} {u : Shape} (x : IVec ⟨3, ![B, J, 1]⟩ 1) (init : u.Idx → BitVec 1)
    (hred : Shape.ReducesTo ⟨3, ![B, J, 1]⟩ [2] ⟨2, ![B, J]⟩) (hu : 0 < u.numel)
    (hinit : init (Shape.Idx.first hu) = 1#1) (b : Fin B) (j : Fin J) :
    Host.reduce IntOp.andi x init hred hu (ix2 b j) = x (ix3 b j ⟨0, Nat.one_pos⟩) := by
  have h : Shape.Reduces ⟨3, ![B, J, 1]⟩ [2] ⟨2, ![B, J]⟩ := ⟨hred.1, Nat.succ_pos 1, hred.2⟩
  rw [Host.reduce_eq_fold_single IntOp.andi x init hred h hu, hinit]
  refine (fold_fin_one IntOp.andi 1#1 (x ∘ h.lift (ix2 b j))).trans ?_
  rw [andi_one]
  show x (h.lift (ix2 b j) ⟨0, Nat.one_pos⟩) = _
  congr 1
  funext c
  refine Fin.ext ?_
  match c with
  | ⟨0, _⟩ => rfl
  | ⟨1, _⟩ => rfl
  | ⟨2, _⟩ => rfl

/-- The same with the printed initial value, the scalar constant one. -/
theorem reduce_andi_unit_const {B J : Nat} (x : IVec ⟨3, ![B, J, 1]⟩ 1)
    (hred : Shape.ReducesTo ⟨3, ![B, J, 1]⟩ [2] ⟨2, ![B, J]⟩) (hu : 0 < (⟨0, ![]⟩ : Shape).numel) (b : Fin B) (j : Fin J) :
    Host.reduce IntOp.andi x (constantI ⟨0, ![]⟩ 1 1#1) hred hu (ix2 b j) = x (ix3 b j ⟨0, Nat.one_pos⟩) :=
  reduce_andi_unit x _ hred hu rfl b j

end Cert.LibGatherRows
-- ==== Proof.KTake.lean ====
/-
  The kernel program's `take_along_axis`, read at an index.

  The chain is: wrap a negative index by adding 65536; the mask "0 ≤ index ≤ 65535" reduced by "and" over the unit last
  axis; the gather of whole rows at the wrapped indices; where the mask is one the gathered row, elsewhere a constant.
  When every index word lies in [0, 65536) the wrap leaves it alone, the mask is one everywhere, the gather's clamp does
  nothing, and the result at (b, n, c) is the operand at (b, r, c) with r the index word at (b, n, 0) as a number.

  The three index arrays are the columns 0, 1, 2 of the neighbour table, each a slice of width one along the last axis;
  read at (b, n, 0) a slice is the table at (b, n, k), so the row taken is the k-th neighbour of node n in batch b.
-/
import proofs.«102829_j74062416053231_2_alg».proof.KernelIdeal
import proofs.«102829_j74062416053231_2_alg».proof.Proof.Gen.KernelIdeal
import proofs.«102829_j74062416053231_2_alg».proof.Proof.LibGatherRows
import proofs.«102829_j74062416053231_2_alg».proof.Proof.Spec
import Idealize.ShloMosaic.Lib.ValueIdx
import Idealize.ShloMosaic.Lib.ValueLayout
import Idealize.ShloMosaic.Lib.Pipeline.Value

noncomputable section

namespace Cert.KernelIdeal.KTake

open Idealize.ShloMosaic Idealize.ShloMosaic.ValueIdx Cert.KernelIdeal Cert.KernelIdeal.Facts₀ Cert.LibGatherRows

/-- The wrapped index array: 65536 added where the index is negative. -/
def wrap (idx : IVec S4x65536x1 32) : IVec S4x65536x1 32 :=
  (select (cmpi .slt idx (broadcastInDim S4x65536x1 ![] bcast_S_S4x65536x1 (constantI S_ 32 0#32))) (addi idx (broadcastInDim S4x65536x1 ![] bcast_S_S4x65536x1 (constantI S_ 32 65536#32))) idx)

/-- The bounds mask of the wrapped indices, reduced over the unit last axis. -/
def mask (idx : IVec S4x65536x1 32) : IVec S4x65536 1 :=
  Host.reduce IntOp.andi (andi (cmpi .sge (wrap idx) (broadcastInDim S4x65536x1 ![] bcast_S_S4x65536x1 (constantI S_ 32 0#32))) (cmpi .sle (wrap idx) (broadcastInDim S4x65536x1 ![0, 1, 2] bcast_S1x1x1_S4x65536x1_0_1_2 (broadcastInDim S1x1x1 ![2] bcast_S1_S1x1x1_2 (constantI S1 32 65535#32)))))
    (constantI S_ 1 1#1) reducesTo_S4x65536x1_S4x65536_d2 h_S_

/-- The whole chain as one function of the operand and the index array, operation by operation as printed. -/
def take (x : FVec Ideal S4x65536x128 .f32) (idx : IVec S4x65536x1 32) : FVec Ideal S4x65536x128 .f32 :=
  select
    (broadcastInDim S4x65536x128 ![0, 1] bcast_S4x65536_S4x65536x128_0_1
      (Host.reduce IntOp.andi
        (andi (cmpi .sge (select (cmpi .slt idx (broadcastInDim S4x65536x1 ![] bcast_S_S4x65536x1 (constantI S_ 32 0#32))) (addi idx (broadcastInDim S4x65536x1 ![] bcast_S_S4x65536x1 (constantI S_ 32 65536#32))) idx) (broadcastInDim S4x65536x1 ![] bcast_S_S4x65536x1 (constantI S_ 32 0#32)))
          (cmpi .sle (select (cmpi .slt idx (broadcastInDim S4x65536x1 ![] bcast_S_S4x65536x1 (constantI S_ 32 0#32))) (addi idx (broadcastInDim S4x65536x1 ![] bcast_S_S4x65536x1 (constantI S_ 32 65536#32))) idx) (broadcastInDim S4x65536x1 ![0, 1, 2] bcast_S1x1x1_S4x65536x1_0_1_2 (broadcastInDim S1x1x1 ![2] bcast_S1_S1x1x1_2 (constantI S1 32 65535#32)))))
        (constantI S_ 1 1#1) reducesTo_S4x65536x1_S4x65536_d2 h_S_))
    (Host.gather gather_S4x65536x128_S4x65536x1_S4x65536x128_2_1_0_0_1_2_11128 x (select (cmpi .slt idx (broadcastInDim S4x65536x1 ![] bcast_S_S4x65536x1 (constantI S_ 32 0#32))) (addi idx (broadcastInDim S4x65536x1 ![] bcast_S_S4x65536x1 (constantI S_ 32 65536#32))) idx))
    (broadcastInDim S4x65536x128 ![] bcast_S_S4x65536x128 (constant (F := Ideal) S_ .f32 0x7FC00000#32))

/-- The same through the two named parts. -/
theorem take_eq (x : FVec Ideal S4x65536x128 .f32) (idx : IVec S4x65536x1 32) :
    take x idx = select (broadcastInDim S4x65536x128 ![0, 1] bcast_S4x65536_S4x65536x128_0_1 (mask idx))
      (Host.gather gather_S4x65536x128_S4x65536x1_S4x65536x128_2_1_0_0_1_2_11128 x (wrap idx))
      (broadcastInDim S4x65536x128 ![] bcast_S_S4x65536x128 (constant (F := Ideal) S_ .f32 0x7FC00000#32)) := rfl

/-- An in-range index is not wrapped. -/
theorem wrap_apply (idx : IVec S4x65536x1 32) (i : S4x65536x1.Idx) (h : 0 ≤ (idx i).toInt ∧ (idx i).toInt < 65536) :
    wrap idx i = idx i :=
  wrap_eq h

/-- With every index in range the mask is one. -/
theorem mask_apply (idx : IVec S4x65536x1 32) (hidx : ∀ i, 0 ≤ (idx i).toInt ∧ (idx i).toInt < 65536)
    (b : Fin 4) (n : Fin 65536) : mask idx (ix2 b n) = 1#1 := by
  unfold mask
  refine (reduce_andi_unit_const _ reducesTo_S4x65536x1_S4x65536_d2 h_S_ b n).trans ?_
  show IntOp.andi (IntOp.cmpi .sge (wrap idx (ix3 b n ⟨0, Nat.one_pos⟩)) 0#32)
      (IntOp.cmpi .sle (wrap idx (ix3 b n ⟨0, Nat.one_pos⟩)) 65535#32) = 1#1
  rw [wrap_apply idx _ (hidx _)]
  exact mask_eq (hidx _)

/-- THE CHAIN AT (b, n, c): with every index in range, the operand's row at the index word of (b, n), column c. -/
theorem take_apply (x : FVec Ideal S4x65536x128 .f32) (idx : IVec S4x65536x1 32)
    (hidx : ∀ i, 0 ≤ (idx i).toInt ∧ (idx i).toInt < 65536) (b : Fin 4) (n : Fin 65536) (cc : Fin 128) :
    take x idx (ix3 b n cc)
      = x (ix3 b ⟨(idx (ix3 b n ⟨0, Nat.one_pos⟩)).toNat % 65536, Nat.mod_lt _ (by norm_num)⟩ cc) := by
  have hb : broadcastInDim S4x65536x128 ![0, 1] bcast_S4x65536_S4x65536x128_0_1 (mask idx) (ix3 b n cc) = 1#1 := by
    rw [broadcastInDim_apply _ _ _ _ (ix2 b n) (fun a => match a with | ⟨0, _⟩ => rfl | ⟨1, _⟩ => rfl)]
    exact mask_apply idx hidx b n
  calc take x idx (ix3 b n cc)
      = Host.gather gather_S4x65536x128_S4x65536x1_S4x65536x128_2_1_0_0_1_2_11128 x (wrap idx) (ix3 b n cc) := by
        rw [take_eq]
        show Scalar.select (broadcastInDim S4x65536x128 ![0, 1] bcast_S4x65536_S4x65536x128_0_1 (mask idx) (ix3 b n cc)) _ _ = _
        rw [hb]
        exact select_one _ _
    _ = x (ix3 b ⟨min (wrap idx (ix3 b n ⟨0, Nat.one_pos⟩)).toInt.toNat (65536 - 1), by omega⟩ cc) :=
        gather_rows_apply (by decide) gather_S4x65536x128_S4x65536x1_S4x65536x128_2_1_0_0_1_2_11128_wf x (wrap idx) b n cc
    _ = x (ix3 b ⟨(idx (ix3 b n ⟨0, Nat.one_pos⟩)).toNat % 65536, Nat.mod_lt _ (by norm_num)⟩ cc) :=
        congrArg (fun r => x (ix3 b r cc)) (Fin.ext (by
          show min (wrap idx (ix3 b n ⟨0, Nat.one_pos⟩)).toInt.toNat (65536 - 1) = _
          rw [wrap_apply idx _ (hidx _)]
          exact clamp_mod (hidx _)))

/-! ## The three index arrays: columns of the neighbour table -/

/-- Column 0 of the table, read at (b, n, 0). -/
theorem slice0_apply (ring : IVec S4x65536x3 32) (b : Fin 4) (n : Fin 65536) :
    extractStridedSlice S4x65536x1 ![0, 0, 0] ring slices_S4x65536x3_S4x65536x1_0_0_0 (ix3 b n ⟨0, Nat.one_pos⟩)
      = ring (ix3 b n 0) :=
  extractStridedSlice_apply _ _ _ _ _ (fun ax => by
    match ax with
    | ⟨0, _⟩ => exact (Nat.zero_add _).symm
    | ⟨1, _⟩ => exact (Nat.zero_add _).symm
    | ⟨2, _⟩ => rfl)

/-- Column 1 of the table, read at (b, n, 0). -/
theorem slice1_apply (ring : IVec S4x65536x3 32) (b : Fin 4) (n : Fin 65536) :
    extractStridedSlice S4x65536x1 ![0, 0, 1] ring slices_S4x65536x3_S4x65536x1_0_0_1 (ix3 b n ⟨0, Nat.one_pos⟩)
      = ring (ix3 b n 1) :=
  extractStridedSlice_apply _ _ _ _ _ (fun ax => by
    match ax with
    | ⟨0, _⟩ => exact (Nat.zero_add _).symm
    | ⟨1, _⟩ => exact (Nat.zero_add _).symm
    | ⟨2, _⟩ => rfl)

/-- Column 2 of the table, read at (b, n, 0). -/
theorem slice2_apply (ring : IVec S4x65536x3 32) (b : Fin 4) (n : Fin 65536) :
    extractStridedSlice S4x65536x1 ![0, 0, 2] ring slices_S4x65536x3_S4x65536x1_0_0_2 (ix3 b n ⟨0, Nat.one_pos⟩)
      = ring (ix3 b n 2) :=
  extractStridedSlice_apply _ _ _ _ _ (fun ax => by
    match ax with
    | ⟨0, _⟩ => exact (Nat.zero_add _).symm
    | ⟨1, _⟩ => exact (Nat.zero_add _).symm
    | ⟨2, _⟩ => rfl)

/-- The row number an in-range table entry names is the specification's neighbour. -/
theorem row_eq_nbrOf (ring : IVec S4x65536x3 32) (b : Fin 4) (n : Fin 65536) (k : Fin 3) :
    (⟨(ring (ix3 b n k)).toNat % 65536, Nat.mod_lt _ (by norm_num)⟩ : Fin 65536) = Cert.Spec.nbrOf ring b n k := rfl

/-- A slice of an in-range table is in range. -/
theorem slice_range {off : Fin 3 → Nat} (ring : IVec S4x65536x3 32) (h : S4x65536x3.Slices off S4x65536x1)
    (hring : ∀ i, 0 ≤ (ring i).toInt ∧ (ring i).toInt < 65536) (i : S4x65536x1.Idx) :
    0 ≤ (extractStridedSlice S4x65536x1 off ring h i).toInt ∧ (extractStridedSlice S4x65536x1 off ring h i).toInt < 65536 :=
  hring _

/-- The chain at column 0 of the table: the operand's row at neighbour 0. -/
theorem take_slice0 (x : FVec Ideal S4x65536x128 .f32) (ring : IVec S4x65536x3 32)
    (hring : ∀ i, 0 ≤ (ring i).toInt ∧ (ring i).toInt < 65536) (b : Fin 4) (n : Fin 65536) (cc : Fin 128) :
    take x (extractStridedSlice S4x65536x1 ![0, 0, 0] ring slices_S4x65536x3_S4x65536x1_0_0_0) (ix3 b n cc)
      = x (ix3 b (Cert.Spec.nbrOf ring b n 0) cc) := by
  rw [take_apply x _ (slice_range ring _ hring) b n cc]
  exact congrArg (fun r => x (ix3 b r cc)) (Fin.ext (by
    show (extractStridedSlice S4x65536x1 ![0, 0, 0] ring slices_S4x65536x3_S4x65536x1_0_0_0 (ix3 b n ⟨0, Nat.one_pos⟩)).toNat % 65536 = _
    rw [slice0_apply]; rfl))

/-- The chain at column 1 of the table: the operand's row at neighbour 1. -/
theorem take_slice1 (x : FVec Ideal S4x65536x128 .f32) (ring : IVec S4x65536x3 32)
    (hring : ∀ i, 0 ≤ (ring i).toInt ∧ (ring i).toInt < 65536) (b : Fin 4) (n : Fin 65536) (cc : Fin 128) :
    take x (extractStridedSlice S4x65536x1 ![0, 0, 1] ring slices_S4x65536x3_S4x65536x1_0_0_1) (ix3 b n cc)
      = x (ix3 b (Cert.Spec.nbrOf ring b n 1) cc) := by
  rw [take_apply x _ (slice_range ring _ hring) b n cc]
  exact congrArg (fun r => x (ix3 b r cc)) (Fin.ext (by
    show (extractStridedSlice S4x65536x1 ![0, 0, 1] ring slices_S4x65536x3_S4x65536x1_0_0_1 (ix3 b n ⟨0, Nat.one_pos⟩)).toNat % 65536 = _
    rw [slice1_apply]; rfl))

/-- The chain at column 2 of the table: the operand's row at neighbour 2. -/
theorem take_slice2 (x : FVec Ideal S4x65536x128 .f32) (ring : IVec S4x65536x3 32)
    (hring : ∀ i, 0 ≤ (ring i).toInt ∧ (ring i).toInt < 65536) (b : Fin 4) (n : Fin 65536) (cc : Fin 128) :
    take x (extractStridedSlice S4x65536x1 ![0, 0, 2] ring slices_S4x65536x3_S4x65536x1_0_0_2) (ix3 b n cc)
      = x (ix3 b (Cert.Spec.nbrOf ring b n 2) cc) := by
  rw [take_apply x _ (slice_range ring _ hring) b n cc]
  exact congrArg (fun r => x (ix3 b r cc)) (Fin.ext (by
    show (extractStridedSlice S4x65536x1 ![0, 0, 2] ring slices_S4x65536x3_S4x65536x1_0_0_2 (ix3 b n ⟨0, Nat.one_pos⟩)).toNat % 65536 = _
    rw [slice2_apply]; rfl))

end Cert.KernelIdeal.KTake

end
-- ==== Proof.KHostFmean.lean ====
/-
  The kernel program's averaged features, read at an index.

  Before its first block loop the kernel program transposes the features to (batch, node, channel), takes the rows of
  the three neighbours along the node axis, adds the node's own row and the three taken rows in that order, multiplies by
  the word of one quarter, and changes the format (the identity on the extended reals).  With every feature finite and
  every neighbour index in range, the entry at (b, n, c) is the reading of the real
      (x b c n + x b c (nbr b n 0) + x b c (nbr b n 1) + x b c (nbr b n 2)) / 4.
-/
import proofs.«102829_j74062416053231_2_alg».proof.Proof.KTake
import proofs.«102829_j74062416053231_2_alg».proof.Proof.Spec
import Idealize.ShloMosaic.Lib.IdealHost
import Idealize.ShloMosaic.Lib.Pipeline.Value

noncomputable section

namespace Cert.KernelIdeal.HostFmean

open Idealize.ShloMosaic Idealize.ShloMosaic.ValueIdx Cert.KernelIdeal Cert.KernelIdeal.Facts₀

/-- The word of one quarter. -/
theorem ofBits_quarter : Ideal.ofBits .f32 0x3E800000#32 = (((1 : ℝ) / 4 : ℝ) : EReal) := by
  simp [Ideal.ofBits, Ideal.ieee, -EReal.coe_mul]; norm_num

/-- The features transposed to (batch, node, channel). -/
def fT (a0 : FVec Ideal S4x128x65536 .f32) : FVec Ideal S4x65536x128 .f32 :=
  transpose S4x65536x128 [0, 2, 1] a0 transposes_S4x128x65536_S4x65536x128_0_2_1

/-- The transposed features at (b, n, c) are the features at (b, c, n). -/
theorem fT_apply (a0 : FVec Ideal S4x128x65536 .f32) (b : Fin 4) (n : Fin 65536) (c : Fin 128) :
    fT a0 (ix3 b n c) = a0 (ix3 b c n) := by
  unfold fT
  exact transpose_apply _ a0 _ (ix3 b n c) (ix3 b c n) (fun a => by
    match a with
    | ⟨0, _⟩ => rfl
    | ⟨1, _⟩ => rfl
    | ⟨2, _⟩ => rfl)

/-- The averaged features as the kernel program computes them before its first block loop. -/
def fmeanTerm (a0 : FVec Ideal S4x128x65536 .f32) (a1 : IVec S4x65536x3 32) : FVec Ideal S4x65536x128 .bf16 :=
  truncf .bf16
    (mulf
      (addf
        (addf
          (addf (fT a0)
            (KTake.take (fT a0) (extractStridedSlice S4x65536x1 ![0, 0, 0] a1 slices_S4x65536x3_S4x65536x1_0_0_0)))
          (KTake.take (fT a0) (extractStridedSlice S4x65536x1 ![0, 0, 1] a1 slices_S4x65536x3_S4x65536x1_0_0_1)))
        (KTake.take (fT a0) (extractStridedSlice S4x65536x1 ![0, 0, 2] a1 slices_S4x65536x3_S4x65536x1_0_0_2)))
      (broadcastInDim S4x65536x128 ![] bcast_S_S4x65536x128 (constant (F := Ideal) S_ .f32 0x3E800000#32)))
    bitsLt_bf16_f32

/-- The averaged features at (b, n, c). -/
theorem fmeanTerm_apply (a0 : FVec Ideal S4x128x65536 .f32) (a1 : IVec S4x65536x3 32)
    (h0 : ∀ i, a0 i = ((a0 i).toReal : EReal)) (hring : ∀ i, 0 ≤ (a1 i).toInt ∧ (a1 i).toInt < 65536)
    (b : Fin 4) (n : Fin 65536) (cc : Fin 128) :
    fmeanTerm a0 a1 (ix3 b n cc) = ((Cert.Spec.fm (Cert.Spec.xR a0) (Cert.Spec.nbrOf a1) b n cc : ℝ) : EReal) := by
  have hx : ∀ (b : Fin 4) (c : Fin 128) (m : Fin 65536), a0 (ix3 b c m) = ((Cert.Spec.xR a0 b c m : ℝ) : EReal) :=
    fun b c m => h0 _
  unfold fmeanTerm
  rw [truncf_apply, mulf_apply, addf_apply, addf_apply, addf_apply, broadcastInDim_scalar_apply, constant_apply,
    ofBits_quarter, KTake.take_slice0 _ a1 hring, KTake.take_slice1 _ a1 hring, KTake.take_slice2 _ a1 hring]
  simp only [fT_apply, hx]
  have e : Cert.Spec.fm (Cert.Spec.xR a0) (Cert.Spec.nbrOf a1) b n cc
      = (Cert.Spec.xR a0 b cc n + Cert.Spec.xR a0 b cc (Cert.Spec.nbrOf a1 b n 0)
          + Cert.Spec.xR a0 b cc (Cert.Spec.nbrOf a1 b n 1) + Cert.Spec.xR a0 b cc (Cert.Spec.nbrOf a1 b n 2)) * (1 / 4) := by
    unfold Cert.Spec.fm; ring
  rw [e]
  simp only [EReal.coe_add, EReal.coe_mul]

end Cert.KernelIdeal.HostFmean

end
-- ==== Proof.KHostCalls.lean ====
/-
  The three inlined calls of the row-taking function, each as one function of the buffers it reads.

  Each call is a stretch of twenty-two host operations writing twenty-two buffers in turn; the last one written is the
  call's result. Read back through the stretch, from any contents of the buffers before it, the result buffer holds the
  row-taking function of the transposed features' buffer and of the call's index buffer. Between a typed value and its
  buffer there is a transport along the equality of their types; a transport there and back is the identity, and at
  these literal buffers each single transport is the identity by computation.
-/
import proofs.«102829_j74062416053231_2_alg».proof.Proof.Gen.KernelIdeal.Frame
import proofs.«102829_j74062416053231_2_alg».proof.Proof.KTake

set_option maxRecDepth 16384

noncomputable section

namespace Cert.KernelIdeal.HostCalls

open Idealize.ShloMosaic Idealize.ShloMosaic.TcCoe Idealize.SL.Sem Cert.KernelIdeal Cert.KernelIdeal.Facts₀

/-- A value carried to a buffer's own type and back is the value. -/
theorem ofBuf_toBuf {T : BufTy} {Val : EltTy → Type} (x : StableHlo.TRef sig T) (v : T.Contents Val) :
    x.ofBuf (x.toBuf v) = v := by
  unfold StableHlo.TRef.ofBuf StableHlo.TRef.toBuf
  rw [cast_cast, cast_eq]

/-- The call at column 0: its result buffer after the stretch is the row-taking function of the features' buffer and
    of the column's buffer as they were before it. -/
theorem call0 (W : Valuation τ sig (Elt Ideal)) :
    (StableHlo.after (Gen.hostOps0_1 (F := Ideal)) W (Proc.devRef .tc main_v4) : S4x65536x128.Idx → EReal)
      = KTake.take (W (Proc.devRef .tc main_v0)) (W (Proc.devRef .tc main_v1)) := by
  simp only [Gen.hostOps0_1]
  after_results_simp
  simp only [ofBuf_toBuf]
  have e0 : ∀ p1 p2 p3, (StableHlo.TRef.of (T := ⟨S4x65536x128, .f32⟩) main_v0 p1 p2 p3).ofBuf (Val := Elt Ideal)
      (W (Proc.devRef .tc main_v0)) = W (Proc.devRef .tc main_v0) := fun _ _ _ => rfl
  have e1 : ∀ p1 p2 p3, (StableHlo.TRef.of (T := ⟨S4x65536x1, .i32⟩) main_v1 p1 p2 p3).ofBuf (Val := Elt Ideal)
      (W (Proc.devRef .tc main_v1)) = W (Proc.devRef .tc main_v1) := fun _ _ _ => rfl
  have e4 : ∀ p1 p2 p3 (v : FVec Ideal S4x65536x128 .f32),
      (StableHlo.TRef.of (T := ⟨S4x65536x128, .f32⟩) main_v4 p1 p2 p3).toBuf (Val := Elt Ideal) v = v := fun _ _ _ _ => rfl
  rw [e4]
  simp only [e0, e1]
  unfold KTake.take
  rfl

/-- The call at column 1: its result buffer after the stretch is the row-taking function of the features' buffer and
    of the column's buffer as they were before it. -/
theorem call1 (W : Valuation τ sig (Elt Ideal)) :
    (StableHlo.after (Gen.hostOps0_2 (F := Ideal)) W (Proc.devRef .tc main_v5) : S4x65536x128.Idx → EReal)
      = KTake.take (W (Proc.devRef .tc main_v0)) (W (Proc.devRef .tc main_v2)) := by
  simp only [Gen.hostOps0_2]
  after_results_simp
  simp only [ofBuf_toBuf]
  have e0 : ∀ p1 p2 p3, (StableHlo.TRef.of (T := ⟨S4x65536x128, .f32⟩) main_v0 p1 p2 p3).ofBuf (Val := Elt Ideal)
      (W (Proc.devRef .tc main_v0)) = W (Proc.devRef .tc main_v0) := fun _ _ _ => rfl
  have e1 : ∀ p1 p2 p3, (StableHlo.TRef.of (T := ⟨S4x65536x1, .i32⟩) main_v2 p1 p2 p3).ofBuf (Val := Elt Ideal)
      (W (Proc.devRef .tc main_v2)) = W (Proc.devRef .tc main_v2) := fun _ _ _ => rfl
  have e4 : ∀ p1 p2 p3 (v : FVec Ideal S4x65536x128 .f32),
      (StableHlo.TRef.of (T := ⟨S4x65536x128, .f32⟩) main_v5 p1 p2 p3).toBuf (Val := Elt Ideal) v = v := fun _ _ _ _ => rfl
  rw [e4]
  simp only [e0, e1]
  unfold KTake.take
  rfl

/-- The call at column 2: its result buffer after the stretch is the row-taking function of the features' buffer and
    of the column's buffer as they were before it. -/
theorem call2 (W : Valuation τ sig (Elt Ideal)) :
    (StableHlo.after (Gen.hostOps0_3 (F := Ideal)) W (Proc.devRef .tc main_v6) : S4x65536x128.Idx → EReal)
      = KTake.take (W (Proc.devRef .tc main_v0)) (W (Proc.devRef .tc main_v3)) := by
  simp only [Gen.hostOps0_3]
  after_results_simp
  simp only [ofBuf_toBuf]
  have e0 : ∀ p1 p2 p3, (StableHlo.TRef.of (T := ⟨S4x65536x128, .f32⟩) main_v0 p1 p2 p3).ofBuf (Val := Elt Ideal)
      (W (Proc.devRef .tc main_v0)) = W (Proc.devRef .tc main_v0) := fun _ _ _ => rfl
  have e1 : ∀ p1 p2 p3, (StableHlo.TRef.of (T := ⟨S4x65536x1, .i32⟩) main_v3 p1 p2 p3).ofBuf (Val := Elt Ideal)
      (W (Proc.devRef .tc main_v3)) = W (Proc.devRef .tc main_v3) := fun _ _ _ => rfl
  have e4 : ∀ p1 p2 p3 (v : FVec Ideal S4x65536x128 .f32),
      (StableHlo.TRef.of (T := ⟨S4x65536x128, .f32⟩) main_v6 p1 p2 p3).toBuf (Val := Elt Ideal) v = v := fun _ _ _ _ => rfl
  rw [e4]
  simp only [e0, e1]
  unfold KTake.take
  rfl

end Cert.KernelIdeal.HostCalls

end
-- ==== Proof.KHostChain.lean ====
/-
  The kernel program's averaged features as a closed term of the launch memory.

  The host operations before the first block loop run in five stretches: the transpose and the three index
  slices; the three row-taking calls, one per neighbour; and the three sums, the product with one quarter and
  the change of format.  Each stretch is read over an arbitrary valuation: the buffers it writes hold its
  operations applied to the buffers it reads, and every buffer it does not write is as it was.  Chained from
  the launch memory, the buffer of the averaged features holds the closed term of the features and the
  neighbour table, whose entries are the specification's neighbourhood means.
-/
import proofs.«102829_j74062416053231_2_alg».proof.Proof.Gen.KernelIdeal.Frame
import proofs.«102829_j74062416053231_2_alg».proof.Proof.KHostFmean
import proofs.«102829_j74062416053231_2_alg».proof.Proof.KHostCalls

noncomputable section

namespace Cert.KernelIdeal.HostV12

open Idealize.ShloMosaic Idealize.ShloMosaic.TcCoe Idealize.ShloMosaic.ValueIdx Idealize.SL.Sem
open Cert.KernelIdeal Cert.KernelIdeal.Facts₀

/-- A buffer that no operation of a stretch writes is as it was. -/
local macro "kept_by" ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, Finset.mem_singleton]
    repeat' apply And.intro
    all_goals exact StableHlo.devRef_ne_of_ne (by decide)))

section Stretches
variable (W : Valuation τ sig (Elt Ideal))

/-! ## The first stretch: the transpose and the three slices -/

theorem first_v0 :
    (StableHlo.after (Gen.hostOps0 (F := Ideal)) W (Proc.devRef .tc main_v0) : S4x65536x128.Idx → EReal)
      = HostFmean.fT (W (Proc.devRef .tc main_arg0)) := by
  simp only [Gen.hostOps0]
  after_results
  rfl

theorem first_v1 :
    (StableHlo.after (Gen.hostOps0 (F := Ideal)) W (Proc.devRef .tc main_v1) : S4x65536x1.Idx → BitVec 32)
      = extractStridedSlice S4x65536x1 ![0, 0, 0] (W (Proc.devRef .tc main_arg1)) slices_S4x65536x3_S4x65536x1_0_0_0 := by
  simp only [Gen.hostOps0]
  after_results

theorem first_v2 :
    (StableHlo.after (Gen.hostOps0 (F := Ideal)) W (Proc.devRef .tc main_v2) : S4x65536x1.Idx → BitVec 32)
      = extractStridedSlice S4x65536x1 ![0, 0, 1] (W (Proc.devRef .tc main_arg1)) slices_S4x65536x3_S4x65536x1_0_0_1 := by
  simp only [Gen.hostOps0]
  after_results

theorem first_v3 :
    (StableHlo.after (Gen.hostOps0 (F := Ideal)) W (Proc.devRef .tc main_v3) : S4x65536x1.Idx → BitVec 32)
      = extractStridedSlice S4x65536x1 ![0, 0, 2] (W (Proc.devRef .tc main_arg1)) slices_S4x65536x3_S4x65536x1_0_0_2 := by
  simp only [Gen.hostOps0]
  after_results

/-! ## The last stretch: the sums, the product with one quarter, the change of format -/

theorem last_v12 :
    (StableHlo.after (Gen.hostOps0_4 (F := Ideal)) W (Proc.devRef .tc main_v12) : S4x65536x128.Idx → EReal)
      = truncf .bf16
          (mulf
            (addf
              (addf
                (addf (W (Proc.devRef .tc main_v0) : S4x65536x128.Idx → EReal) (W (Proc.devRef .tc main_v4)))
                (W (Proc.devRef .tc main_v5)))
              (W (Proc.devRef .tc main_v6)))
            (broadcastInDim S4x65536x128 ![] bcast_S_S4x65536x128 (constant (F := Ideal) S_ .f32 0x3E800000#32)))
          bitsLt_bf16_f32 := by
  simp only [Gen.hostOps0_4]
  after_results

/-! ## What each call stretch leaves alone -/

theorem kept1_v0 : StableHlo.after (Gen.hostOps0_1 (F := Ideal)) W (Proc.devRef .tc main_v0) = W (Proc.devRef .tc main_v0) := by
  kept_by Gen.hostOps0_1
theorem kept1_v2 : StableHlo.after (Gen.hostOps0_1 (F := Ideal)) W (Proc.devRef .tc main_v2) = W (Proc.devRef .tc main_v2) := by
  kept_by Gen.hostOps0_1
theorem kept1_v3 : StableHlo.after (Gen.hostOps0_1 (F := Ideal)) W (Proc.devRef .tc main_v3) = W (Proc.devRef .tc main_v3) := by
  kept_by Gen.hostOps0_1
theorem kept2_v0 : StableHlo.after (Gen.hostOps0_2 (F := Ideal)) W (Proc.devRef .tc main_v0) = W (Proc.devRef .tc main_v0) := by
  kept_by Gen.hostOps0_2
theorem kept2_v3 : StableHlo.after (Gen.hostOps0_2 (F := Ideal)) W (Proc.devRef .tc main_v3) = W (Proc.devRef .tc main_v3) := by
  kept_by Gen.hostOps0_2
theorem kept2_v4 : StableHlo.after (Gen.hostOps0_2 (F := Ideal)) W (Proc.devRef .tc main_v4) = W (Proc.devRef .tc main_v4) := by
  kept_by Gen.hostOps0_2
theorem kept3_v0 : StableHlo.after (Gen.hostOps0_3 (F := Ideal)) W (Proc.devRef .tc main_v0) = W (Proc.devRef .tc main_v0) := by
  kept_by Gen.hostOps0_3
theorem kept3_v4 : StableHlo.after (Gen.hostOps0_3 (F := Ideal)) W (Proc.devRef .tc main_v4) = W (Proc.devRef .tc main_v4) := by
  kept_by Gen.hostOps0_3
theorem kept3_v5 : StableHlo.after (Gen.hostOps0_3 (F := Ideal)) W (Proc.devRef .tc main_v5) = W (Proc.devRef .tc main_v5) := by
  kept_by Gen.hostOps0_3

end Stretches

/-! ## The chain from the launch memory -/

section Chain
variable (m : (ℓ : Loc nD τ sig) → Buf (Elt Ideal) ℓ) (ρ : Dev nD → PrngReg)

/-- The averaged features' buffer, when the first block loop is entered, holds the closed term of the launch
    memory's features and neighbour table. -/
theorem V5_v12_eq (c : Dev nD) :
    (Gen.V5 m ρ c main_v12 : S4x65536x128.Idx → EReal)
      = HostFmean.fmeanTerm (m ((c : Thread nD τ).loc main_arg0)) (m ((c : Thread nD τ).loc main_arg1)) := by
  have e0 : (Gen.W1 m ρ c (Proc.devRef .tc main_v0) : S4x65536x128.Idx → EReal)
      = HostFmean.fT (m ((c : Thread nD τ).loc main_arg0)) := first_v0 (Gen.W0 m ρ c)
  have e1 : (Gen.W1 m ρ c (Proc.devRef .tc main_v1) : S4x65536x1.Idx → BitVec 32)
      = extractStridedSlice S4x65536x1 ![0, 0, 0] (m ((c : Thread nD τ).loc main_arg1)) slices_S4x65536x3_S4x65536x1_0_0_0 :=
    first_v1 (Gen.W0 m ρ c)
  have e2 : (Gen.W1 m ρ c (Proc.devRef .tc main_v2) : S4x65536x1.Idx → BitVec 32)
      = extractStridedSlice S4x65536x1 ![0, 0, 1] (m ((c : Thread nD τ).loc main_arg1)) slices_S4x65536x3_S4x65536x1_0_0_1 :=
    first_v2 (Gen.W0 m ρ c)
  have e3 : (Gen.W1 m ρ c (Proc.devRef .tc main_v3) : S4x65536x1.Idx → BitVec 32)
      = extractStridedSlice S4x65536x1 ![0, 0, 2] (m ((c : Thread nD τ).loc main_arg1)) slices_S4x65536x3_S4x65536x1_0_0_2 :=
    first_v3 (Gen.W0 m ρ c)
  -- the transposed features through the three calls
  have k2_0 : Gen.W2 m ρ c (Proc.devRef .tc main_v0) = Gen.W1 m ρ c (Proc.devRef .tc main_v0) := kept1_v0 _
  have k3_0 : Gen.W3 m ρ c (Proc.devRef .tc main_v0) = Gen.W1 m ρ c (Proc.devRef .tc main_v0) := (kept2_v0 _).trans k2_0
  have k4_0 : Gen.W4 m ρ c (Proc.devRef .tc main_v0) = Gen.W1 m ρ c (Proc.devRef .tc main_v0) := (kept3_v0 _).trans k3_0
  -- the slices up to the call that reads them
  have k2_2 : Gen.W2 m ρ c (Proc.devRef .tc main_v2) = Gen.W1 m ρ c (Proc.devRef .tc main_v2) := kept1_v2 _
  have k2_3 : Gen.W2 m ρ c (Proc.devRef .tc main_v3) = Gen.W1 m ρ c (Proc.devRef .tc main_v3) := kept1_v3 _
  have k3_3 : Gen.W3 m ρ c (Proc.devRef .tc main_v3) = Gen.W1 m ρ c (Proc.devRef .tc main_v3) := (kept2_v3 _).trans k2_3
  -- the three taken arrays
  have t4 : (Gen.W2 m ρ c (Proc.devRef .tc main_v4) : S4x65536x128.Idx → EReal)
      = KTake.take (HostFmean.fT (m ((c : Thread nD τ).loc main_arg0)))
          (extractStridedSlice S4x65536x1 ![0, 0, 0] (m ((c : Thread nD τ).loc main_arg1)) slices_S4x65536x3_S4x65536x1_0_0_0) := by
    refine (HostCalls.call0 (Gen.W1 m ρ c)).trans ?_
    rw [e0, e1]
  have t5 : (Gen.W3 m ρ c (Proc.devRef .tc main_v5) : S4x65536x128.Idx → EReal)
      = KTake.take (HostFmean.fT (m ((c : Thread nD τ).loc main_arg0)))
          (extractStridedSlice S4x65536x1 ![0, 0, 1] (m ((c : Thread nD τ).loc main_arg1)) slices_S4x65536x3_S4x65536x1_0_0_1) := by
    refine (HostCalls.call1 (Gen.W2 m ρ c)).trans ?_
    rw [k2_0, k2_2, e0, e2]
  have t6 : (Gen.W4 m ρ c (Proc.devRef .tc main_v6) : S4x65536x128.Idx → EReal)
      = KTake.take (HostFmean.fT (m ((c : Thread nD τ).loc main_arg0)))
          (extractStridedSlice S4x65536x1 ![0, 0, 2] (m ((c : Thread nD τ).loc main_arg1)) slices_S4x65536x3_S4x65536x1_0_0_2) := by
    refine (HostCalls.call2 (Gen.W3 m ρ c)).trans ?_
    rw [k3_0, k3_3, e0, e3]
  have k3_4 : Gen.W3 m ρ c (Proc.devRef .tc main_v4) = Gen.W2 m ρ c (Proc.devRef .tc main_v4) := kept2_v4 _
  have k4_4 : Gen.W4 m ρ c (Proc.devRef .tc main_v4) = Gen.W2 m ρ c (Proc.devRef .tc main_v4) := (kept3_v4 _).trans k3_4
  have k4_5 : Gen.W4 m ρ c (Proc.devRef .tc main_v5) = Gen.W3 m ρ c (Proc.devRef .tc main_v5) := kept3_v5 _
  refine (last_v12 (Gen.W4 m ρ c)).trans ?_
  rw [k4_0, k4_4, k4_5, t4, t5, t6, e0]
  rfl

/-- The averaged features at (b, n, c) when the first block loop is entered: the specification's
    neighbourhood mean. -/
theorem V5_fmean (c : Dev nD)
    (h0 : ∀ i, (m ((c : Thread nD τ).loc main_arg0) : S4x128x65536.Idx → EReal) i
      = (((m ((c : Thread nD τ).loc main_arg0) : S4x128x65536.Idx → EReal) i).toReal : EReal))
    (hring : ∀ i, 0 ≤ ((m ((c : Thread nD τ).loc main_arg1) : S4x65536x3.Idx → BitVec 32) i).toInt
      ∧ ((m ((c : Thread nD τ).loc main_arg1) : S4x65536x3.Idx → BitVec 32) i).toInt < 65536)
    (b : Fin 4) (n : Fin 65536) (cc : Fin 128) :
    (Gen.V5 m ρ c main_v12 : S4x65536x128.Idx → EReal) (ix3 b n cc)
      = ((Cert.Spec.fm (Cert.Spec.xR (m ((c : Thread nD τ).loc main_arg0) : S4x128x65536.Idx → EReal))
          (Cert.Spec.nbrOf (m ((c : Thread nD τ).loc main_arg1) : S4x65536x3.Idx → BitVec 32)) b n cc : ℝ) : EReal) :=
  (congrFun (V5_v12_eq m ρ c) _).trans (HostFmean.fmeanTerm_apply _ _ h0 hring b n cc)

end Chain

end Cert.KernelIdeal.HostV12

end
-- ==== Proof.PreFacts.lean ====
/-
  The precondition, decoded.

  The printed predicate is a conjunction of five "all" reductions: the absolute value of every entry of the four float
  arrays is below plus infinity, and every entry w of the integer array satisfies 0 ≤ w and w < 65536 as signed
  numbers. If the predicate's one bit is one, every conjunct is one, so every entry reduced over is one: an extended
  real whose absolute value is below the top element is a real number, hence equal to the reading of its real part, and
  the two signed comparisons give the range of an index word.
-/
import Idealize.ShloMosaic.Lib.ReduceAll
import Idealize.ShloMosaic.Lib.ValueIdx
import proofs.«102829_j74062416053231_2_alg».proof.Pre_finite_inputs
import proofs.«102829_j74062416053231_2_alg».proof.Proof.LibExtReal

noncomputable section

namespace Cert.PreFacts

open Idealize.ShloMosaic Cert.Pre_finite_inputs

/-- The scalar shape has one index. -/
instance : Subsingleton S_.Idx := ⟨fun a b => funext fun d => d.elim0⟩

/-- An extended real whose absolute value compares below the word of plus infinity is the reading of its real part. -/
theorem real_of_cmp {x : EReal}
    (h : Ideal.cmp .olt (max x (-x)) (Ideal.ofBits .f32 0x7F800000#32) = 1#1) : x = ((x.toReal : ℝ) : EReal) := by
  have hlt := Cert.LibExtReal.lt_of_cmp_olt h
  rw [Cert.LibExtReal.ofBits_inf] at hlt
  obtain ⟨y, hy⟩ := Cert.LibExtReal.real_of_abs_lt_top x hlt
  rw [hy, EReal.toReal_coe]

/-- A word that passes "0 ≤ w" and "w < 65536", signed, lies in [0, 65536). -/
theorem range_of_cmp {w : BitVec 32}
    (h : IntOp.andi (IntOp.cmpi .sge w 0#32) (IntOp.cmpi .slt w 65536#32) = 1#1) : 0 ≤ w.toInt ∧ w.toInt < 65536 := by
  obtain ⟨h0, h1⟩ := IntOp.andi_eq_one.1 h
  have e0 := IntOp.cmpi_sge.1 h0
  have e1 := IntOp.cmpi_slt.1 h1
  have z : (0#32 : BitVec 32).toInt = 0 := by decide
  have m : (65536#32 : BitVec 32).toInt = 65536 := by decide
  rw [z] at e0
  rw [m] at e1
  exact ⟨e0, e1⟩

variable [Cert.Pre_finite_inputs.Facts]

/-- If the precondition's bit is one, the four float arrays hold real numbers and the index array holds node
    numbers. -/
theorem decode (a0 : FVec Ideal ⟨3, ![4, 128, 65536]⟩ .f32) (a1 : IVec ⟨3, ![4, 65536, 3]⟩ 32)
    (a2 : FVec Ideal ⟨3, ![128, 128, 16]⟩ .f32) (a3 a4 : FVec Ideal ⟨1, ![128]⟩ .f32)
    (h : Cert.Pre_finite_inputs.fn (F := Ideal) a0 a1 a2 a3 a4 = fun _ => 1#1) :
    (∀ i, a0 i = ((a0 i).toReal : EReal)) ∧ (∀ i, a2 i = ((a2 i).toReal : EReal)) ∧
    (∀ i, a3 i = ((a3 i).toReal : EReal)) ∧ (∀ i, a4 i = ((a4 i).toReal : EReal)) ∧
    (∀ i, 0 ≤ (a1 i).toInt ∧ (a1 i).toInt < 65536) := by
  have e := congrFun h ValueIdx.ix0
  dsimp only [Cert.Pre_finite_inputs.fn, Cert.Pre_finite_inputs.fn_part1] at e
  obtain ⟨e18, e24⟩ := IntOp.andi_eq_one.1 e
  obtain ⟨e13, e17⟩ := IntOp.andi_eq_one.1 e18
  obtain ⟨e8, e12⟩ := IntOp.andi_eq_one.1 e13
  obtain ⟨e3, e7⟩ := IntOp.andi_eq_one.1 e8
  refine ⟨fun i => ?_, fun i => ?_, fun i => ?_, fun i => ?_, fun i => ?_⟩
  · exact real_of_cmp (x := a0 i) (Host.reduce_andi_all _ _ _ _ _ e3 i)
  · exact real_of_cmp (x := a2 i) (Host.reduce_andi_all _ _ _ _ _ e7 i)
  · exact real_of_cmp (x := a3 i) (Host.reduce_andi_all _ _ _ _ _ e12 i)
  · exact real_of_cmp (x := a4 i) (Host.reduce_andi_all _ _ _ _ _ e17 i)
  · exact range_of_cmp (w := a1 i) (Host.reduce_andi_all _ _ _ _ _ e24 i)

end Cert.PreFacts

end
-- ==== Proof.KValue.lean ====
import proofs.«102829_j74062416053231_2_alg».proof.Defs
import proofs.«102829_j74062416053231_2_alg».proof.Proof.KRun
import proofs.«102829_j74062416053231_2_alg».proof.Proof.KBridge
import proofs.«102829_j74062416053231_2_alg».proof.Proof.KHostMid
import proofs.«102829_j74062416053231_2_alg».proof.Proof.KHostPre
import proofs.«102829_j74062416053231_2_alg».proof.Proof.KHostChain
import proofs.«102829_j74062416053231_2_alg».proof.Proof.PreFacts
import proofs.«102829_j74062416053231_2_alg».proof.Proof.Spec

/-
  The kernel program's run, with its result at the specification.

  Under the precondition every float input is a real number and every neighbour id is a node number. The host lines
  before the first region then leave the averaged features and weights as the real numbers fm and wm, the lines between
  the regions the channel means and variances, and the second region writes the specification's value into the result
  buffer.
-/

noncomputable section

open Idealize.ShloMosaic Idealize.ShloMosaic.TcCoe Idealize.SL.Sem Idealize.ShloMosaic.ValueIdx

namespace Cert.KernelIdeal.KValue
open Cert.KernelIdeal Cert.KernelIdeal.Gen Cert.KernelIdeal.HostValue

variable [Cert.Pre_finite_inputs.Facts]

/-- What the result buffer holds after the run. -/
theorem result (m : (ℓ : Loc nD τ sig) → Buf (Elt Ideal) ℓ) (ρ : Dev nD → PrngReg) (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    W8 m ρ c (Proc.devRef .tc main_v26)
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨h0, h2, h3, h4, hring⟩ := Cert.PreFacts.decode _ _ _ _ _ h
  have hfm := fun b n cc => Cert.KernelIdeal.HostV12.V5_fmean m ρ c h0 hring b n cc
  have hwm := fun cc k => V5_wm m ρ c h2 cc k
  have hS1 := fun b t k => Cert.KernelIdeal.KBridge.sum1_eq m ρ c _ _ _ hfm hwm b t k
  have hS2 := fun b t k => Cert.KernelIdeal.KBridge.sum2_eq m ρ c _ _ _ hfm hwm b t k
  obtain ⟨kX, kg, kbe⟩ := V7_keep m ρ c
  exact Cert.KernelIdeal.KBridge.result_eq m ρ c _ _ _ _ _ hfm hwm kX kg kbe
    (fun k => V7_mu m ρ c hS1 k) (fun k => V7_var m ρ c hS1 hS2 k)

/-- The run: the result buffer at the specification, the arguments as launched. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v26)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r hr c => ⟨(hr c).1.trans (result m ρ c (hpre c)), (hr c).2⟩)
    (Cert.KernelIdeal.KRun.run_result (F := Ideal) m ρ)

end Cert.KernelIdeal.KValue

end
-- ==== Proof.RefStages.lean ====
/-
  The reference program's value, stage by stage.

  Each definition below is one named value of the reference program as a function of the five argument
  arrays: the pure function of the printed operation applied to the earlier stages.  Composing them in
  order gives the array the program returns, the last definition.
-/
import proofs.«102829_j74062416053231_2_alg».proof.ReferenceIdeal
import Idealize.ShloMosaic.PureOps.Ideal

noncomputable section

namespace Cert.ReferenceIdeal.RefStages

open Idealize.ShloMosaic Idealize.SL.Sem
open Cert.ReferenceIdeal Facts₀ Facts

variable [Cert.ReferenceIdeal.Facts]

/-! ## The features with the channel axis last, and the index column -/

/-- The features transposed to (batch, node, channel). -/
def fT (a0 : FVec Ideal S4x128x65536 .f32) : FVec Ideal S4x65536x128 .f32 :=
  transpose S4x65536x128 [0, 2, 1] a0 transposes_S4x128x65536_S4x65536x128_0_2_1

/-- The neighbour table as one column of 3 · 65536 rows per batch. -/
def idx (a1 : IVec S4x65536x3 32) : IVec S4x196608x1 32 :=
  shapeCast S4x196608x1 a1 shapeCasts_S4x65536x3_S4x196608x1

/-! ## Taking rows along the node axis -/

/-- Whether an index is negative. -/
def isNeg (a1 : IVec S4x65536x3 32) : IVec S4x196608x1 1 :=
  cmpi .slt (idx a1) (broadcastInDim S4x196608x1 ![] bcast_S_S4x196608x1 (constantI S_ 32 0#32))

/-- The index plus the axis length. -/
def shifted (a1 : IVec S4x65536x3 32) : IVec S4x196608x1 32 :=
  addi (idx a1) (broadcastInDim S4x196608x1 ![] bcast_S_S4x196608x1 (constantI S_ 32 65536#32))

/-- The wrapped index: a negative index counts from the end. -/
def wrapped (a1 : IVec S4x65536x3 32) : IVec S4x196608x1 32 :=
  select (isNeg a1) (shifted a1) (idx a1)

/-- The lower bound test on the wrapped index. -/
def geZero (a1 : IVec S4x65536x3 32) : IVec S4x196608x1 1 :=
  cmpi .sge (wrapped a1) (broadcastInDim S4x196608x1 ![] bcast_S_S4x196608x1 (constantI S_ 32 0#32))

/-- The largest admissible index, at the column's shape. -/
def upper : IVec S4x196608x1 32 :=
  broadcastInDim S4x196608x1 ![0, 1, 2] bcast_S1x1x1_S4x196608x1_0_1_2
    (broadcastInDim S1x1x1 ![2] bcast_S1_S1x1x1_2 (constantI S1 32 65535#32))

/-- The upper bound test on the wrapped index. -/
def leUpper (a1 : IVec S4x65536x3 32) : IVec S4x196608x1 1 :=
  cmpi .sle (wrapped a1) upper

/-- Both bound tests. -/
def inBounds (a1 : IVec S4x65536x3 32) : IVec S4x196608x1 1 :=
  andi (geZero a1) (leUpper a1)

/-- The mask: the conjunction of the bound tests over the unit index axis. -/
def mask (a1 : IVec S4x65536x3 32) : IVec S4x196608 1 :=
  Host.reduce IntOp.andi (inBounds a1) (constantI S_ 1 1#1) reducesTo_S4x196608x1_S4x196608_d2 h_S_

/-- The gathered rows. -/
def gathered (a0 : FVec Ideal S4x128x65536 .f32) (a1 : IVec S4x65536x3 32) : FVec Ideal S4x196608x128 .f32 :=
  Host.gather gather_S4x65536x128_S4x196608x1_S4x196608x128_2_1_0_0_1_2_11128 (fT a0) (wrapped a1)

/-- The mask at the gathered rows' shape. -/
def maskB (a1 : IVec S4x65536x3 32) : IVec S4x196608x128 1 :=
  broadcastInDim S4x196608x128 ![0, 1] bcast_S4x196608_S4x196608x128_0_1 (mask a1)

/-- The fill value of an out-of-range take. -/
def fill : FVec Ideal S4x196608x128 .f32 :=
  broadcastInDim S4x196608x128 ![] bcast_S_S4x196608x128 (constant (F := Ideal) S_ .f32 0x7FC00000#32)

/-- The taken rows: the gathered row where the index is in range, the fill value elsewhere. -/
def taken (a0 : FVec Ideal S4x128x65536 .f32) (a1 : IVec S4x65536x3 32) : FVec Ideal S4x196608x128 .f32 :=
  select (maskB a1) (gathered a0 a1) fill

/-! ## The neighbourhood mean -/

/-- The taken rows as (batch, node, neighbour, channel). -/
def taken4 (a0 : FVec Ideal S4x128x65536 .f32) (a1 : IVec S4x65536x3 32) : FVec Ideal S4x65536x3x128 .f32 :=
  shapeCast S4x65536x3x128 (taken a0 a1) shapeCasts_S4x196608x128_S4x65536x3x128

/-- The sum of the three neighbours' rows. -/
def nsum (a0 : FVec Ideal S4x128x65536 .f32) (a1 : IVec S4x65536x3 32) : FVec Ideal S4x65536x128 .f32 :=
  Host.reduceAdd (F := Ideal) (taken4 a0 a1) (constant (F := Ideal) S_ .f32 0x00000000#32)
    reducesTo_S4x65536x3x128_S4x65536x128_d2 h_S_

/-- The neighbours' sum plus the node's own row. -/
def fsum (a0 : FVec Ideal S4x128x65536 .f32) (a1 : IVec S4x65536x3 32) : FVec Ideal S4x65536x128 .f32 :=
  addf (nsum a0 a1) (fT a0)

/-- The mean over the node and its three neighbours. -/
def fmean (a0 : FVec Ideal S4x128x65536 .f32) (a1 : IVec S4x65536x3 32) : FVec Ideal S4x65536x128 .f32 :=
  Host.divf (fsum a0 a1)
    (broadcastInDim S4x65536x128 ![] bcast_S_S4x65536x128 (constant (F := Ideal) S_ .f32 0x40800000#32))

/-! ## The mean weight matrix and the contraction -/

/-- The sum of the sixteen weight matrices. -/
def wsum (a2 : FVec Ideal S128x128x16 .f32) : FVec Ideal S128x128 .f32 :=
  Host.reduceAdd (F := Ideal) a2 (constant (F := Ideal) S_ .f32 0x00000000#32)
    reducesTo_S128x128x16_S128x128_d2 h_S_

/-- The mean of the sixteen weight matrices. -/
def wmean (a2 : FVec Ideal S128x128x16 .f32) : FVec Ideal S128x128 .f32 :=
  Host.divf (wsum a2)
    (broadcastInDim S128x128 ![] bcast_S_S128x128 (constant (F := Ideal) S_ .f32 0x41800000#32))

/-- The convolved feature. -/
def feat (a0 : FVec Ideal S4x128x65536 .f32) (a1 : IVec S4x65536x3 32) (a2 : FVec Ideal S128x128x16 .f32) :
    FVec Ideal S4x65536x128 .f32 :=
  Host.dotGeneral (F := Ideal) dot_S4x65536x128_S128x128_S4x65536x128_2_0_01_1_n_n none (fmean a0 a1) (wmean a2)

/-! ## The channel statistics -/

/-- A channel's sum over every batch and node. -/
def featSum (a0 : FVec Ideal S4x128x65536 .f32) (a1 : IVec S4x65536x3 32) (a2 : FVec Ideal S128x128x16 .f32) :
    FVec Ideal S128 .f32 :=
  Host.reduceAdd (F := Ideal) (feat a0 a1 a2) (constant (F := Ideal) S_ .f32 0x00000000#32)
    reducesTo_S4x65536x128_S128_d0_1 h_S_

/-- A channel's mean. -/
def mu (a0 : FVec Ideal S4x128x65536 .f32) (a1 : IVec S4x65536x3 32) (a2 : FVec Ideal S128x128x16 .f32) :
    FVec Ideal S128 .f32 :=
  Host.divf (featSum a0 a1 a2)
    (broadcastInDim S128 ![] bcast_S_S128 (constant (F := Ideal) S_ .f32 0x48800000#32))

/-- The mean taken inside the variance, as a row. -/
def vmeanRow (a0 : FVec Ideal S4x128x65536 .f32) (a1 : IVec S4x65536x3 32) (a2 : FVec Ideal S128x128x16 .f32) :
    FVec Ideal S1x1x128 .f32 :=
  Host.divf
    (broadcastInDim S1x1x128 ![2] bcast_S128_S1x1x128_2
      (Host.reduceAdd (F := Ideal) (feat a0 a1 a2) (constant (F := Ideal) S_ .f32 0x00000000#32)
        reducesTo_S4x65536x128_S128_d0_1 h_S_))
    (broadcastInDim S1x1x128 ![] bcast_S_S1x1x128 (constant (F := Ideal) S_ .f32 0x48800000#32))

/-- The deviation from the mean. -/
def dev (a0 : FVec Ideal S4x128x65536 .f32) (a1 : IVec S4x65536x3 32) (a2 : FVec Ideal S128x128x16 .f32) :
    FVec Ideal S4x65536x128 .f32 :=
  subf (feat a0 a1 a2)
    (broadcastInDim S4x65536x128 ![0, 1, 2] bcast_S1x1x128_S4x65536x128_0_1_2 (vmeanRow a0 a1 a2))

/-- The squared deviation. -/
def sq (a0 : FVec Ideal S4x128x65536 .f32) (a1 : IVec S4x65536x3 32) (a2 : FVec Ideal S128x128x16 .f32) :
    FVec Ideal S4x65536x128 .f32 :=
  mulf (dev a0 a1 a2) (dev a0 a1 a2)

/-- The divisor of the variance: the count less the degrees of freedom removed (none). -/
def cntf : FVec Ideal S_ .f32 :=
  subf (constant (F := Ideal) S_ .f32 0x48800000#32) (sitofp (F := Ideal) .f32 (constantI S_ 32 0#32))

/-- A channel's sum of squared deviations. -/
def sqSum (a0 : FVec Ideal S4x128x65536 .f32) (a1 : IVec S4x65536x3 32) (a2 : FVec Ideal S128x128x16 .f32) :
    FVec Ideal S128 .f32 :=
  Host.reduceAdd (F := Ideal) (sq a0 a1 a2) (constant (F := Ideal) S_ .f32 0x00000000#32)
    reducesTo_S4x65536x128_S128_d0_1 h_S_

/-- The mean squared deviation. -/
def varRaw (a0 : FVec Ideal S4x128x65536 .f32) (a1 : IVec S4x65536x3 32) (a2 : FVec Ideal S128x128x16 .f32) :
    FVec Ideal S128 .f32 :=
  Host.divf (sqSum a0 a1 a2) (broadcastInDim S128 ![] bcast_S_S128 cntf)

/-- Whether the divisor is positive. -/
def varCond : IVec S_ 1 :=
  cmpf .ogt cntf (constant (F := Ideal) S_ .f32 0x00000000#32)

/-- A channel's variance: the mean squared deviation where the divisor is positive. -/
def var (a0 : FVec Ideal S4x128x65536 .f32) (a1 : IVec S4x65536x3 32) (a2 : FVec Ideal S128x128x16 .f32) :
    FVec Ideal S128 .f32 :=
  select (broadcastInDim S128 ![] bcast_S_S128 varCond) (varRaw a0 a1 a2)
    (broadcastInDim S128 ![] bcast_S_S128 (id (constant (F := Ideal) S_ .f32 0x7FC00000#32)))

/-! ## Normalisation, scale, shift and rectifier -/

/-- The feature less its channel's mean. -/
def cen (a0 : FVec Ideal S4x128x65536 .f32) (a1 : IVec S4x65536x3 32) (a2 : FVec Ideal S128x128x16 .f32) :
    FVec Ideal S4x65536x128 .f32 :=
  subf (feat a0 a1 a2)
    (broadcastInDim S4x65536x128 ![0, 1, 2] bcast_S1x1x128_S4x65536x128_0_1_2
      (broadcastInDim S1x1x128 ![2] bcast_S128_S1x1x128_2 (mu a0 a1 a2)))

/-- The variance plus the noise floor. -/
def varEps (a0 : FVec Ideal S4x128x65536 .f32) (a1 : IVec S4x65536x3 32) (a2 : FVec Ideal S128x128x16 .f32) :
    FVec Ideal S128 .f32 :=
  addf (var a0 a1 a2) (broadcastInDim S128 ![] bcast_S_S128 (constant (F := Ideal) S_ .f32 0x3727C5AC#32))

/-- The reciprocal standard deviation. -/
def rstd (a0 : FVec Ideal S4x128x65536 .f32) (a1 : IVec S4x65536x3 32) (a2 : FVec Ideal S128x128x16 .f32) :
    FVec Ideal S128 .f32 :=
  Host.rsqrt (F := Ideal) (varEps a0 a1 a2)

/-- The normalised feature. -/
def normed (a0 : FVec Ideal S4x128x65536 .f32) (a1 : IVec S4x65536x3 32) (a2 : FVec Ideal S128x128x16 .f32) :
    FVec Ideal S4x65536x128 .f32 :=
  mulf (cen a0 a1 a2)
    (broadcastInDim S4x65536x128 ![0, 1, 2] bcast_S1x1x128_S4x65536x128_0_1_2
      (broadcastInDim S1x1x128 ![2] bcast_S128_S1x1x128_2 (rstd a0 a1 a2)))

/-- The normalised feature times the scale. -/
def scaled (a0 : FVec Ideal S4x128x65536 .f32) (a1 : IVec S4x65536x3 32) (a2 : FVec Ideal S128x128x16 .f32)
    (a3 : FVec Ideal S128 .f32) : FVec Ideal S4x65536x128 .f32 :=
  mulf (normed a0 a1 a2)
    (broadcastInDim S4x65536x128 ![0, 1, 2] bcast_S1x1x128_S4x65536x128_0_1_2
      (broadcastInDim S1x1x128 ![2] bcast_S128_S1x1x128_2 a3))

/-- The value before the rectifier. -/
def pre (a0 : FVec Ideal S4x128x65536 .f32) (a1 : IVec S4x65536x3 32) (a2 : FVec Ideal S128x128x16 .f32)
    (a3 a4 : FVec Ideal S128 .f32) : FVec Ideal S4x65536x128 .f32 :=
  addf (scaled a0 a1 a2 a3)
    (broadcastInDim S4x65536x128 ![0, 1, 2] bcast_S1x1x128_S4x65536x128_0_1_2
      (broadcastInDim S1x1x128 ![2] bcast_S128_S1x1x128_2 a4))

/-- The rectified value. -/
def rect (a0 : FVec Ideal S4x128x65536 .f32) (a1 : IVec S4x65536x3 32) (a2 : FVec Ideal S128x128x16 .f32)
    (a3 a4 : FVec Ideal S128 .f32) : FVec Ideal S4x65536x128 .f32 :=
  maximumf (pre a0 a1 a2 a3 a4)
    (broadcastInDim S4x65536x128 ![] bcast_S_S4x65536x128 (constant (F := Ideal) S_ .f32 0x00000000#32))

/-- The result: the rectified value transposed back to (batch, channel, node). -/
def res (a0 : FVec Ideal S4x128x65536 .f32) (a1 : IVec S4x65536x3 32) (a2 : FVec Ideal S128x128x16 .f32)
    (a3 a4 : FVec Ideal S128 .f32) : FVec Ideal S4x128x65536 .f32 :=
  transpose S4x128x65536 [0, 2, 1] (rect a0 a1 a2 a3 a4) transposes_S4x65536x128_S4x128x65536_0_2_1

end Cert.ReferenceIdeal.RefStages

end
-- ==== Proof.RefRun.lean ====
import proofs.«102829_j74062416053231_2_alg».proof.Proof.Gen.ReferenceIdeal
import Idealize.ShloMosaic.Lib.StableHlo.Run
import Idealize.ShloMosaic.Lib.Pipeline.Frame
import proofs.«102829_j74062416053231_2_alg».proof.Proof.RefStages

/-!
  The reference program's run.

  The reference is a straight line of eighty-five tensor operations once its three outlined functions (the
  neighbour gather, the per-channel variance with its inner select, the rectifier) are written out at their
  call sites over the buffers each call names.  The line is cut into four stretches: the gather of the
  neighbour rows; the neighbourhood mean contracted with the averaged weights; the two per-channel
  statistics; the normalisation, the rectifier and the final transpose.  After each stretch the buffers still
  needed are read off as pure terms of the buffers the stretch started from, and the four readings compose
  to the whole result as one pure term of the five argument arrays.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The neighbour gather: the transpose of the features, the flattened neighbour table, and the take along the node axis with its wrap of negative indices, its bounds mask and its select against the not-a-number constant. -/
abbrev ops1 : List (HloOp τ sig (Elt F)) :=
  [ unary main_arg0 main_v0 ((transpose S4x65536x128 [0, 2, 1] · transposes_S4x128x65536_S4x65536x128_0_2_1) : (⟨S4x128x65536, .f32⟩ : BufTy).Contents (Elt F) → (⟨S4x65536x128, .f32⟩ : BufTy).Contents (Elt F)),
    reshape main_arg1 main_v1 rfl shapeCasts_S4x65536x3_S4x196608x1,
    TRef.nullary main_call0.c (constantI S_ 32 0#32),
    TRef.unary main_call0.c main_call0.v0 (broadcastInDim S4x196608x1 ![] bcast_S_S4x196608x1),
    TRef.binary (.of main_v1) main_call0.v0 main_call0.v1 (cmpi .slt),
    TRef.nullary main_call0.c_0 (constantI S_ 32 65536#32),
    TRef.unary main_call0.c_0 main_call0.v2 (broadcastInDim S4x196608x1 ![] bcast_S_S4x196608x1),
    TRef.binary (.of main_v1) main_call0.v2 main_call0.v3 addi,
    TRef.ternary main_call0.v1 main_call0.v3 (.of main_v1) main_call0.v4 select,
    TRef.nullary main_call0.c_1 (constantI S1 32 65535#32),
    TRef.nullary main_call0.c_2 (constantI S_ 32 0#32),
    TRef.unary main_call0.c_2 main_call0.v5 (broadcastInDim S4x196608x1 ![] bcast_S_S4x196608x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S4x196608x1 ![0, 1, 2] bcast_S1x1x1_S4x196608x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S4x196608x1_S4x196608_d2 h_S_),
    TRef.binary (.of main_v0) main_call0.v4 main_call0.v12 (fun x i => Host.gather gather_S4x65536x128_S4x196608x1_S4x196608x128_2_1_0_0_1_2_11128 x i),
    TRef.unary main_call0.v11 main_call0.v13 (broadcastInDim S4x196608x128 ![0, 1] bcast_S4x196608_S4x196608x128_0_1),
    TRef.nullary main_call0.cst (constant S_ .f32 0x7FC00000#32),
    TRef.unary main_call0.cst main_call0.v14 (broadcastInDim S4x196608x128 ![] bcast_S_S4x196608x128),
    TRef.ternary main_call0.v13 main_call0.v12 main_call0.v14 main_call0.v15 select ]

/-- The neighbourhood mean and the convolution: the three gathered rows summed, the node's own row added, the division by four; the weights averaged over their last axis; the contraction. -/
abbrev ops2 : List (HloOp τ sig (Elt F)) :=
  [ reshape main_v2 main_v3 rfl shapeCasts_S4x196608x128_S4x65536x3x128,
    nullary main_cst (constant S_ .f32 0x00000000#32),
    binary main_v3 main_cst main_v4 ((fun x v => Host.reduceAdd x v reducesTo_S4x65536x3x128_S4x65536x128_d2 h_S_) : (⟨S4x65536x3x128, .f32⟩ : BufTy).Contents (Elt F) → (⟨S_, .f32⟩ : BufTy).Contents (Elt F) → (⟨S4x65536x128, .f32⟩ : BufTy).Contents (Elt F)),
    binary main_v4 main_v0 main_v5 (addf : (⟨S4x65536x128, .f32⟩ : BufTy).Contents (Elt F) → (⟨S4x65536x128, .f32⟩ : BufTy).Contents (Elt F) → (⟨S4x65536x128, .f32⟩ : BufTy).Contents (Elt F)),
    nullary main_cst_0 (constant S_ .f32 0x40800000#32),
    unary main_cst_0 main_v6 (broadcastInDim S4x65536x128 ![] bcast_S_S4x65536x128 : (⟨S_, .f32⟩ : BufTy).Contents (Elt F) → (⟨S4x65536x128, .f32⟩ : BufTy).Contents (Elt F)),
    binary main_v5 main_v6 main_v7 (Host.divf : (⟨S4x65536x128, .f32⟩ : BufTy).Contents (Elt F) → (⟨S4x65536x128, .f32⟩ : BufTy).Contents (Elt F) → (⟨S4x65536x128, .f32⟩ : BufTy).Contents (Elt F)),
    nullary main_cst_1 (constant S_ .f32 0x00000000#32),
    binary main_arg2 main_cst_1 main_v8 ((fun x v => Host.reduceAdd x v reducesTo_S128x128x16_S128x128_d2 h_S_) : (⟨S128x128x16, .f32⟩ : BufTy).Contents (Elt F) → (⟨S_, .f32⟩ : BufTy).Contents (Elt F) → (⟨S128x128, .f32⟩ : BufTy).Contents (Elt F)),
    nullary main_cst_2 (constant S_ .f32 0x41800000#32),
    unary main_cst_2 main_v9 (broadcastInDim S128x128 ![] bcast_S_S128x128 : (⟨S_, .f32⟩ : BufTy).Contents (Elt F) → (⟨S128x128, .f32⟩ : BufTy).Contents (Elt F)),
    binary main_v8 main_v9 main_v10 (Host.divf : (⟨S128x128, .f32⟩ : BufTy).Contents (Elt F) → (⟨S128x128, .f32⟩ : BufTy).Contents (Elt F) → (⟨S128x128, .f32⟩ : BufTy).Contents (Elt F)),
    binary main_v7 main_v10 main_v11 ((fun l r => Host.dotGeneral dot_S4x65536x128_S128x128_S4x65536x128_2_0_01_1_n_n none l r) : (⟨S4x65536x128, .f32⟩ : BufTy).Contents (Elt F) → (⟨S128x128, .f32⟩ : BufTy).Contents (Elt F) → (⟨S4x65536x128, .f32⟩ : BufTy).Contents (Elt F)) ]

/-- The per-channel statistics: the mean, and the variance as the mean squared deviation with its guarded divisor. -/
abbrev ops3 : List (HloOp τ sig (Elt F)) :=
  [ nullary main_cst_3 (constant S_ .f32 0x00000000#32),
    binary main_v11 main_cst_3 main_v12 ((fun x v => Host.reduceAdd x v reducesTo_S4x65536x128_S128_d0_1 h_S_) : (⟨S4x65536x128, .f32⟩ : BufTy).Contents (Elt F) → (⟨S_, .f32⟩ : BufTy).Contents (Elt F) → (⟨S128, .f32⟩ : BufTy).Contents (Elt F)),
    nullary main_cst_4 (constant S_ .f32 0x48800000#32),
    unary main_cst_4 main_v13 (broadcastInDim S128 ![] bcast_S_S128 : (⟨S_, .f32⟩ : BufTy).Contents (Elt F) → (⟨S128, .f32⟩ : BufTy).Contents (Elt F)),
    binary main_v12 main_v13 main_v14 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call1.cst (constant S_ .f32 0x00000000#32),
    TRef.binary (.of main_v11) main_call1.cst main_call1.v0 (fun x v => Host.reduceAdd x v reducesTo_S4x65536x128_S128_d0_1 h_S_),
    TRef.unary main_call1.v0 main_call1.v1 (broadcastInDim S1x1x128 ![2] bcast_S128_S1x1x128_2),
    TRef.nullary main_call1.cst_0 (constant S_ .f32 0x48800000#32),
    TRef.unary main_call1.cst_0 main_call1.v2 (broadcastInDim S1x1x128 ![] bcast_S_S1x1x128),
    TRef.binary main_call1.v1 main_call1.v2 main_call1.v3 Host.divf,
    TRef.unary main_call1.v3 main_call1.v4 (broadcastInDim S4x65536x128 ![0, 1, 2] bcast_S1x1x128_S4x65536x128_0_1_2),
    TRef.binary (.of main_v11) main_call1.v4 main_call1.v5 subf,
    TRef.binary main_call1.v5 main_call1.v5 main_call1.v6 mulf,
    TRef.unary (.of main_c) main_call1.v7 (sitofp .f32),
    TRef.nullary main_call1.cst_1 (constant S_ .f32 0x48800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x65536x128_S128_d0_1 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- The normalisation, scale and shift, the rectifier and the transpose back. -/
abbrev ops4 : List (HloOp τ sig (Elt F)) :=
  [ unary main_v14 main_v16 (broadcastInDim S1x1x128 ![2] bcast_S128_S1x1x128_2 : (⟨S128, .f32⟩ : BufTy).Contents (Elt F) → (⟨S1x1x128, .f32⟩ : BufTy).Contents (Elt F)),
    unary main_v16 main_v17 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v11 main_v17 main_v18 (subf : (⟨S4x65536x128, .f32⟩ : BufTy).Contents (Elt F) → (⟨S4x65536x128, .f32⟩ : BufTy).Contents (Elt F) → (⟨S4x65536x128, .f32⟩ : BufTy).Contents (Elt F)),
    nullary main_cst_5 (constant S_ .f32 0x3727C5AC#32),
    unary main_cst_5 main_v19 (broadcastInDim S128 ![] bcast_S_S128 : (⟨S_, .f32⟩ : BufTy).Contents (Elt F) → (⟨S128, .f32⟩ : BufTy).Contents (Elt F)),
    binary main_v15 main_v19 main_v20 (addf : (⟨S128, .f32⟩ : BufTy).Contents (Elt F) → (⟨S128, .f32⟩ : BufTy).Contents (Elt F) → (⟨S128, .f32⟩ : BufTy).Contents (Elt F)),
    unary main_v20 main_v21 (Host.rsqrt : (⟨S128, .f32⟩ : BufTy).Contents (Elt F) → (⟨S128, .f32⟩ : BufTy).Contents (Elt F)),
    unary main_v21 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v18 main_v23 main_v24 (mulf : (⟨S4x65536x128, .f32⟩ : BufTy).Contents (Elt F) → (⟨S4x65536x128, .f32⟩ : BufTy).Contents (Elt F) → (⟨S4x65536x128, .f32⟩ : BufTy).Contents (Elt F)),
    unary main_arg3 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v24 main_v26 main_v27 (mulf : (⟨S4x65536x128, .f32⟩ : BufTy).Contents (Elt F) → (⟨S4x65536x128, .f32⟩ : BufTy).Contents (Elt F) → (⟨S4x65536x128, .f32⟩ : BufTy).Contents (Elt F)),
    unary main_arg4 main_v28 (broadcastInDim S1x1x128 ![2] bcast_S128_S1x1x128_2 : (⟨S128, .f32⟩ : BufTy).Contents (Elt F) → (⟨S1x1x128, .f32⟩ : BufTy).Contents (Elt F)),
    unary main_v28 main_v29 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v27 main_v29 main_v30 (addf : (⟨S4x65536x128, .f32⟩ : BufTy).Contents (Elt F) → (⟨S4x65536x128, .f32⟩ : BufTy).Contents (Elt F) → (⟨S4x65536x128, .f32⟩ : BufTy).Contents (Elt F)),
    TRef.nullary main_call2.cst (constant S_ .f32 0x00000000#32),
    TRef.unary main_call2.cst main_call2.v0 (broadcastInDim S4x65536x128 ![] bcast_S_S4x65536x128),
    TRef.binary (.of main_v30) main_call2.v0 main_call2.v1 maximumf,
    unary main_v31 main_v32 ((transpose S4x128x65536 [0, 2, 1] · transposes_S4x65536x128_S4x128x65536_0_2_1) : (⟨S4x65536x128, .f32⟩ : BufTy).Contents (Elt F) → (⟨S4x128x65536, .f32⟩ : BufTy).Contents (Elt F)) ]

/-- The reference's eighty-five operations, in order, the outlined functions written out at their calls. -/
abbrev ops : List (HloOp τ sig (Elt F)) :=
  [ unary main_arg0 main_v0 ((transpose S4x65536x128 [0, 2, 1] · transposes_S4x128x65536_S4x65536x128_0_2_1) : (⟨S4x128x65536, .f32⟩ : BufTy).Contents (Elt F) → (⟨S4x65536x128, .f32⟩ : BufTy).Contents (Elt F)),
    reshape main_arg1 main_v1 rfl shapeCasts_S4x65536x3_S4x196608x1,
    TRef.nullary main_call0.c (constantI S_ 32 0#32),
    TRef.unary main_call0.c main_call0.v0 (broadcastInDim S4x196608x1 ![] bcast_S_S4x196608x1),
    TRef.binary (.of main_v1) main_call0.v0 main_call0.v1 (cmpi .slt),
    TRef.nullary main_call0.c_0 (constantI S_ 32 65536#32),
    TRef.unary main_call0.c_0 main_call0.v2 (broadcastInDim S4x196608x1 ![] bcast_S_S4x196608x1),
    TRef.binary (.of main_v1) main_call0.v2 main_call0.v3 addi,
    TRef.ternary main_call0.v1 main_call0.v3 (.of main_v1) main_call0.v4 select,
    TRef.nullary main_call0.c_1 (constantI S1 32 65535#32),
    TRef.nullary main_call0.c_2 (constantI S_ 32 0#32),
    TRef.unary main_call0.c_2 main_call0.v5 (broadcastInDim S4x196608x1 ![] bcast_S_S4x196608x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S4x196608x1 ![0, 1, 2] bcast_S1x1x1_S4x196608x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S4x196608x1_S4x196608_d2 h_S_),
    TRef.binary (.of main_v0) main_call0.v4 main_call0.v12 (fun x i => Host.gather gather_S4x65536x128_S4x196608x1_S4x196608x128_2_1_0_0_1_2_11128 x i),
    TRef.unary main_call0.v11 main_call0.v13 (broadcastInDim S4x196608x128 ![0, 1] bcast_S4x196608_S4x196608x128_0_1),
    TRef.nullary main_call0.cst (constant S_ .f32 0x7FC00000#32),
    TRef.unary main_call0.cst main_call0.v14 (broadcastInDim S4x196608x128 ![] bcast_S_S4x196608x128),
    TRef.ternary main_call0.v13 main_call0.v12 main_call0.v14 main_call0.v15 select,
    reshape main_v2 main_v3 rfl shapeCasts_S4x196608x128_S4x65536x3x128,
    nullary main_cst (constant S_ .f32 0x00000000#32),
    binary main_v3 main_cst main_v4 ((fun x v => Host.reduceAdd x v reducesTo_S4x65536x3x128_S4x65536x128_d2 h_S_) : (⟨S4x65536x3x128, .f32⟩ : BufTy).Contents (Elt F) → (⟨S_, .f32⟩ : BufTy).Contents (Elt F) → (⟨S4x65536x128, .f32⟩ : BufTy).Contents (Elt F)),
    binary main_v4 main_v0 main_v5 (addf : (⟨S4x65536x128, .f32⟩ : BufTy).Contents (Elt F) → (⟨S4x65536x128, .f32⟩ : BufTy).Contents (Elt F) → (⟨S4x65536x128, .f32⟩ : BufTy).Contents (Elt F)),
    nullary main_cst_0 (constant S_ .f32 0x40800000#32),
    unary main_cst_0 main_v6 (broadcastInDim S4x65536x128 ![] bcast_S_S4x65536x128 : (⟨S_, .f32⟩ : BufTy).Contents (Elt F) → (⟨S4x65536x128, .f32⟩ : BufTy).Contents (Elt F)),
    binary main_v5 main_v6 main_v7 (Host.divf : (⟨S4x65536x128, .f32⟩ : BufTy).Contents (Elt F) → (⟨S4x65536x128, .f32⟩ : BufTy).Contents (Elt F) → (⟨S4x65536x128, .f32⟩ : BufTy).Contents (Elt F)),
    nullary main_cst_1 (constant S_ .f32 0x00000000#32),
    binary main_arg2 main_cst_1 main_v8 ((fun x v => Host.reduceAdd x v reducesTo_S128x128x16_S128x128_d2 h_S_) : (⟨S128x128x16, .f32⟩ : BufTy).Contents (Elt F) → (⟨S_, .f32⟩ : BufTy).Contents (Elt F) → (⟨S128x128, .f32⟩ : BufTy).Contents (Elt F)),
    nullary main_cst_2 (constant S_ .f32 0x41800000#32),
    unary main_cst_2 main_v9 (broadcastInDim S128x128 ![] bcast_S_S128x128 : (⟨S_, .f32⟩ : BufTy).Contents (Elt F) → (⟨S128x128, .f32⟩ : BufTy).Contents (Elt F)),
    binary main_v8 main_v9 main_v10 (Host.divf : (⟨S128x128, .f32⟩ : BufTy).Contents (Elt F) → (⟨S128x128, .f32⟩ : BufTy).Contents (Elt F) → (⟨S128x128, .f32⟩ : BufTy).Contents (Elt F)),
    binary main_v7 main_v10 main_v11 ((fun l r => Host.dotGeneral dot_S4x65536x128_S128x128_S4x65536x128_2_0_01_1_n_n none l r) : (⟨S4x65536x128, .f32⟩ : BufTy).Contents (Elt F) → (⟨S128x128, .f32⟩ : BufTy).Contents (Elt F) → (⟨S4x65536x128, .f32⟩ : BufTy).Contents (Elt F)),
    nullary main_cst_3 (constant S_ .f32 0x00000000#32),
    binary main_v11 main_cst_3 main_v12 ((fun x v => Host.reduceAdd x v reducesTo_S4x65536x128_S128_d0_1 h_S_) : (⟨S4x65536x128, .f32⟩ : BufTy).Contents (Elt F) → (⟨S_, .f32⟩ : BufTy).Contents (Elt F) → (⟨S128, .f32⟩ : BufTy).Contents (Elt F)),
    nullary main_cst_4 (constant S_ .f32 0x48800000#32),
    unary main_cst_4 main_v13 (broadcastInDim S128 ![] bcast_S_S128 : (⟨S_, .f32⟩ : BufTy).Contents (Elt F) → (⟨S128, .f32⟩ : BufTy).Contents (Elt F)),
    binary main_v12 main_v13 main_v14 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call1.cst (constant S_ .f32 0x00000000#32),
    TRef.binary (.of main_v11) main_call1.cst main_call1.v0 (fun x v => Host.reduceAdd x v reducesTo_S4x65536x128_S128_d0_1 h_S_),
    TRef.unary main_call1.v0 main_call1.v1 (broadcastInDim S1x1x128 ![2] bcast_S128_S1x1x128_2),
    TRef.nullary main_call1.cst_0 (constant S_ .f32 0x48800000#32),
    TRef.unary main_call1.cst_0 main_call1.v2 (broadcastInDim S1x1x128 ![] bcast_S_S1x1x128),
    TRef.binary main_call1.v1 main_call1.v2 main_call1.v3 Host.divf,
    TRef.unary main_call1.v3 main_call1.v4 (broadcastInDim S4x65536x128 ![0, 1, 2] bcast_S1x1x128_S4x65536x128_0_1_2),
    TRef.binary (.of main_v11) main_call1.v4 main_call1.v5 subf,
    TRef.binary main_call1.v5 main_call1.v5 main_call1.v6 mulf,
    TRef.unary (.of main_c) main_call1.v7 (sitofp .f32),
    TRef.nullary main_call1.cst_1 (constant S_ .f32 0x48800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x65536x128_S128_d0_1 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v14 main_v16 (broadcastInDim S1x1x128 ![2] bcast_S128_S1x1x128_2 : (⟨S128, .f32⟩ : BufTy).Contents (Elt F) → (⟨S1x1x128, .f32⟩ : BufTy).Contents (Elt F)),
    unary main_v16 main_v17 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v11 main_v17 main_v18 (subf : (⟨S4x65536x128, .f32⟩ : BufTy).Contents (Elt F) → (⟨S4x65536x128, .f32⟩ : BufTy).Contents (Elt F) → (⟨S4x65536x128, .f32⟩ : BufTy).Contents (Elt F)),
    nullary main_cst_5 (constant S_ .f32 0x3727C5AC#32),
    unary main_cst_5 main_v19 (broadcastInDim S128 ![] bcast_S_S128 : (⟨S_, .f32⟩ : BufTy).Contents (Elt F) → (⟨S128, .f32⟩ : BufTy).Contents (Elt F)),
    binary main_v15 main_v19 main_v20 (addf : (⟨S128, .f32⟩ : BufTy).Contents (Elt F) → (⟨S128, .f32⟩ : BufTy).Contents (Elt F) → (⟨S128, .f32⟩ : BufTy).Contents (Elt F)),
    unary main_v20 main_v21 (Host.rsqrt : (⟨S128, .f32⟩ : BufTy).Contents (Elt F) → (⟨S128, .f32⟩ : BufTy).Contents (Elt F)),
    unary main_v21 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v18 main_v23 main_v24 (mulf : (⟨S4x65536x128, .f32⟩ : BufTy).Contents (Elt F) → (⟨S4x65536x128, .f32⟩ : BufTy).Contents (Elt F) → (⟨S4x65536x128, .f32⟩ : BufTy).Contents (Elt F)),
    unary main_arg3 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v24 main_v26 main_v27 (mulf : (⟨S4x65536x128, .f32⟩ : BufTy).Contents (Elt F) → (⟨S4x65536x128, .f32⟩ : BufTy).Contents (Elt F) → (⟨S4x65536x128, .f32⟩ : BufTy).Contents (Elt F)),
    unary main_arg4 main_v28 (broadcastInDim S1x1x128 ![2] bcast_S128_S1x1x128_2 : (⟨S128, .f32⟩ : BufTy).Contents (Elt F) → (⟨S1x1x128, .f32⟩ : BufTy).Contents (Elt F)),
    unary main_v28 main_v29 (broadcastInDim S4x65536x128 ![0, 1, 2] bcast_S1x1x128_S4x65536x128_0_1_2 : (⟨S1x1x128, .f32⟩ : BufTy).Contents (Elt F) → (⟨S4x65536x128, .f32⟩ : BufTy).Contents (Elt F)),
    binary main_v27 main_v29 main_v30 (addf : (⟨S4x65536x128, .f32⟩ : BufTy).Contents (Elt F) → (⟨S4x65536x128, .f32⟩ : BufTy).Contents (Elt F) → (⟨S4x65536x128, .f32⟩ : BufTy).Contents (Elt F)),
    TRef.nullary main_call2.cst (constant S_ .f32 0x00000000#32),
    TRef.unary main_call2.cst main_call2.v0 (broadcastInDim S4x65536x128 ![] bcast_S_S4x65536x128),
    TRef.binary (.of main_v30) main_call2.v0 main_call2.v1 maximumf,
    unary main_v31 main_v32 ((transpose S4x128x65536 [0, 2, 1] · transposes_S4x65536x128_S4x128x65536_0_2_1) : (⟨S4x65536x128, .f32⟩ : BufTy).Contents (Elt F) → (⟨S4x128x65536, .f32⟩ : BufTy).Contents (Elt F)) ]

theorem ops_split : (ops : List (HloOp τ sig (Elt F))) = ops1 ++ (ops2 ++ (ops3 ++ ops4)) := rfl

set_option maxHeartbeats 4000000 in
set_option maxRecDepth 8192 in
/-- The program is that straight line: the functions' bodies unfolded at their calls and sequencing reassociated. -/
theorem main_eq (c : Dev nD) : main (F := F) c = seq ops := by
  simp only [main, fn_take_along_axis.body, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the device's own references only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

set_option maxRecDepth 8192 in
/-- For any float values: every weakly fair execution of the program terminates with every buffer at the fold of the
    operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The four stretches, read at the exact instance

After each stretch the buffers still needed are the named stages of the reference's value at the launch contents of
the argument arrays; an argument array is written by no operation. -/

section Read

open RefStages

/-- Contents carried to a typed reference's buffer and back are the contents. -/
theorem ofBuf_toBuf {Val : EltTy → Type} {T : BufTy} (x : TRef sig T) (v : T.Contents Val) : x.ofBuf (x.toBuf v) = v := by
  obtain ⟨r, h, _, _⟩ := x
  subst h
  rfl

variable (V0 : Valuation τ sig (Elt Ideal))

/-- The contents before the first stretch. -/
def val0 : Valuation τ sig (Elt Ideal) := V0
/-- The contents after the gather. -/
def val1 : Valuation τ sig (Elt Ideal) := after (ops1 (F := Ideal)) (val0 V0)
/-- The contents after the convolution. -/
def val2 : Valuation τ sig (Elt Ideal) := after (ops2 (F := Ideal)) (val1 V0)
/-- The contents after the statistics. -/
def val3 : Valuation τ sig (Elt Ideal) := after (ops3 (F := Ideal)) (val2 V0)
/-- The contents after the last stretch. -/
def val4 : Valuation τ sig (Elt Ideal) := after (ops4 (F := Ideal)) (val3 V0)

/-! ### After the gather -/

set_option maxRecDepth 8192 in
theorem val1_main_arg0 : val1 V0 (no_index (Proc.devRef .tc main_arg0)) = V0 (Proc.devRef .tc main_arg0) := by
  unfold val1
  after_results_simp
  rfl

set_option maxRecDepth 8192 in
theorem val1_main_arg1 : val1 V0 (no_index (Proc.devRef .tc main_arg1)) = V0 (Proc.devRef .tc main_arg1) := by
  unfold val1
  after_results_simp
  rfl

set_option maxRecDepth 8192 in
theorem val1_main_arg2 : val1 V0 (no_index (Proc.devRef .tc main_arg2)) = V0 (Proc.devRef .tc main_arg2) := by
  unfold val1
  after_results_simp
  rfl

set_option maxRecDepth 8192 in
theorem val1_main_arg3 : val1 V0 (no_index (Proc.devRef .tc main_arg3)) = V0 (Proc.devRef .tc main_arg3) := by
  unfold val1
  after_results_simp
  rfl

set_option maxRecDepth 8192 in
theorem val1_main_arg4 : val1 V0 (no_index (Proc.devRef .tc main_arg4)) = V0 (Proc.devRef .tc main_arg4) := by
  unfold val1
  after_results_simp
  rfl

attribute [local irreducible] Host.reduce Host.gather Host.reduceAdd in
set_option maxHeartbeats 2000000 in
set_option maxRecDepth 8192 in
theorem val1_main_v0 : val1 V0 (no_index (Proc.devRef .tc main_v0)) = fT (V0 (Proc.devRef .tc main_arg0)) := by
  unfold val1
  after_results_simp
  unfold val0
  try simp only [ofBuf_toBuf]
  rfl

attribute [local irreducible] Host.reduce Host.gather Host.reduceAdd in
set_option maxHeartbeats 2000000 in
set_option maxRecDepth 8192 in
theorem val1_main_v2 : val1 V0 (no_index (Proc.devRef .tc main_v2)) = taken (V0 (Proc.devRef .tc main_arg0)) (V0 (Proc.devRef .tc main_arg1)) := by
  unfold val1
  after_results_simp
  unfold val0
  try simp only [ofBuf_toBuf]
  rfl

/-! ### After the convolution -/

set_option maxRecDepth 8192 in
theorem val2_main_arg0 : val2 V0 (no_index (Proc.devRef .tc main_arg0)) = V0 (Proc.devRef .tc main_arg0) := by
  unfold val2
  after_results_simp
  exact val1_main_arg0 V0

set_option maxRecDepth 8192 in
theorem val2_main_arg1 : val2 V0 (no_index (Proc.devRef .tc main_arg1)) = V0 (Proc.devRef .tc main_arg1) := by
  unfold val2
  after_results_simp
  exact val1_main_arg1 V0

set_option maxRecDepth 8192 in
theorem val2_main_arg2 : val2 V0 (no_index (Proc.devRef .tc main_arg2)) = V0 (Proc.devRef .tc main_arg2) := by
  unfold val2
  after_results_simp
  exact val1_main_arg2 V0

set_option maxRecDepth 8192 in
theorem val2_main_arg3 : val2 V0 (no_index (Proc.devRef .tc main_arg3)) = V0 (Proc.devRef .tc main_arg3) := by
  unfold val2
  after_results_simp
  exact val1_main_arg3 V0

set_option maxRecDepth 8192 in
theorem val2_main_arg4 : val2 V0 (no_index (Proc.devRef .tc main_arg4)) = V0 (Proc.devRef .tc main_arg4) := by
  unfold val2
  after_results_simp
  exact val1_main_arg4 V0

attribute [local irreducible] Host.reduce Host.gather Host.reduceAdd in
set_option maxHeartbeats 2000000 in
set_option maxRecDepth 8192 in
theorem val2_main_v11 : val2 V0 (no_index (Proc.devRef .tc main_v11)) = feat (V0 (Proc.devRef .tc main_arg0)) (V0 (Proc.devRef .tc main_arg1)) (V0 (Proc.devRef .tc main_arg2)) := by
  unfold val2
  after_results_simp
  simp only [val1_main_v0, val1_main_v2, val1_main_arg2]
  try simp only [ofBuf_toBuf]
  rfl

/-! ### After the statistics -/

set_option maxRecDepth 8192 in
theorem val3_main_arg0 : val3 V0 (no_index (Proc.devRef .tc main_arg0)) = V0 (Proc.devRef .tc main_arg0) := by
  unfold val3
  after_results_simp
  exact val2_main_arg0 V0

set_option maxRecDepth 8192 in
theorem val3_main_arg1 : val3 V0 (no_index (Proc.devRef .tc main_arg1)) = V0 (Proc.devRef .tc main_arg1) := by
  unfold val3
  after_results_simp
  exact val2_main_arg1 V0

set_option maxRecDepth 8192 in
theorem val3_main_arg2 : val3 V0 (no_index (Proc.devRef .tc main_arg2)) = V0 (Proc.devRef .tc main_arg2) := by
  unfold val3
  after_results_simp
  exact val2_main_arg2 V0

set_option maxRecDepth 8192 in
theorem val3_main_arg3 : val3 V0 (no_index (Proc.devRef .tc main_arg3)) = V0 (Proc.devRef .tc main_arg3) := by
  unfold val3
  after_results_simp
  exact val2_main_arg3 V0

set_option maxRecDepth 8192 in
theorem val3_main_arg4 : val3 V0 (no_index (Proc.devRef .tc main_arg4)) = V0 (Proc.devRef .tc main_arg4) := by
  unfold val3
  after_results_simp
  exact val2_main_arg4 V0

set_option maxRecDepth 8192 in
theorem val3_main_v11 : val3 V0 (no_index (Proc.devRef .tc main_v11)) = feat (V0 (Proc.devRef .tc main_arg0)) (V0 (Proc.devRef .tc main_arg1)) (V0 (Proc.devRef .tc main_arg2)) := by
  unfold val3
  after_results_simp
  exact val2_main_v11 V0

attribute [local irreducible] Host.reduce Host.gather Host.reduceAdd in
set_option maxHeartbeats 2000000 in
set_option maxRecDepth 8192 in
theorem val3_main_v14 : val3 V0 (no_index (Proc.devRef .tc main_v14)) = mu (V0 (Proc.devRef .tc main_arg0)) (V0 (Proc.devRef .tc main_arg1)) (V0 (Proc.devRef .tc main_arg2)) := by
  unfold val3
  after_results_simp
  simp only [val2_main_v11]
  try simp only [ofBuf_toBuf]
  rfl

attribute [local irreducible] Host.reduce Host.gather Host.reduceAdd in
set_option maxHeartbeats 2000000 in
set_option maxRecDepth 8192 in
theorem val3_main_v15 : val3 V0 (no_index (Proc.devRef .tc main_v15)) = var (V0 (Proc.devRef .tc main_arg0)) (V0 (Proc.devRef .tc main_arg1)) (V0 (Proc.devRef .tc main_arg2)) := by
  unfold val3
  after_results_simp
  simp only [val2_main_v11]
  try simp only [ofBuf_toBuf]
  rfl

/-! ### After the last stretch -/

set_option maxRecDepth 8192 in
theorem val4_main_arg0 : val4 V0 (no_index (Proc.devRef .tc main_arg0)) = V0 (Proc.devRef .tc main_arg0) := by
  unfold val4
  after_results_simp
  exact val3_main_arg0 V0

set_option maxRecDepth 8192 in
theorem val4_main_arg1 : val4 V0 (no_index (Proc.devRef .tc main_arg1)) = V0 (Proc.devRef .tc main_arg1) := by
  unfold val4
  after_results_simp
  exact val3_main_arg1 V0

set_option maxRecDepth 8192 in
theorem val4_main_arg2 : val4 V0 (no_index (Proc.devRef .tc main_arg2)) = V0 (Proc.devRef .tc main_arg2) := by
  unfold val4
  after_results_simp
  exact val3_main_arg2 V0

set_option maxRecDepth 8192 in
theorem val4_main_arg3 : val4 V0 (no_index (Proc.devRef .tc main_arg3)) = V0 (Proc.devRef .tc main_arg3) := by
  unfold val4
  after_results_simp
  exact val3_main_arg3 V0

set_option maxRecDepth 8192 in
theorem val4_main_arg4 : val4 V0 (no_index (Proc.devRef .tc main_arg4)) = V0 (Proc.devRef .tc main_arg4) := by
  unfold val4
  after_results_simp
  exact val3_main_arg4 V0

attribute [local irreducible] Host.reduce Host.gather Host.reduceAdd in
set_option maxHeartbeats 2000000 in
set_option maxRecDepth 8192 in
theorem val4_main_v32 : val4 V0 (no_index (Proc.devRef .tc main_v32)) = res (V0 (Proc.devRef .tc main_arg0)) (V0 (Proc.devRef .tc main_arg1)) (V0 (Proc.devRef .tc main_arg2)) (V0 (Proc.devRef .tc main_arg3)) (V0 (Proc.devRef .tc main_arg4)) := by
  unfold val4
  after_results_simp
  simp only [val3_main_v11, val3_main_v14, val3_main_v15, val3_main_arg3, val3_main_arg4]
  try simp only [ofBuf_toBuf]
  rfl

/-- The whole line is the four stretches one after the other. -/
theorem after_ops : after (ops (F := Ideal)) V0 = val4 V0 := by
  rw [ops_split]
  simp only [StableHlo.after_append]
  rfl

end Read

/-- On every device, at the exact instance, from any memory with zero counters: every weakly fair execution of the
    reference terminates with its result at the composed value of the argument arrays' launch contents, and the
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = RefStages.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c main_v32).trans (by rw [after_ops]; exact val4_main_v32 _),
       (h c main_arg0).trans (by rw [after_ops]; exact val4_main_arg0 _),
       (h c main_arg1).trans (by rw [after_ops]; exact val4_main_arg1 _),
       (h c main_arg2).trans (by rw [after_ops]; exact val4_main_arg2 _),
       (h c main_arg3).trans (by rw [after_ops]; exact val4_main_arg3 _),
       (h c main_arg4).trans (by rw [after_ops]; exact val4_main_arg4 _)⟩)
    (run_all (F := Ideal) m ρ)

end Cert.ReferenceIdeal.RefRun

end
-- ==== Proof.RefValue.lean ====
/-
  The reference program's value is the common specification.

  The result array of the reference program, read at (batch, channel, node), is the specification's
  value there.  Each stage is read at an index over explicit coordinates: the two transposes swap the
  last two coordinates, the two reshapes keep the row-major position (row 3 n + k of a batch is
  neighbour k of node n), a broadcast of a scalar or of a row reads the scalar or the row's entry, the
  host's sums are the initial value plus the sum over the reduced coordinates, the contraction is the
  sum over the 128 input channels, and a quotient by the word of 4, 16 or 262144 is the product with
  one over it.  Up to the variance every value is the reading of a real number; the last line stays
  on the extended reals.
-/
import proofs.«102829_j74062416053231_2_alg».proof.Proof.RefStages
import proofs.«102829_j74062416053231_2_alg».proof.Proof.Spec
import proofs.«102829_j74062416053231_2_alg».proof.Proof.LibExtReal
import proofs.«102829_j74062416053231_2_alg».proof.Proof.LibGatherRows
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Facts₀ Facts

/-! ## The words of 4, 16 and 262144 -/

theorem ofBits_four : Ideal.ofBits .f32 0x40800000#32 = ((4 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_cnt : Ideal.ofBits .f32 0x48800000#32 = ((262144 : ℝ) : EReal) := by
  simp [Ideal.ofBits, Ideal.ieee, -EReal.coe_mul]; norm_num

/-! ## Sums over a rank-3 index set -/

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The indices of a (batch, node, channel) array that reduce to channel k over the first two axes are
    the (b, n, k): the sum over them is the double sum over b and n. -/
theorem sum_drop01 (h' : S4x65536x128.ReducesTo [0, 1] S128) (f : S4x65536x128.Idx → EReal) (k : Fin 128) :
    ∑ i ∈ Finset.univ.filter (fun i => h'.drop i = ix1 k), f i = ∑ b : Fin 4, ∑ n : Fin 65536, f (ix3 b n k) := by
  rw [Finset.sum_filter, sum_idx3]
  refine Finset.sum_congr rfl fun b _ => Finset.sum_congr rfl fun n _ => ?_
  have hv : ∀ c : Fin 128, (h'.drop (ix3 b n c) 0 : ℕ) = c.val := fun c =>
    Shape.ReducesTo.drop_apply_val_of_eq h' (ix3 b n c) 0 2
  have hd : ∀ c : Fin 128, h'.drop (ix3 b n c) = ix1 k ↔ c = k := fun c => by
    constructor
    · intro h
      have := congrArg (fun g => (g 0 : ℕ)) h
      exact Fin.ext ((hv c).symm.trans this)
    · rintro rfl
      funext a
      match a with
      | ⟨0, _⟩ => exact Fin.ext (hv c)
  simp only [hd]
  rw [Finset.sum_ite_eq' Finset.univ k]
  simp

/-- The reading of a double sum of reals is the double sum of the readings. -/
theorem coe_sum2 {ι κ : Type} (s : Finset ι) (t : Finset κ) (f : ι → κ → ℝ) :
    ((∑ i ∈ s, ∑ j ∈ t, f i j : ℝ) : EReal) = ∑ i ∈ s, ∑ j ∈ t, (f i j : EReal) := by
  rw [LibExtReal.coe_sum]
  exact Finset.sum_congr rfl fun i _ => LibExtReal.coe_sum t (f i)

variable [Cert.ReferenceIdeal.Facts]

/-! ## The layout stages at an index -/

section Layout
variable (a0 : FVec Ideal S4x128x65536 .f32) (a1 : IVec S4x65536x3 32)

/-- The transposed features at (b, n, c) are the features at (b, c, n). -/
theorem fT_apply (b : Fin 4) (n : Fin 65536) (c : Fin 128) :
    RefStages.fT a0 (ix3 b n c) = a0 (ix3 b c n) := by
  unfold RefStages.fT
  exact transpose_apply _ a0 _ (ix3 b n c) (ix3 b c n) (fun a => by
    match a with
    | ⟨0, _⟩ => rfl
    | ⟨1, _⟩ => rfl
    | ⟨2, _⟩ => rfl)

/-- Row 3 n + k of the index column is neighbour k of node n. -/
theorem idx_apply (b : Fin 4) (n : Fin 65536) (k : Fin 3) (u : Fin 1) :
    RefStages.idx a1 (ix3 b ⟨3 * n.val + k.val, by have := n.isLt; have := k.isLt; omega⟩ u) = a1 (ix3 b n k) := by
  unfold RefStages.idx
  refine shapeCast_apply _ _ _ (ix3 b n k) ?_
  rw [Shape.rowMajor_val_three, Shape.rowMajor_val_three]
  show (b.val * 65536 + n.val) * 3 + k.val = (b.val * 196608 + (3 * n.val + k.val)) * 1 + u.val
  have := u.isLt
  omega

/-- Entry (b, n, k, c) of the taken rows is entry c of row 3 n + k. -/
theorem taken4_apply (b : Fin 4) (n : Fin 65536) (k : Fin 3) (c : Fin 128) :
    RefStages.taken4 a0 a1 (ix4 b n k c)
      = RefStages.taken a0 a1 (ix3 b ⟨3 * n.val + k.val, by have := n.isLt; have := k.isLt; omega⟩ c) := by
  unfold RefStages.taken4
  refine shapeCast_apply _ _ _ _ ?_
  rw [Shape.rowMajor_val_three, Shape.rowMajor_val_four]
  show (b.val * 196608 + (3 * n.val + k.val)) * 128 + c.val = ((b.val * 65536 + n.val) * 3 + k.val) * 128 + c.val
  omega

/-- The neighbours' sum at (b, n, c): zero plus the three taken entries. -/
theorem nsum_apply (b : Fin 4) (n : Fin 65536) (c : Fin 128) :
    RefStages.nsum a0 a1 (ix3 b n c)
      = 0 + (RefStages.taken4 a0 a1 (ix4 b n 0 c) + RefStages.taken4 a0 a1 (ix4 b n 1 c)
          + RefStages.taken4 a0 a1 (ix4 b n 2 c)) := by
  unfold RefStages.nsum
  have hR : S4x65536x3x128.Reduces [2] S4x65536x128 := by decide
  rw [hostReduceAdd_apply, Ideal.hostReduceAdd_single _ hR, constant_apply, Ideal.ofBits_zero_f32]
  have hl : ∀ k : Fin 3, hR.lift (ix3 b n c) k = ix4 b n k c := fun k => funext fun a => Fin.ext (by
    match a with
    | ⟨0, _⟩ => rfl
    | ⟨1, _⟩ => rfl
    | ⟨2, _⟩ => rfl
    | ⟨3, _⟩ => rfl)
  show 0 + ∑ k : Fin 3, RefStages.taken4 a0 a1 (hR.lift (ix3 b n c) k) = _
  rw [Fin.sum_univ_three, hl, hl, hl]

end Layout

/-! ## Taking rows: with every index in range the taken row is the neighbour's feature row -/

section Take
variable (a0 : FVec Ideal S4x128x65536 .f32) (a1 : IVec S4x65536x3 32)
open Cert.LibGatherRows

/-- An index in range is its own wrapped index. -/
theorem wrapped_apply (hring : ∀ i, 0 ≤ (a1 i).toInt ∧ (a1 i).toInt < 65536)
    (b : Fin 4) (n : Fin 65536) (k : Fin 3) (u : Fin 1) :
    RefStages.wrapped a1 (ix3 b ⟨3 * n.val + k.val, by have := n.isLt; have := k.isLt; omega⟩ u) = a1 (ix3 b n k) := by
  unfold RefStages.wrapped RefStages.isNeg RefStages.shifted
  rw [select_apply]
  show Scalar.select (IntOp.cmpi .slt (RefStages.idx a1 _) 0#32) (IntOp.addi (RefStages.idx a1 _) 65536#32)
    (RefStages.idx a1 _) = _
  rw [idx_apply]
  exact wrap_eq (hring _)

/-- An index in range passes both bound tests. -/
theorem inBounds_apply (hring : ∀ i, 0 ≤ (a1 i).toInt ∧ (a1 i).toInt < 65536)
    (b : Fin 4) (n : Fin 65536) (k : Fin 3) (u : Fin 1) :
    RefStages.inBounds a1 (ix3 b ⟨3 * n.val + k.val, by have := n.isLt; have := k.isLt; omega⟩ u) = 1#1 := by
  unfold RefStages.inBounds RefStages.geZero RefStages.leUpper
  show IntOp.andi (IntOp.cmpi .sge (RefStages.wrapped a1 _) 0#32) (IntOp.cmpi .sle (RefStages.wrapped a1 _) 65535#32) = 1#1
  rw [wrapped_apply a1 hring]
  exact mask_eq (hring _)

/-- Entry c of taken row 3 n + k is the feature of channel c at neighbour k of node n. -/
theorem taken_apply (hring : ∀ i, 0 ≤ (a1 i).toInt ∧ (a1 i).toInt < 65536)
    (b : Fin 4) (n : Fin 65536) (k : Fin 3) (c : Fin 128) :
    RefStages.taken a0 a1 (ix3 b ⟨3 * n.val + k.val, by have := n.isLt; have := k.isLt; omega⟩ c)
      = a0 (ix3 b c (Cert.Spec.nbrOf a1 b n k)) := by
  have hlt : 3 * n.val + k.val < 196608 := by have := n.isLt; have := k.isLt; omega
  unfold RefStages.taken
  rw [select_apply]
  have hm : RefStages.maskB a1 (ix3 b ⟨3 * n.val + k.val, hlt⟩ c) = 1#1 := by
    unfold RefStages.maskB
    rw [broadcastInDim_apply _ _ _ _ (ix2 b ⟨3 * n.val + k.val, hlt⟩) (fun a => by
      match a with
      | ⟨0, _⟩ => rfl
      | ⟨1, _⟩ => rfl)]
    unfold RefStages.mask
    rw [reduce_andi_unit_const]
    exact inBounds_apply a1 hring b n k _
  rw [hm, select_one]
  unfold RefStages.gathered
  refine (gather_rows_apply (by decide) gather_S4x65536x128_S4x196608x1_S4x196608x128_2_1_0_0_1_2_11128_wf
    (RefStages.fT a0) (RefStages.wrapped a1) b ⟨3 * n.val + k.val, hlt⟩ c).trans ?_
  rw [fT_apply]
  refine congrArg (fun m => a0 (ix3 b c m)) (Fin.ext ?_)
  show min (RefStages.wrapped a1 (ix3 b ⟨3 * n.val + k.val, hlt⟩ ⟨0, Nat.one_pos⟩)).toInt.toNat (65536 - 1)
    = (a1 (ix3 b n k)).toNat % 65536
  rw [wrapped_apply a1 hring]
  exact clamp_mod (hring _)

end Take

/-! ## The values: every stage up to the variance is the reading of the specification's real -/

section Values
variable (a0 : FVec Ideal S4x128x65536 .f32) (a1 : IVec S4x65536x3 32) (a2 : FVec Ideal S128x128x16 .f32)

local notation "xS" => Cert.Spec.xR a0
local notation "nS" => Cert.Spec.nbrOf a1
local notation "wS" => Cert.Spec.wR a2
local notation "DD" => dot_S4x65536x128_S128x128_S4x65536x128_2_0_01_1_n_n

/-- The neighbourhood mean. -/
theorem fmean_eq (h0 : ∀ i, a0 i = ((a0 i).toReal : EReal))
    (hring : ∀ i, 0 ≤ (a1 i).toInt ∧ (a1 i).toInt < 65536) (b : Fin 4) (n : Fin 65536) (c : Fin 128) :
    RefStages.fmean a0 a1 (ix3 b n c) = ((Cert.Spec.fm xS nS b n c : ℝ) : EReal) := by
  have hx : ∀ (b : Fin 4) (c : Fin 128) (m : Fin 65536), a0 (ix3 b c m) = ((xS b c m : ℝ) : EReal) :=
    fun b c m => h0 _
  unfold RefStages.fmean
  rw [hostDivf_apply, broadcastInDim_scalar_apply, constant_apply, ofBits_four,
    Ideal.div_coe (by norm_num : (4 : ℝ) ≠ 0)]
  unfold RefStages.fsum
  rw [addf_apply, nsum_apply, taken4_apply, taken4_apply, taken4_apply, taken_apply a0 a1 hring,
    taken_apply a0 a1 hring, taken_apply a0 a1 hring, fT_apply]
  simp only [hx]
  have e : Cert.Spec.fm xS nS b n c
      = (0 + (xS b c (nS b n 0) + xS b c (nS b n 1) + xS b c (nS b n 2)) + xS b c n) * (1 / 4) := by
    unfold Cert.Spec.fm; ring
  rw [e]
  simp only [EReal.coe_add, EReal.coe_mul, EReal.coe_zero]

/-- The mean weight matrix. -/
theorem wmean_eq (h2 : ∀ i, a2 i = ((a2 i).toReal : EReal)) (c k : Fin 128) :
    RefStages.wmean a2 (ix2 c k) = ((Cert.Spec.wm wS c k : ℝ) : EReal) := by
  have hw : ∀ (c k : Fin 128) (j : Fin 16), a2 (ix3 c k j) = ((wS c k j : ℝ) : EReal) := fun c k j => h2 _
  unfold RefStages.wmean
  rw [hostDivf_apply, broadcastInDim_scalar_apply, constant_apply, ofBits_sixteen,
    Ideal.div_coe (by norm_num : (16 : ℝ) ≠ 0)]
  unfold RefStages.wsum
  have hR : S128x128x16.Reduces [2] S128x128 := by decide
  rw [hostReduceAdd_apply, Ideal.hostReduceAdd_single _ hR, constant_apply, Ideal.ofBits_zero_f32]
  have hl : ∀ j : Fin 16, hR.lift (ix2 c k) j = ix3 c k j := fun j => funext fun a => Fin.ext (by
    match a with
    | ⟨0, _⟩ => rfl
    | ⟨1, _⟩ => rfl
    | ⟨2, _⟩ => rfl)
  show (0 + ∑ j : Fin 16, a2 (hR.lift (ix2 c k) j)) * _ = _
  simp only [hl, hw]
  have e : Cert.Spec.wm wS c k = (0 + ∑ j, wS c k j) * (1 / 16) := by
    unfold Cert.Spec.wm; ring
  rw [e, EReal.coe_mul, EReal.coe_add, EReal.coe_zero, LibExtReal.coe_sum]

/-- The convolved feature. -/
theorem feat_eq (h0 : ∀ i, a0 i = ((a0 i).toReal : EReal)) (h2 : ∀ i, a2 i = ((a2 i).toReal : EReal))
    (hring : ∀ i, 0 ≤ (a1 i).toInt ∧ (a1 i).toInt < 65536) (b : Fin 4) (n : Fin 65536) (k : Fin 128) :
    RefStages.feat a0 a1 a2 (ix3 b n k) = ((Cert.Spec.feat xS nS wS b n k : ℝ) : EReal) := by
  unfold RefStages.feat
  show FloatOps.dotGeneral DD none .single (RefStages.fmean a0 a1) (RefStages.wmean a2) (ix3 b n k) = _
  rw [Ideal.dotGeneral_apply]
  have hr : (DD).contr.rank = 1 := rfl
  have hs : (DD).contr.size ⟨0, by omega⟩ = 128 := rfl
  rw [← Equiv.sum_comp (contrEquiv1 DD 128 hr hs).symm]
  have el : ∀ c : Fin 128, (DD).lhsIdx (ix3 b n k) ((contrEquiv1 DD 128 hr hs).symm c) = ix3 b n c :=
    fun c => funext fun a => Fin.ext (by
      match a with
      | ⟨0, _⟩ => rfl
      | ⟨1, _⟩ => rfl
      | ⟨2, _⟩ => exact contrEquiv1_symm_val DD 128 hr hs c)
  have er : ∀ c : Fin 128, (DD).rhsIdx (ix3 b n k) ((contrEquiv1 DD 128 hr hs).symm c) = ix2 c k :=
    fun c => funext fun a => Fin.ext (by
      match a with
      | ⟨0, _⟩ => exact contrEquiv1_symm_val DD 128 hr hs c
      | ⟨1, _⟩ => rfl)
  simp only [el, er, fmean_eq a0 a1 h0 hring, wmean_eq a2 h2]
  unfold Cert.Spec.feat
  rw [LibExtReal.coe_sum]
  simp only [EReal.coe_mul]

end Values

/-! ## The channel statistics -/

section Stats
variable (a0 : FVec Ideal S4x128x65536 .f32) (a1 : IVec S4x65536x3 32) (a2 : FVec Ideal S128x128x16 .f32)

local notation "xS" => Cert.Spec.xR a0
local notation "nS" => Cert.Spec.nbrOf a1
local notation "wS" => Cert.Spec.wR a2

/-- A row of 128 channel values broadcast over every batch and node reads the channel's value. -/
theorem bcastRow_apply {α : Type} (v : S128.Idx → α) (b : Fin 4) (n : Fin 65536) (k : Fin 128) :
    broadcastInDim S4x65536x128 ![0, 1, 2] bcast_S1x1x128_S4x65536x128_0_1_2
      (broadcastInDim S1x1x128 ![2] bcast_S128_S1x1x128_2 v) (ix3 b n k) = v (ix1 k) := by
  refine (broadcastInDim_apply _ _ _ (ix3 b n k) (ix3 (0 : Fin 1) (0 : Fin 1) k) (fun a => by
    match a with
    | ⟨0, _⟩ => rfl
    | ⟨1, _⟩ => rfl
    | ⟨2, _⟩ => rfl)).trans ?_
  exact broadcastInDim_apply _ _ _ (ix3 (0 : Fin 1) (0 : Fin 1) k) (ix1 k) (fun a => by
    match a with
    | ⟨0, _⟩ => rfl)

/-- A channel's sum over every batch and node. -/
theorem featSum_eq (h0 : ∀ i, a0 i = ((a0 i).toReal : EReal)) (h2 : ∀ i, a2 i = ((a2 i).toReal : EReal))
    (hring : ∀ i, 0 ≤ (a1 i).toInt ∧ (a1 i).toInt < 65536) (k : Fin 128) :
    RefStages.featSum a0 a1 a2 (ix1 k)
      = ((∑ b : Fin 4, ∑ n : Fin 65536, Cert.Spec.feat xS nS wS b n k : ℝ) : EReal) := by
  unfold RefStages.featSum
  rw [hostReduceAdd_apply]
  unfold Ideal.hostReduceAdd
  show constant (F := Ideal) S_ .f32 0x00000000#32 _
    + ∑ i ∈ Finset.univ.filter (fun i => reducesTo_S4x65536x128_S128_d0_1.drop i = ix1 k), RefStages.feat a0 a1 a2 i = _
  rw [constant_apply, Ideal.ofBits_zero_f32, zero_add, sum_drop01]
  simp only [feat_eq a0 a1 a2 h0 h2 hring]
  exact (coe_sum2 _ _ _).symm

/-- A channel's mean. -/
theorem mu_eq (h0 : ∀ i, a0 i = ((a0 i).toReal : EReal)) (h2 : ∀ i, a2 i = ((a2 i).toReal : EReal))
    (hring : ∀ i, 0 ≤ (a1 i).toInt ∧ (a1 i).toInt < 65536) (k : Fin 128) :
    RefStages.mu a0 a1 a2 (ix1 k) = ((Cert.Spec.mu xS nS wS k : ℝ) : EReal) := by
  unfold RefStages.mu
  rw [hostDivf_apply, broadcastInDim_scalar_apply, constant_apply, ofBits_cnt,
    Ideal.div_coe (by norm_num : (262144 : ℝ) ≠ 0), featSum_eq a0 a1 a2 h0 h2 hring, ← EReal.coe_mul]
  refine congrArg (fun r : ℝ => (r : EReal)) ?_
  simp only [Cert.Spec.mu, Cert.Spec.cnt]
  ring

/-- The mean taken inside the variance is the same mean. -/
theorem vmeanRow_eq (h0 : ∀ i, a0 i = ((a0 i).toReal : EReal)) (h2 : ∀ i, a2 i = ((a2 i).toReal : EReal))
    (hring : ∀ i, 0 ≤ (a1 i).toInt ∧ (a1 i).toInt < 65536) (k : Fin 128) :
    RefStages.vmeanRow a0 a1 a2 (ix3 (0 : Fin 1) (0 : Fin 1) k) = ((Cert.Spec.mu xS nS wS k : ℝ) : EReal) := by
  have e : RefStages.vmeanRow a0 a1 a2 (ix3 (0 : Fin 1) (0 : Fin 1) k) = RefStages.mu a0 a1 a2 (ix1 k) := by
    unfold RefStages.vmeanRow RefStages.mu RefStages.featSum
    rw [hostDivf_apply, hostDivf_apply, broadcastInDim_scalar_apply, broadcastInDim_scalar_apply,
      broadcastInDim_apply _ _ _ (ix3 (0 : Fin 1) (0 : Fin 1) k) (ix1 k) (fun a => by
        match a with
        | ⟨0, _⟩ => rfl)]
  rw [e, mu_eq a0 a1 a2 h0 h2 hring]

/-- The squared deviation. -/
theorem sq_eq (h0 : ∀ i, a0 i = ((a0 i).toReal : EReal)) (h2 : ∀ i, a2 i = ((a2 i).toReal : EReal))
    (hring : ∀ i, 0 ≤ (a1 i).toInt ∧ (a1 i).toInt < 65536) (b : Fin 4) (n : Fin 65536) (k : Fin 128) :
    RefStages.sq a0 a1 a2 (ix3 b n k)
      = (((Cert.Spec.feat xS nS wS b n k - Cert.Spec.mu xS nS wS k) ^ 2 : ℝ) : EReal) := by
  have hd : RefStages.dev a0 a1 a2 (ix3 b n k)
      = ((Cert.Spec.feat xS nS wS b n k - Cert.Spec.mu xS nS wS k : ℝ) : EReal) := by
    unfold RefStages.dev
    rw [subf_apply, broadcastInDim_apply _ _ _ (ix3 b n k) (ix3 (0 : Fin 1) (0 : Fin 1) k) (fun a => by
        match a with
        | ⟨0, _⟩ => rfl
        | ⟨1, _⟩ => rfl
        | ⟨2, _⟩ => rfl),
      vmeanRow_eq a0 a1 a2 h0 h2 hring, feat_eq a0 a1 a2 h0 h2 hring, ← EReal.coe_sub]
  unfold RefStages.sq
  rw [mulf_apply, hd, ← EReal.coe_mul, pow_two]

/-- The divisor of the variance is the count. -/
theorem cntf_eq : RefStages.cntf ix0 = ((262144 : ℝ) : EReal) := by
  unfold RefStages.cntf
  rw [subf_apply, constant_apply, ofBits_cnt]
  show ((262144 : ℝ) : EReal) - ((((0#32 : BitVec 32).toInt : ℤ) : ℝ) : EReal) = _
  have hz : (0#32 : BitVec 32).toInt = 0 := by decide
  rw [hz, Int.cast_zero, EReal.coe_zero, sub_zero]

/-- The divisor is positive. -/
theorem varCond_eq : RefStages.varCond ix0 = 1#1 := by
  unfold RefStages.varCond
  rw [cmpf_apply, cntf_eq, constant_apply, Ideal.ofBits_zero_f32]
  show Ideal.cmp .ogt ((262144 : ℝ) : EReal) 0 = 1#1
  have hpos : (0 : EReal) < ((262144 : ℝ) : EReal) := by exact_mod_cast (by norm_num : (0 : ℝ) < 262144)
  unfold Ideal.cmp
  simp [hpos]

/-- A channel's variance. -/
theorem var_eq (h0 : ∀ i, a0 i = ((a0 i).toReal : EReal)) (h2 : ∀ i, a2 i = ((a2 i).toReal : EReal))
    (hring : ∀ i, 0 ≤ (a1 i).toInt ∧ (a1 i).toInt < 65536) (k : Fin 128) :
    RefStages.var a0 a1 a2 (ix1 k) = ((Cert.Spec.var xS nS wS k : ℝ) : EReal) := by
  have hs : RefStages.sqSum a0 a1 a2 (ix1 k)
      = ((∑ b : Fin 4, ∑ n : Fin 65536, (Cert.Spec.feat xS nS wS b n k - Cert.Spec.mu xS nS wS k) ^ 2 : ℝ) : EReal) := by
    unfold RefStages.sqSum
    rw [hostReduceAdd_apply]
    unfold Ideal.hostReduceAdd
    show constant (F := Ideal) S_ .f32 0x00000000#32 _
      + ∑ i ∈ Finset.univ.filter (fun i => reducesTo_S4x65536x128_S128_d0_1.drop i = ix1 k), RefStages.sq a0 a1 a2 i = _
    rw [constant_apply, Ideal.ofBits_zero_f32, zero_add, sum_drop01]
    simp only [sq_eq a0 a1 a2 h0 h2 hring]
    exact (coe_sum2 _ _ _).symm
  unfold RefStages.var
  rw [select_apply, broadcastInDim_scalar_apply, varCond_eq, select_one]
  unfold RefStages.varRaw
  rw [hostDivf_apply, broadcastInDim_scalar_apply, cntf_eq, Ideal.div_coe (by norm_num : (262144 : ℝ) ≠ 0), hs,
    ← EReal.coe_mul]
  refine congrArg (fun r : ℝ => (r : EReal)) ?_
  simp only [Cert.Spec.var, Cert.Spec.cnt]
  ring

end Stats

/-! ## The result -/

/-- The reference program's result is the specification's array. -/
theorem res_eq (a0 : FVec Ideal S4x128x65536 .f32) (a1 : IVec S4x65536x3 32) (a2 : FVec Ideal S128x128x16 .f32)
    (a3 a4 : FVec Ideal S128 .f32) (h0 : ∀ i, a0 i = ((a0 i).toReal : EReal))
    (h2 : ∀ i, a2 i = ((a2 i).toReal : EReal)) (hring : ∀ i, 0 ≤ (a1 i).toInt ∧ (a1 i).toInt < 65536) :
    RefStages.res a0 a1 a2 a3 a4 = Cert.Spec.G a0 a1 a2 a3 a4 := by
  funext i
  obtain ⟨b, k, n, rfl⟩ : ∃ (b : Fin 4) (k : Fin 128) (n : Fin 65536), i = ix3 b k n :=
    ⟨i 0, i 1, i 2, eq_ix3 i⟩
  unfold RefStages.res
  rw [transpose_apply _ _ _ (ix3 b k n) (ix3 b n k) (fun a => by
    match a with
    | ⟨0, _⟩ => rfl
    | ⟨1, _⟩ => rfl
    | ⟨2, _⟩ => rfl)]
  unfold RefStages.rect
  rw [maximumf_apply, broadcastInDim_scalar_apply, constant_apply, Ideal.ofBits_zero_f32]
  unfold RefStages.pre
  rw [addf_apply, bcastRow_apply]
  unfold RefStages.scaled
  rw [mulf_apply, bcastRow_apply]
  unfold RefStages.normed
  rw [mulf_apply, bcastRow_apply]
  unfold RefStages.cen
  rw [subf_apply, bcastRow_apply, feat_eq a0 a1 a2 h0 h2 hring, mu_eq a0 a1 a2 h0 h2 hring, ← EReal.coe_sub]
  unfold RefStages.rstd RefStages.varEps
  show max (_ * Ideal.rsqrt (RefStages.var a0 a1 a2 (ix1 k) + Ideal.ofBits .f32 0x3727C5AC#32) * a3 (ix1 k)
    + a4 (ix1 k)) 0 = _
  rw [var_eq a0 a1 a2 h0 h2 hring]
  rfl

end Cert.ReferenceIdeal.RefValue

end
-- ==== Proof.lean ====
/-
  A graph convolution with batch normalisation and a rectifier: the tiled two-kernel program against the plain
  reference, on the extended reals.

  Both programs compute, at (batch b, channel k, node n),
      max ((feat b n k − μ k) · rsqrt (var k + ε) · γ k + β k) 0,
  where feat is the node's feature averaged with its three neighbours' and contracted with the mean of the sixteen
  weight matrices, and μ, var are the channel's mean and variance over all (b, n). The kernel program takes the three
  neighbour rows by three gathers, multiplies by 1/4 where the reference divides by 4, computes feat strip by strip on
  the matrix unit together with each strip's column sums of feat and of feat², finishes the statistics on the host as
  E[feat²] − μ², and normalises in a second kernel that also transposes; the reference gathers once, reduces, and takes
  the variance as the mean squared deviation. Under the precondition — every float input finite, every neighbour id a
  node number — every intermediate up to the variance is a real number, the two variances are equal by the usual
  identity, and everything else differs only by the order and grouping of sums. The word-level program and its
  idealization are the same text, so nothing is owed for the idealization itself.
-/
import proofs.«102829_j74062416053231_2_alg».proof.Defs
import proofs.«102829_j74062416053231_2_alg».proof.Proof.Gen.Kernel
import proofs.«102829_j74062416053231_2_alg».proof.Proof.Gen.Kernel.Skeleton
import proofs.«102829_j74062416053231_2_alg».proof.Proof.Gen.Kernel.Launch
import proofs.«102829_j74062416053231_2_alg».proof.Proof.Gen.Kernel.Points
import proofs.«102829_j74062416053231_2_alg».proof.Proof.Gen.Kernel.Frame
import proofs.«102829_j74062416053231_2_alg».proof.Proof.Gen.KernelIdeal
import proofs.«102829_j74062416053231_2_alg».proof.Proof.Gen.KernelIdeal.Skeleton
import proofs.«102829_j74062416053231_2_alg».proof.Proof.Gen.KernelIdeal.Launch
import proofs.«102829_j74062416053231_2_alg».proof.Proof.Gen.KernelIdeal.Points
import proofs.«102829_j74062416053231_2_alg».proof.Proof.Gen.KernelIdeal.Frame
import proofs.«102829_j74062416053231_2_alg».proof.Proof.Gen.ReferenceIdeal
import proofs.«102829_j74062416053231_2_alg».proof.Proof.Gen.Pre_finite_inputs
import proofs.«102829_j74062416053231_2_alg».proof.Proof.KValue
import proofs.«102829_j74062416053231_2_alg».proof.Proof.RefRun
import proofs.«102829_j74062416053231_2_alg».proof.Proof.RefValue
import proofs.«102829_j74062416053231_2_alg».proof.Proof.PreFacts
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run m ρ)

/-- The two programs end with the same result array: the specification's function of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ hpre, ?_⟩
  refine (θ_run Cert.ReferenceIdeal.defs _ _).mono (fun _ h c => ⟨(h c).1.trans ?_, (h c).2⟩)
    (Cert.ReferenceIdeal.RefRun.run m' ρ')
  obtain ⟨h0, h2, -, -, hring⟩ := Cert.PreFacts.decode _ _ _ _ _ (hpre c)
  rw [(hagree c).1, (hagree c).2.1, (hagree c).2.2.1, (hagree c).2.2.2.1, (hagree c).2.2.2.2]
  exact Cert.ReferenceIdeal.RefValue.res_eq _ _ _ _ _ h0 h2 hring

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
